-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4x4096x4096 : Shape := ⟨3, ![4, 4096, 4096]⟩
abbrev S64x64 : Shape := ⟨2, ![64, 64]⟩
abbrev S4x64x64 : Shape := ⟨3, ![4, 64, 64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S64x64 : S_.BroadcastsInDim S64x64 (![] : Fin 0 → Fin S64x64.rank)
  reducesTo_S64x64_S_d0_1 : S64x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_

variable [Facts]

def fn_part1 {F : FTy → Type} [FloatOps F] (main_arg4 : FVec F S4x64x64 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S4x64x64 .f32 := Host.absf main_arg4
  let main_cst_6 : FVec F S_ .f32 := constant S_ .f32 0x7F800000#32
  let main_v20 : FVec F S4x64x64 .f32 := broadcastInDim S4x64x64 ![] bcast_S_S4x64x64 main_cst_6
  let main_v21 : IVec S4x64x64 1 := cmpf .olt main_v19 main_v20
  let main_c_7 : IVec S_ 1 := constantI S_ 1 1#1
  let main_v22 : IVec S_ 1 := (fun x v => Host.reduce IntOp.andi x v reducesTo_S4x64x64_S_d0_1_2 h_S_) main_v21 main_c_7
  let main_v23 : IVec S_ 1 := andi main_v18 main_v22
  main_v23

def fn {F : FTy → Type} [FloatOps F] (main_arg0 : FVec F S4096x64 .f32) (main_arg1 : FVec F S4x4096x4096 .f32) (main_arg2 : FVec F S64x64 .f32) (main_arg3 : FVec F S4x64x64 .f32) (main_arg4 : FVec F S4x64x64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S4x64x64 .f32 := Host.absf main_arg3
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg4 main_v13 main_v16
-- ==== Kernel.lean ====
abbrev S4096x64 : Shape := ⟨2, ![4096, 64]⟩
abbrev S4x4096x4096 : Shape := ⟨3, ![4, 4096, 4096]⟩
abbrev S64x64 : Shape := ⟨2, ![64, 64]⟩
abbrev S4x64x64 : Shape := ⟨3, ![4, 64, 64]⟩
abbrev S1x1024x4096 : Shape := ⟨3, ![1, 1024, 4096]⟩
abbrev S1x64x64 : Shape := ⟨3, ![1, 64, 64]⟩
abbrev S64x4096 : Shape := ⟨2, ![64, 4096]⟩
abbrev S4096x128 : Shape := ⟨2, ![4096, 128]⟩
abbrev S72x4096 : Shape := ⟨2, ![72, 4096]⟩
abbrev S8x4096 : Shape := ⟨2, ![8, 4096]⟩
abbrev S1024x4096 : Shape := ⟨2, ![1024, 4096]⟩
abbrev S1024x128 : Shape := ⟨2, ![1024, 128]⟩
abbrev S1024x1 : Shape := ⟨2, ![1024, 1]⟩
abbrev S1024x64 : Shape := ⟨2, ![1024, 64]⟩
abbrev S72x1024 : Shape := ⟨2, ![72, 1024]⟩
abbrev S1x4096 : Shape := ⟨2, ![1, 4096]⟩

abbrev nBuf : Space → Nat
  | .hbm => 6
  | .vmem => 13
  | .smem => 0
  | _ => 0

abbrev bufTy : (tb : Table) → Fin (tcTables nBuf tb) → BufTy
  | .hbm, ⟨0, _⟩ => ⟨S4096x64, .f32⟩
  | .hbm, ⟨1, _⟩ => ⟨S4x4096x4096, .f32⟩
  | .hbm, ⟨2, _⟩ => ⟨S64x64, .f32⟩
  | .hbm, ⟨3, _⟩ => ⟨S4x64x64, .f32⟩
  | .hbm, ⟨4, _⟩ => ⟨S4x64x64, .f32⟩
  | .hbm, ⟨5, _⟩ => ⟨S4096x64, .f32⟩
  | .local _ .vmem, ⟨0, _⟩ => ⟨S4096x64, .f32⟩
  | .local _ .vmem, ⟨1, _⟩ => ⟨S1x1024x4096, .f32⟩
  | .local _ .vmem, ⟨2, _⟩ => ⟨S1x1024x4096, .f32⟩
  | .local _ .vmem, ⟨3, _⟩ => ⟨S64x64, .f32⟩
  | .local _ .vmem, ⟨4, _⟩ => ⟨S1x64x64, .f32⟩
  | .local _ .vmem, ⟨5, _⟩ => ⟨S1x64x64, .f32⟩
  | .local _ .vmem, ⟨6, _⟩ => ⟨S1x64x64, .f32⟩
  | .local _ .vmem, ⟨7, _⟩ => ⟨S1x64x64, .f32⟩
  | .local _ .vmem, ⟨8, _⟩ => ⟨S4096x64, .f32⟩
  | .local _ .vmem, ⟨9, _⟩ => ⟨S64x4096, .f32⟩
  | .local _ .vmem, ⟨10, _⟩ => ⟨S4096x128, .bf16⟩
  | .local _ .vmem, ⟨11, _⟩ => ⟨S72x4096, .bf16⟩
  | .local _ .vmem, ⟨12, _⟩ => ⟨S72x4096, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let arg1 : BitVec 32 := BitVec.ofNat 32 (i 1).val
  let c1024_i32 : BitVec 32 := 1024#32
  let v18 : BitVec 32 := Scalar.muli arg1 c1024_i32
  let v19 : Index := Scalar.indexCast v18
  let c0_10 : Index := 0#32
  ![v19.toNat, 0]
def k0_off2 (i : grid0.Coords) : Fin 2 → Nat :=
  let c0_15 : Index := 0#32
  let arg1 : BitVec 32 := BitVec.ofNat 32 (i 1).val
  let c1024_i32_14 : BitVec 32 := 1024#32
  let v29 : BitVec 32 := Scalar.muli arg1 c1024_i32_14
  let v30 : Index := Scalar.indexCast v29
  ![0, v30.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4096x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  inb_S4096x64_S4096x64_0_0 : ∀ a, (![0, 0] : Fin 2 → Nat) a + S4096x64.size a ≤ S4096x64.size a
  h_S4096x64 : 0 < S4096x64.numel
  inb_S64x64_S64x64_0_0 : ∀ a, (![0, 0] : Fin 2 → Nat) a + S64x64.size a ≤ S64x64.size a
  h_S64x64 : 0 < S64x64.numel
  transposes_S4096x64_p1_0_S64x4096 : S4096x64.Transposes [1, 0] S64x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  iota_S4096x64_d1_w32 : S4096x64.Iotas .tc 32 [1]
  bitsLt_bf16_f32 : FTy.bits .bf16 < FTy.bits .f32
  inb_S4096x128_S4096x64_0_64 : ∀ a, (![0, 64] : Fin 2 → Nat) a + S4096x64.size a ≤ S4096x128.size a
  shapeCasts_S4096x64_S4096x64 : S4096x64.ShapeCasts S4096x64
  packedbf16_S4096x128_S4096x64_0_64 : (Rect.unit (s := S4096x128) ![0, 64] S4096x64.size inb_S4096x128_S4096x64_0_64).PackedRows (EltTy.packing .bf16)
  iota_S8x4096_d0_w32 : S8x4096.Iotas .tc 32 [0]
  inb_S72x4096_S8x4096_64_0 : ∀ a, (![64, 0] : Fin 2 → Nat) a + S8x4096.size a ≤ S72x4096.size a
  h_S8x4096 : 0 < S8x4096.numel
  shapeCasts_S8x4096_S8x4096 : S8x4096.ShapeCasts S8x4096
  packedbf16_S72x4096_S8x4096_64_0 : (Rect.unit (s := S72x4096) ![64, 0] S8x4096.size inb_S72x4096_S8x4096_64_0).PackedRows (EltTy.packing .bf16)
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S4096x128_S4096x64_0_0 : ∀ a, (![0, 0] : Fin 2 → Nat) a + S4096x64.size a ≤ S4096x128.size a
  packedbf16_S4096x128_S4096x64_0_0 : (Rect.unit (s := S4096x128) ![0, 0] S4096x64.size inb_S4096x128_S4096x64_0_0).PackedRows (EltTy.packing .bf16)
  inb_S72x4096_S64x4096_0_0 : ∀ a, (![0, 0] : Fin 2 → Nat) a + S64x4096.size a ≤ S72x4096.size a
  packedbf16_S72x4096_S64x4096_0_0 : (Rect.unit (s := S72x4096) ![0, 0] S64x4096.size inb_S72x4096_S64x4096_0_0).PackedRows (EltTy.packing .bf16)
  inb_S72x4096_S72x4096_0_0 : ∀ a, (![0, 0] : Fin 2 → Nat) a + S72x4096.size a ≤ S72x4096.size a
  h_S72x4096 : 0 < S72x4096.numel
  shapeCasts_S72x4096_S72x4096 : S72x4096.ShapeCasts S72x4096
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S4096x128_S4096x128_0_0 : ∀ a, (![0, 0] : Fin 2 → Nat) a + S4096x128.size a ≤ S4096x128.size a
  h_S4096x128 : 0 < S4096x128.numel
  slices_S1024x128_o0_64_S1024x1 : S1024x128.Slices ![0, 64] S1024x1
  h_S1024x64 : 0 < S1024x64.numel
  shapeCasts_S1024x64_S1024x64 : S1024x64.ShapeCasts S1024x64
  slices_S1024x128_o0_0_S1024x64 : S1024x128.Slices ![0, 0] S1024x64
  broadcasts_S1024x1_S1024x64 : S1024x1.Broadcasts S1024x64
  h_S72x1024 : 0 < S72x1024.numel
  inb_S72x4096_S1x4096_64_0 : ∀ a, (![64, 0] : Fin 2 → Nat) a + S1x4096.size a ≤ S72x4096.size a
  h_S1x4096 : 0 < S1x4096.numel
  broadcasts_S1x4096_S64x4096 : S1x4096.Broadcasts S64x4096
  transposes_S64x4096_p1_0_S4096x64 : S64x4096.Transposes [1, 0] S4096x64
  dot_S4096x64_S64x64_S4096x64_1_0_0_1_n_n_wf : DotDims.WF S4096x64 S64x64 S4096x64 [1] [0] [0] [1] [] []
  dot_S64x64_S64x4096_S64x4096_0_0_1_1_n_n_wf : DotDims.WF S64x64 S64x4096 S64x4096 [0] [0] [1] [1] [] []
  dot_S1024x4096_S4096x128_S1024x128_1_0_0_1_n_n_wf : DotDims.WF S1024x4096 S4096x128 S1024x128 [1] [0] [0] [1] [] []
  dot_S72x1024_S1024x4096_S72x4096_1_0_0_1_n_n_wf : DotDims.WF S72x1024 S1024x4096 S72x4096 [1] [0] [0] [1] [] []
  hrank0 : 0 < grid0.rank
  k0_off1_inb : ∀ i : grid0.Coords, ∀ a, (k0_off1 i) a + S1024x64.size a ≤ S4096x64.size a
  k0_off2_inb : ∀ i : grid0.Coords, ∀ a, (k0_off2 i) a + S72x1024.size a ≤ S72x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S4096x64.size a
  hwx0_0 : ∀ i : grid0.Coords, EltTy.bits .f32 = 32 ∨ (Rect.block (s := S4096x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x4096.size a ≤ S4x4096x4096.size a
  hwx0_1 : ∀ i : grid0.Coords, EltTy.bits .f32 = 32 ∨ (Rect.block (s := S4x4096x4096) S1x1024x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64.size a ≤ S4x64x64.size a
  hwx0_3 : ∀ i : grid0.Coords, EltTy.bits .f32 = 32 ∨ (Rect.block (s := S4x64x64) S1x64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x64.size a ≤ S4x64x64.size a
  hwx0_4 : ∀ i : grid0.Coords, EltTy.bits .f32 = 32 ∨ (Rect.block (s := S4x64x64) S1x64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x64.size a ≤ S4096x64.size a
  hwx0_5 : ∀ i : grid0.Coords, EltTy.bits .f32 = 32 ∨ (Rect.block (s := S4096x64) S4096x64.size (cc0_transform_5 i) (hinb0_5 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S64x64_S64x4096_S64x4096_0_0_1_1_n_n : DotDims S64x64 S64x4096 S64x4096 where
  lhsContracting := [0]
  rhsContracting := [0]
  lhsNonContracting := [1]
  rhsNonContracting := [1]
  lhsBatch := []
  rhsBatch := []
  wf := dot_S64x64_S64x4096_S64x4096_0_0_1_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S72x1024_S1024x4096_S72x4096_1_0_0_1_n_n : DotDims S72x1024 S1024x4096 S72x4096 where
  lhsContracting := [1]
  rhsContracting := [0]
  lhsNonContracting := [0]
  rhsNonContracting := [1]
  lhsBatch := []
  rhsBatch := []
  wf := dot_S72x1024_S1024x4096_S72x4096_1_0_0_1_n_n_wf

abbrev win0_0 : Pipeline.Window sig grid0 :=
  Pipeline.Window.ofSpec (Memref.whole main_arg0) S4096x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x64x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4096x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x64 : Shape := ⟨2, ![4096, 64]⟩
abbrev S4x4096x4096 : Shape := ⟨3, ![4, 4096, 4096]⟩
abbrev S64x64 : Shape := ⟨2, ![64, 64]⟩
abbrev S4x64x64 : Shape := ⟨3, ![4, 64, 64]⟩
abbrev S1x4096x4096 : Shape := ⟨3, ![1, 4096, 4096]⟩
abbrev S4096x4096 : Shape := ⟨2, ![4096, 4096]⟩
abbrev S1x64x64 : Shape := ⟨3, ![1, 64, 64]⟩
abbrev S_ : Shape := ⟨0, ![]⟩
abbrev S4096 : Shape := ⟨1, ![4096]⟩
abbrev S4096x1 : Shape := ⟨2, ![4096, 1]⟩

abbrev nBuf : Space → Nat
  | .hbm => 122
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4x4096x4096, .f32⟩
  | .hbm, ⟨2, _⟩ => ⟨S64x64, .f32⟩
  | .hbm, ⟨3, _⟩ => ⟨S4x64x64, .f32⟩
  | .hbm, ⟨4, _⟩ => ⟨S4x64x64, .f32⟩
  | .hbm, ⟨5, _⟩ => ⟨S4096x64, .f32⟩
  | .hbm, ⟨6, _⟩ => ⟨S1x4096x4096, .f32⟩
  | .hbm, ⟨7, _⟩ => ⟨S4096x4096, .f32⟩
  | .hbm, ⟨8, _⟩ => ⟨S1x64x64, .f32⟩
  | .hbm, ⟨9, _⟩ => ⟨S64x64, .f32⟩
  | .hbm, ⟨10, _⟩ => ⟨S4096x64, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S4096x64, .f32⟩
  | .hbm, ⟨20, _⟩ => ⟨S4096x64, .f32⟩
  | .hbm, ⟨21, _⟩ => ⟨S4096x4096, .f32⟩
  | .hbm, ⟨22, _⟩ => ⟨S1x64x64, .f32⟩
  | .hbm, ⟨23, _⟩ => ⟨S64x64, .f32⟩
  | .hbm, ⟨24, _⟩ => ⟨S4096x64, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x4096, .f32⟩
  | .hbm, ⟨32, _⟩ => ⟨S4096x4096, .f32⟩
  | .hbm, ⟨33, _⟩ => ⟨S4096x64, .f32⟩
  | .hbm, ⟨34, _⟩ => ⟨S4096x64, .f32⟩
  | .hbm, ⟨35, _⟩ => ⟨S1x4096x4096, .f32⟩
  | .hbm, ⟨36, _⟩ => ⟨S4096x4096, .f32⟩
  | .hbm, ⟨37, _⟩ => ⟨S1x64x64, .f32⟩
  | .hbm, ⟨38, _⟩ => ⟨S64x64, .f32⟩
  | .hbm, ⟨39, _⟩ => ⟨S4096x64, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x4096, .f32⟩
  | .hbm, ⟨47, _⟩ => ⟨S4096x4096, .f32⟩
  | .hbm, ⟨48, _⟩ => ⟨S4096x64, .f32⟩
  | .hbm, ⟨49, _⟩ => ⟨S4096x64, .f32⟩
  | .hbm, ⟨50, _⟩ => ⟨S4096x4096, .f32⟩
  | .hbm, ⟨51, _⟩ => ⟨S1x64x64, .f32⟩
  | .hbm, ⟨52, _⟩ => ⟨S64x64, .f32⟩
  | .hbm, ⟨53, _⟩ => ⟨S4096x64, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x4096, .f32⟩
  | .hbm, ⟨61, _⟩ => ⟨S4096x4096, .f32⟩
  | .hbm, ⟨62, _⟩ => ⟨S4096x64, .f32⟩
  | .hbm, ⟨63, _⟩ => ⟨S4096x64, .f32⟩
  | .hbm, ⟨64, _⟩ => ⟨S1x4096x4096, .f32⟩
  | .hbm, ⟨65, _⟩ => ⟨S4096x4096, .f32⟩
  | .hbm, ⟨66, _⟩ => ⟨S1x64x64, .f32⟩
  | .hbm, ⟨67, _⟩ => ⟨S64x64, .f32⟩
  | .hbm, ⟨68, _⟩ => ⟨S4096x64, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S4096x4096, .f32⟩
  | .hbm, ⟨76, _⟩ => ⟨S4096x4096, .f32⟩
  | .hbm, ⟨77, _⟩ => ⟨S4096x64, .f32⟩
  | .hbm, ⟨78, _⟩ => ⟨S4096x64, .f32⟩
  | .hbm, ⟨79, _⟩ => ⟨S4096x4096, .f32⟩
  | .hbm, ⟨80, _⟩ => ⟨S1x64x64, .f32⟩
  | .hbm, ⟨81, _⟩ => ⟨S64x64, .f32⟩
  | .hbm, ⟨82, _⟩ => ⟨S4096x64, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S4096x4096, .f32⟩
  | .hbm, ⟨90, _⟩ => ⟨S4096x4096, .f32⟩
  | .hbm, ⟨91, _⟩ => ⟨S4096x64, .f32⟩
  | .hbm, ⟨92, _⟩ => ⟨S4096x64, .f32⟩
  | .hbm, ⟨93, _⟩ => ⟨S1x4096x4096, .f32⟩
  | .hbm, ⟨94, _⟩ => ⟨S4096x4096, .f32⟩
  | .hbm, ⟨95, _⟩ => ⟨S1x64x64, .f32⟩
  | .hbm, ⟨96, _⟩ => ⟨S64x64, .f32⟩
  | .hbm, ⟨97, _⟩ => ⟨S4096x64, .f32⟩
  | .hbm, ⟨98, _⟩ => ⟨S_, .f32⟩
  | .hbm, ⟨99, _⟩ => ⟨S4096, .f32⟩
  | .hbm, ⟨100, _⟩ => ⟨S4096x1, .f32⟩
  | .hbm, ⟨101, _⟩ => ⟨S_, .f32⟩
  | .hbm, ⟨102, _⟩ => ⟨S4096x1, .f32⟩
  | .hbm, ⟨103, _⟩ => ⟨S4096x1, .f32⟩
  | .hbm, ⟨104, _⟩ => ⟨S4096x4096, .f32⟩
  | .hbm, ⟨105, _⟩ => ⟨S4096x4096, .f32⟩
  | .hbm, ⟨106, _⟩ => ⟨S4096x64, .f32⟩
  | .hbm, ⟨107, _⟩ => ⟨S4096x64, .f32⟩
  | .hbm, ⟨108, _⟩ => ⟨S4096x4096, .f32⟩
  | .hbm, ⟨109, _⟩ => ⟨S1x64x64, .f32⟩
  | .hbm, ⟨110, _⟩ => ⟨S64x64, .f32⟩
  | .hbm, ⟨111, _⟩ => ⟨S4096x64, .f32⟩
  | .hbm, ⟨112, _⟩ => ⟨S_, .f32⟩
  | .hbm, ⟨113, _⟩ => ⟨S4096, .f32⟩
  | .hbm, ⟨114, _⟩ => ⟨S4096x1, .f32⟩
  | .hbm, ⟨115, _⟩ => ⟨S_, .f32⟩
  | .hbm, ⟨116, _⟩ => ⟨S4096x1, .f32⟩
  | .hbm, ⟨117, _⟩ => ⟨S4096x1, .f32⟩
  | .hbm, ⟨118, _⟩ => ⟨S4096x4096, .f32⟩
  | .hbm, ⟨119, _⟩ => ⟨S4096x4096, .f32⟩
  | .hbm, ⟨120, _⟩ => ⟨S4096x64, .f32⟩
  | .hbm, ⟨121, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_cst_10 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_11 : Ref sig .tc := ⟨.hbm, 98, rfl⟩
abbrev main_v81 : Ref sig .tc := ⟨.hbm, 99, rfl⟩
abbrev main_v82 : Ref sig .tc := ⟨.hbm, 100, rfl⟩
abbrev main_cst_12 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_13 : Ref sig .tc := ⟨.hbm, 112, rfl⟩
abbrev main_v93 : Ref sig .tc := ⟨.hbm, 113, rfl⟩
abbrev main_v94 : Ref sig .tc := ⟨.hbm, 114, rfl⟩
abbrev main_cst_14 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩

abbrev nD : Nat := 1
abbrev τ : Topo := Topo.v7x

variable {F : FTy → Type} [FloatOps F]

class Facts₀ : Prop where
  slices_S4x4096x4096_S1x4096x4096_0_0_0 : S4x4096x4096.Slices ![0, 0, 0] S1x4096x4096
  shapeCasts_S1x4096x4096_S4096x4096 : S1x4096x4096.ShapeCasts S4096x4096
  slices_S4x64x64_S1x64x64_0_0_0 : S4x64x64.Slices ![0, 0, 0] S1x64x64
  shapeCasts_S1x64x64_S64x64 : S1x64x64.ShapeCasts S64x64
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  transposes_S4096x4096_S4096x4096_1_0 : S4096x4096.Transposes [1, 0] S4096x4096
  slices_S4x4096x4096_S1x4096x4096_1_0_0 : S4x4096x4096.Slices ![1, 0, 0] S1x4096x4096
  slices_S4x64x64_S1x64x64_1_0_0 : S4x64x64.Slices ![1, 0, 0] S1x64x64
  slices_S4x4096x4096_S1x4096x4096_2_0_0 : S4x4096x4096.Slices ![2, 0, 0] S1x4096x4096
  slices_S4x64x64_S1x64x64_2_0_0 : S4x64x64.Slices ![2, 0, 0] S1x64x64
  slices_S4x4096x4096_S1x4096x4096_3_0_0 : S4x4096x4096.Slices ![3, 0, 0] S1x4096x4096
  slices_S4x64x64_S1x64x64_3_0_0 : S4x64x64.Slices ![3, 0, 0] S1x64x64
  dot_S4096x64_S64x64_S4096x64_1_0_0_1_n_n_wf : DotDims.WF S4096x64 S64x64 S4096x64 [1] [0] [0] [1] [] []
  dot_S4096x4096_S4096x64_S4096x64_1_0_0_1_n_n_wf : DotDims.WF S4096x4096 S4096x64 S4096x64 [1] [0] [0] [1] [] []

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.KB.Runs.lean ====
/-
  What the four runs of the kernel body share: the three branch conditions as propositions over a grid point
  (first point of the whole grid; first row block of a relation; last row block of a relation) with their closed
  forms over the linear position, the staging memrefs the pipeline hands the body at a point, the four scratch
  buffers as whole memrefs, and the region's invariant opened into those four buffers.
-/
import proofs.«112522_g50646254354673_cont_8to1_c_444_16_alg».proof.Proof.Gen.Kernel.Launch
import proofs.«112522_g50646254354673_cont_8to1_c_444_16_alg».proof.Proof.Gen.Kernel.Skeleton
import proofs.«112522_g50646254354673_cont_8to1_c_444_16_alg».proof.Proof.Gen.Kernel.Points
import proofs.«112522_g50646254354673_cont_8to1_c_444_16_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- Relation 0 and row block 0: the very first grid point. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- Row block 0 of a relation. -/
abbrev cond0_1 (i : grid0.Coords) : Prop :=
  (Scalar.cmpi .ne (Scalar.extui (Scalar.cmpi .eq (BitVec.ofNat 32 (i 1).val) 0#32)) 0#32) = 1#1
theorem hcond0_1 : ∀ t : Fin cfg0.N, cond0_1 (grid0.coords t) ↔ t.val % 4 = 0 :=
  (by decide +kernel : ∀ t : Fin grid0.N, cond0_1 (grid0.coords t) ↔ t.val % 4 = 0)

/-- The last row block (3) of a relation. -/
abbrev cond0_2 (i : grid0.Coords) : Prop :=
  (Scalar.cmpi .ne (Scalar.extui (Scalar.cmpi .eq (BitVec.ofNat 32 (i 1).val) 3#32)) 0#32) = 1#1
theorem hcond0_2 : ∀ t : Fin cfg0.N, cond0_2 (grid0.coords t) ↔ t.val % 4 = 3 :=
  (by decide +kernel : ∀ t : Fin grid0.N, cond0_2 (grid0.coords t) ↔ t.val % 4 = 3)

/-! ## The memrefs the body runs on -/

abbrev ms0_0 (t : Fin cfg0.N) : Memref sig .tc .vmem S4096x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x64 .f32 := win0_5.stage (cfg0.slots t 5)
abbrev hs0_5 (t : Fin cfg0.N) : (ms0_5 t).IsWhole := hstage0_5 ((cfg0.slots t 5).cast nbuf0_5)

/-- The transposed features, the augmented source-side features, the augmented transposed target-side
    features and the transposed column-direction accumulator: whole scoped buffers. -/
abbrev scM0_0 : Memref sig .tc .vmem S64x4096 .f32 := Memref.whole cc0_scratch0
abbrev scM0_1 : Memref sig .tc .vmem S4096x128 .bf16 := Memref.whole cc0_scratch1
abbrev scM0_2 : Memref sig .tc .vmem S72x4096 .bf16 := Memref.whole cc0_scratch2
abbrev scM0_3 : Memref sig .tc .vmem S72x4096 .f32 := Memref.whole cc0_scratch3

/-- Views through which the contents of the output's staging buffer and of the scratch buffers are stated. -/
abbrev VO0_5 : View sig .tc .vmem S4096x64 .f32 := (Memref.whole cc0_stg5_0 : Memref sig .tc .vmem S4096x64 .f32).view
abbrev VS0_0 : View sig .tc .vmem S64x4096 .f32 := scM0_0.view
abbrev VS0_1 : View sig .tc .vmem S4096x128 .bf16 := scM0_1.view
abbrev VS0_2 : View sig .tc .vmem S72x4096 .bf16 := scM0_2.view
abbrev VS0_3 : View sig .tc .vmem S72x4096 .f32 := scM0_3.view

/-- The region's invariant is the four scratch buffers owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Body

end
-- ==== Proof.KB.RunA.lean ====
/-
  The kernel body at the first grid point (relation 0, row block 0): the first two branches are taken. Every
  buffer the body keeps is written before it is used: the output's staging buffer receives the self-loop product
  whole and then the first row block's source-direction message; the transposed features, both augmented feature
  buffers (features and the constant ones/zeros padding) and the zeroed accumulator with the first block's
  contribution are stored whole.
-/
import proofs.«112522_g50646254354673_cont_8to1_c_444_16_alg».proof.Proof.KB.Runs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body leaves in the output's staging buffer and in each scratch buffer, with the triple that
    proves it; what the buffers held before does not matter. -/
noncomputable def kernelRun0_A (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) :
    Σ' (L5 : List (View.Piece (Elt F) S4096x64 .f32)) (LS0 : List (View.Piece (Elt F) S64x4096 .f32)) (LS1 : List (View.Piece (Elt F) S4096x128 .bf16)) (LS2 : List (View.Piece (Elt F) S72x4096 .bf16)), { LS3 : List (View.Piece (Elt F) S72x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__rgcn_body i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__rgcn_body_eq_skeleton, k0_part1_eq_skeleton]; unfold cc0__rgcn_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    isplitl [HS2]; · iexists _; iexact HS2
    iexists _; iexact HS3

end Cert.Kernel.Body

end
-- ==== Proof.KB.RunB.lean ====
/-
  The kernel body at a middle row block (blocks 1 and 2 of a relation): no branch is taken. The body adds the
  normalised source-direction product of this row block to its 1024 rows of the output's staging buffer and this
  block's contribution to the transposed column-direction accumulator; the transposed features and the two
  augmented feature buffers are only read.
-/
import proofs.«112522_g50646254354673_cont_8to1_c_444_16_alg».proof.Proof.KB.Runs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output's staging buffer (over what it held, `xo5`) and in the accumulator,
    with the triple that proves it. -/
noncomputable def kernelRun0_B (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : ¬cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) (xs3 : Vec F S72x4096 .f32) :
    Σ' (L5 : List (View.Piece (Elt F) S4096x64 .f32)), { LS3 : List (View.Piece (Elt F) S72x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xo5) L5)
                ∗ owns (c : Thread nD τ) arg8 fullShare xs0 ∗ owns (c : Thread nD τ) arg9 fullShare xs1 ∗ owns (c : Thread nD τ) arg10 fullShare xs2 ∗ (∃ f, arg11.view.loc (c : Thread nD τ) ↦[arg11.view.set]{fullShare} arg11.view.writes (Elt F) f LS3)) -∗ K ⟨⟩))
          ⊢ wp frame (wpE (defs₀ (F := F)) Variants.none c none) E (cc0__rgcn_body i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__rgcn_body_eq_skeleton, k0_part1_eq_skeleton]; unfold cc0__rgcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hfs0; obtain rfl := harg9.eq_unread hfs1; obtain rfl := harg10.eq_unread hfs2; obtain rfl := harg11.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    iexists _; iexact HS3

end Cert.Kernel.Body

end
-- ==== Proof.KB.RunC.lean ====
/-
  The kernel body at the last row block of a relation: only the closing branch is taken. After the block's
  source-direction message and its contribution to the accumulator, the column direction is closed: the
  accumulator's feature rows, each column scaled by the reciprocal of its clamped degree (the accumulator's
  row of column sums), are transposed and added to the whole output staging buffer.
-/
import proofs.«112522_g50646254354673_cont_8to1_c_444_16_alg».proof.Proof.KB.Runs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output's staging buffer (over what it held, `xo5`) and in the accumulator,
    with the triple that proves it. -/
noncomputable def kernelRun0_C (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : ¬cond0_1 i) (hc2 : cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) (xs3 : Vec F S72x4096 .f32) :
    Σ' (L5 : List (View.Piece (Elt F) S4096x64 .f32)), { LS3 : List (View.Piece (Elt F) S72x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xo5) L5)
                ∗ owns (c : Thread nD τ) arg8 fullShare xs0 ∗ owns (c : Thread nD τ) arg9 fullShare xs1 ∗ owns (c : Thread nD τ) arg10 fullShare xs2 ∗ (∃ f, arg11.view.loc (c : Thread nD τ) ↦[arg11.view.set]{fullShare} arg11.view.writes (Elt F) f LS3)) -∗ K ⟨⟩))
          ⊢ wp frame (wpE (defs₀ (F := F)) Variants.none c none) E (cc0__rgcn_body i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__rgcn_body_eq_skeleton, k0_part1_eq_skeleton]; unfold cc0__rgcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hfs0; obtain rfl := harg9.eq_unread hfs1; obtain rfl := harg10.eq_unread hfs2; obtain rfl := harg11.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    iexists _; iexact HS3

end Cert.Kernel.Body

end
-- ==== Proof.KB.RunD.lean ====
/-
  The kernel body at the first row block of a later relation (relations 1 to 3): only the per-relation branch is
  taken. The feature halves of the two augmented buffers are recomputed over what the buffers held (their constant
  padding stays), the accumulator is zeroed and receives the first block's contribution, and the output's staging
  buffer receives this row block's source-direction message over what it held.
-/
import proofs.«112522_g50646254354673_cont_8to1_c_444_16_alg».proof.Proof.KB.Runs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body writes over the output's staging buffer (at `xo5`) and over the two augmented feature
    buffers (at `xs1`, `xs2`), the pieces that fill the accumulator, and the triple that proves it. -/
noncomputable def kernelRun0_D (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) :
    Σ' (L5 : List (View.Piece (Elt F) S4096x64 .f32)) (LS1 : List (View.Piece (Elt F) S4096x128 .bf16)) (LS2 : List (View.Piece (Elt F) S72x4096 .bf16)), { LS3 : List (View.Piece (Elt F) S72x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5
            ∗ owns (c : Thread nD τ) arg8 fullShare xs0 ∗ owns (c : Thread nD τ) arg9 fullShare xs1 ∗ owns (c : Thread nD τ) arg10 fullShare xs2 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xo5) L5)
                ∗ owns (c : Thread nD τ) arg8 fullShare xs0 ∗ (arg9.view.loc (c : Thread nD τ) ↦[arg9.view.set]{fullShare} arg9.view.writes (Elt F) (harg9.unread xs1) LS1) ∗ (arg10.view.loc (c : Thread nD τ) ↦[arg10.view.set]{fullShare} arg10.view.writes (Elt F) (harg10.unread xs2) LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__rgcn_body i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__rgcn_body_eq_skeleton, k0_part1_eq_skeleton]; unfold cc0__rgcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hfs0; obtain rfl := harg9.eq_unread hfs1; obtain rfl := harg10.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [HS0]
    · iexists _; isplitr; · ipureintro; exact harg8.read_unread _
      iexact HS0
    isplitl [HS1]; · iexact HS1
    isplitl [HS2]; · iexact HS2
    iexists _; iexact HS3

end Cert.Kernel.Body

end
-- ==== Proof.KB.FrameDefs.lean ====
/-
  What the output's staging buffer and the four scratch buffers hold after the body at each of the sixteen grid points
  (four relations by four row blocks), and the pipeline's proof data built on it.

  The first point stores every buffer before using it; a later first row block of a relation rewrites parts of the two
  augmented feature buffers and refills the accumulator; the other row blocks only read the feature buffers and refill
  the accumulator; the output's staging buffer is never written back before the last point, so each later point writes
  its pieces over what the point before left in it.
-/
import proofs.«112522_g50646254354673_cont_8to1_c_444_16_alg».proof.Proof.KB.RunA
import proofs.«112522_g50646254354673_cont_8to1_c_444_16_alg».proof.Proof.KB.RunB
import proofs.«112522_g50646254354673_cont_8to1_c_444_16_alg».proof.Proof.KB.RunC
import proofs.«112522_g50646254354673_cont_8to1_c_444_16_alg».proof.Proof.KB.RunD

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the buffers the body keeps -/

/-- At the first point the pieces stored in the output's staging buffer cover it: one of them is the whole block. -/
theorem cover0_A_5 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (y : S4096x64.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 x0 x1 x2 x3 x4).1 S4096x64.size (by sl_kernel_rfl) y

/-- What the first point leaves in the output's staging buffer: its pieces read back, the earlier contents being covered. -/
def out0_A_5 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) : Vec F S4096x64 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 hc2 x0 x1 x2 x3 x4).1)

/-- At the first point the transposed features are stored whole. -/
theorem scover0_A_0 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (y : S64x4096.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 x0 x1 x2 x3 x4).2.1 S64x4096.size (by sl_kernel_rfl) y

/-- What the first point leaves in the transposed-features buffer. -/
def sout0_A_0 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) : Vec F S64x4096 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 hc2 x0 x1 x2 x3 x4).2.1)

/-- At the first point the two column halves stored in the augmented source-side buffer tile it. -/
theorem scover0_A_1 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (y : S4096x128.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 x0 x1 x2 x3 x4).2.2.1 S4096x64.size (by sl_kernel_rfl) y

/-- What the first point leaves in the augmented source-side buffer. -/
def sout0_A_1 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) : Vec F S4096x128 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 hc2 x0 x1 x2 x3 x4).2.2.1)

/-- At the first point the 64 feature rows and the 8 padding rows stored in the augmented target-side buffer tile it (in blocks of 8 rows). -/
theorem scover0_A_2 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (y : S72x4096.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4).2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 hc0 hc1 hc2 x0 x1 x2 x3 x4).2.2.2.1 S8x4096.size (by sl_kernel_rfl) y

/-- What the first point leaves in the augmented target-side buffer. -/
def sout0_A_2 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) : Vec F S72x4096 .bf16 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 hc2 x0 x1 x2 x3 x4).2.2.2.1)

/-- At the first point the accumulator is stored whole. -/
theorem scover0_A_3 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (y : S72x4096.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 x0 x1 x2 x3 x4).2.2.2.2.1 S72x4096.size (by sl_kernel_rfl) y

/-- What the first point leaves in the accumulator. -/
def sout0_A_3 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) : Vec F S72x4096 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 hc0 hc1 hc2 x0 x1 x2 x3 x4).2.2.2.2.1)

/-- What a middle row block leaves in the output's staging buffer: its pieces written over what the buffer held. -/
def out0_B_5 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : ¬cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) (xs3 : Vec F S72x4096 .f32) : Vec F S4096x64 .f32 :=
  arg7.view.read (Elt F) (arg7.view.writes (Elt F) (harg7.unread xo5) (kernelRun0_B c i arg2 harg2 arg3 harg3 arg4 harg4 arg5 harg5 arg6 harg6 arg7 harg7 arg8 harg8 arg9 harg9 arg10 harg10 arg11 harg11 hc0 hc1 hc2 x0 x1 x2 x3 x4 xo5 xs0 xs1 xs2 xs3).1)

/-- At a middle row block the accumulator is stored whole. -/
theorem scover0_B_3 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : ¬cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) (xs3 : Vec F S72x4096 .f32) (y : S72x4096.Idx) :
    ∃ pc ∈ (kernelRun0_B c i arg2 harg2 arg3 harg3 arg4 harg4 arg5 harg5 arg6 harg6 arg7 harg7 arg8 harg8 arg9 harg9 arg10 harg10 arg11 harg11 hc0 hc1 hc2 x0 x1 x2 x3 x4 xo5 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 hc2 x0 x1 x2 x3 x4 xo5 xs0 xs1 xs2 xs3).2.1 S72x4096.size (by sl_kernel_rfl) y

/-- What a middle row block leaves in the accumulator. -/
def sout0_B_3 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : ¬cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) (xs3 : Vec F S72x4096 .f32) : Vec F S72x4096 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 hc0 hc1 hc2 x0 x1 x2 x3 x4 xo5 xs0 xs1 xs2 xs3).2.1)

/-- What the last row block of a relation leaves in the output's staging buffer: its pieces written over what the buffer held. -/
def out0_C_5 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : ¬cond0_1 i) (hc2 : cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) (xs3 : Vec F S72x4096 .f32) : Vec F S4096x64 .f32 :=
  arg7.view.read (Elt F) (arg7.view.writes (Elt F) (harg7.unread xo5) (kernelRun0_C c i arg2 harg2 arg3 harg3 arg4 harg4 arg5 harg5 arg6 harg6 arg7 harg7 arg8 harg8 arg9 harg9 arg10 harg10 arg11 harg11 hc0 hc1 hc2 x0 x1 x2 x3 x4 xo5 xs0 xs1 xs2 xs3).1)

/-- At the last row block of a relation the accumulator is stored whole. -/
theorem scover0_C_3 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : ¬cond0_1 i) (hc2 : cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) (xs3 : Vec F S72x4096 .f32) (y : S72x4096.Idx) :
    ∃ pc ∈ (kernelRun0_C c i arg2 harg2 arg3 harg3 arg4 harg4 arg5 harg5 arg6 harg6 arg7 harg7 arg8 harg8 arg9 harg9 arg10 harg10 arg11 harg11 hc0 hc1 hc2 x0 x1 x2 x3 x4 xo5 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 x0 x1 x2 x3 x4 xo5 xs0 xs1 xs2 xs3).2.1 S72x4096.size (by sl_kernel_rfl) y

/-- What the last row block of a relation leaves in the accumulator. -/
def sout0_C_3 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : ¬cond0_1 i) (hc2 : cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) (xs3 : Vec F S72x4096 .f32) : Vec F S72x4096 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 hc0 hc1 hc2 x0 x1 x2 x3 x4 xo5 xs0 xs1 xs2 xs3).2.1)

/-- What the first row block of a later relation leaves in the output's staging buffer: its pieces written over what the buffer held. -/
def out0_D_5 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) : Vec F S4096x64 .f32 :=
  arg7.view.read (Elt F) (arg7.view.writes (Elt F) (harg7.unread xo5) (kernelRun0_D c i arg2 harg2 arg3 harg3 arg4 harg4 arg5 harg5 arg6 harg6 arg7 harg7 arg8 harg8 arg9 harg9 arg10 harg10 arg11 harg11 hc0 hc1 hc2 x0 x1 x2 x3 x4 xo5 xs0 xs1 xs2).1)

/-- What the first row block of a later relation leaves in the augmented source-side buffer: its pieces written over what the buffer held. -/
def sout0_D_1 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) : Vec F S4096x128 .bf16 :=
  arg9.view.read (Elt F) (arg9.view.writes (Elt F) (harg9.unread xs1) (kernelRun0_D c i arg2 harg2 arg3 harg3 arg4 harg4 arg5 harg5 arg6 harg6 arg7 harg7 arg8 harg8 arg9 harg9 arg10 harg10 arg11 harg11 hc0 hc1 hc2 x0 x1 x2 x3 x4 xo5 xs0 xs1 xs2).2.1)

/-- What the first row block of a later relation leaves in the augmented target-side buffer: its pieces written over what the buffer held. -/
def sout0_D_2 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) : Vec F S72x4096 .bf16 :=
  arg10.view.read (Elt F) (arg10.view.writes (Elt F) (harg10.unread xs2) (kernelRun0_D c i arg2 harg2 arg3 harg3 arg4 harg4 arg5 harg5 arg6 harg6 arg7 harg7 arg8 harg8 arg9 harg9 arg10 harg10 arg11 harg11 hc0 hc1 hc2 x0 x1 x2 x3 x4 xo5 xs0 xs1 xs2).2.2.1)

/-- At the first row block of a later relation the accumulator is stored whole. -/
theorem scover0_D_3 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) (y : S72x4096.Idx) :
    ∃ pc ∈ (kernelRun0_D c i arg2 harg2 arg3 harg3 arg4 harg4 arg5 harg5 arg6 harg6 arg7 harg7 arg8 harg8 arg9 harg9 arg10 harg10 arg11 harg11 hc0 hc1 hc2 x0 x1 x2 x3 x4 xo5 xs0 xs1 xs2).2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 hc0 hc1 hc2 x0 x1 x2 x3 x4 xo5 xs0 xs1 xs2).2.2.2.1 S72x4096.size (by sl_kernel_rfl) y

/-- What the first row block of a later relation leaves in the accumulator. -/
def sout0_D_3 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) : Vec F S72x4096 .f32 :=
  VS0_3.read (Elt F) (VS0_3.writes (Elt F) VS0_3.junk (kernelRun0_D c i arg2 harg2 arg3 harg3 arg4 harg4 arg5 harg5 arg6 harg6 arg7 harg7 arg8 harg8 arg9 harg9 arg10 harg10 arg11 harg11 hc0 hc1 hc2 x0 x1 x2 x3 x4 xo5 xs0 xs1 xs2).2.2.2.1)

/-! ## What the buffers hold after each point -/

/-- The five kept buffers, point by point: the output's staging buffer, then the transposed features, the augmented
    source-side features, the augmented target-side features and the accumulator, as they stand once the body has run
    at position `n`. Position 0 is the first point's case on the blocks fetched there. Position `n + 1` is decided by
    `(n + 1) % 16 = 0`, `(n + 1) % 4 = 0` and `(n + 1) % 4 = 3`: the selected case runs on that point's blocks, and a buffer
    it reads, or rewrites only in part, enters at its component of position `n`. Among sixteen points no position meets
    the other combinations of the three equations. -/
def outsAt0 (c : Dev nD) : (n : ℕ) → n < cfg0.N → Vec F S4096x64 .f32 × Vec F S64x4096 .f32 × Vec F S4096x128 .bf16 × Vec F S72x4096 .bf16 × Vec F S72x4096 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 16 = 0 then
      if h1 : (n + 1) % 4 = 0 then
        if h2 : (n + 1) % 4 = 3 then
          False.elim (by have hN : n + 1 < 16 := lt_of_lt_of_eq hn (show cfg0.N = 16 from N_0); omega)
        else
          (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        False.elim (by have hN : n + 1 < 16 := lt_of_lt_of_eq hn (show cfg0.N = 16 from N_0); omega)
    else
      if h1 : (n + 1) % 4 = 0 then
        if h2 : (n + 1) % 4 = 3 then
          False.elim (by have hN : n + 1 < 16 := lt_of_lt_of_eq hn (show cfg0.N = 16 from N_0); omega)
        else
          (out0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1, (outsAt0 c n (Nat.lt_of_succ_lt hn)).2.1, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1, sout0_D_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1)
      else
        if h2 : (n + 1) % 4 = 3 then
          (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, (outsAt0 c n (Nat.lt_of_succ_lt hn)).2.1, (outsAt0 c n (Nat.lt_of_succ_lt hn)).2.2.1, (outsAt0 c n (Nat.lt_of_succ_lt hn)).2.2.2.1, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
        else
          (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, (outsAt0 c n (Nat.lt_of_succ_lt hn)).2.1, (outsAt0 c n (Nat.lt_of_succ_lt hn)).2.2.1, (outsAt0 c n (Nat.lt_of_succ_lt hn)).2.2.2.1, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at the very first point: that case's contents. -/
theorem outsAt0_A (c : Dev nD) (t : Fin cfg0.N) (h0 : t.val % 16 = 0) (h1 : t.val % 4 = 0) (h2 : ¬t.val % 4 = 3) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_pos h1).trans ((dif_neg h2).trans rfl))

/-- `outsAt0` at a middle row block: that case's contents, over what the point before left. -/
theorem outsAt0_B (c : Dev nD) (t : Fin cfg0.N) (h0 : ¬t.val % 16 = 0) (h1 : ¬t.val % 4 = 0) (h2 : ¬t.val % 4 = 3) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, (outsAt0 m c (t.val - 1) (Nat.lt_of_le_of_lt (Nat.sub_le _ _) t.isLt)).2.1, (outsAt0 m c (t.val - 1) (Nat.lt_of_le_of_lt (Nat.sub_le _ _) t.isLt)).2.2.1, (outsAt0 m c (t.val - 1) (Nat.lt_of_le_of_lt (Nat.sub_le _ _) t.isLt)).2.2.2.1, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- `outsAt0` at the last row block of a relation: that case's contents, over what the point before left. -/
theorem outsAt0_C (c : Dev nD) (t : Fin cfg0.N) (h0 : ¬t.val % 16 = 0) (h1 : ¬t.val % 4 = 0) (h2 : t.val % 4 = 3) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, (outsAt0 m c (t.val - 1) (Nat.lt_of_le_of_lt (Nat.sub_le _ _) t.isLt)).2.1, (outsAt0 m c (t.val - 1) (Nat.lt_of_le_of_lt (Nat.sub_le _ _) t.isLt)).2.2.1, (outsAt0 m c (t.val - 1) (Nat.lt_of_le_of_lt (Nat.sub_le _ _) t.isLt)).2.2.2.1, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at the first row block of a later relation: that case's contents, over what the point before left. -/
theorem outsAt0_D (c : Dev nD) (t : Fin cfg0.N) (h0 : ¬t.val % 16 = 0) (h1 : t.val % 4 = 0) (h2 : ¬t.val % 4 = 3) :
    outsAt0 m c t.val t.isLt = (out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1, (outsAt0 m c (t.val - 1) (Nat.lt_of_le_of_lt (Nat.sub_le _ _) t.isLt)).2.1, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1, sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- What the core holds besides the windows when position `n` starts. At `n = 0` the four scratch buffers hold arbitrary
    contents; at `n + 1` they hold the four scratch components of `outsAt0` at `n`. The random-number register is at an
    unnamed state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- `PhiS` at a successor, unfolded. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r)) := rfl

/-- `PhiS` at a nonzero position, stated through its predecessor. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2)) ∗ (∃ r, prngReg c r)) := by
  cases n with
  | zero => exact absurd rfl hz
  | succ n => rfl

/-! ## The pipeline's proof data -/

/-- The data the pipeline's run is stated over, on core `c`. The five input arrays and the output array start at the
    launch contents. Once the body has run at `t`, an input window's buffer still holds its block of the array and the
    output window's buffer holds the first component of `outsAt0` at `t`. The invariant between points is `PhiS`. Every
    buffer is owned in full and no transfer is outstanding. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- Each array of the data is the launch memory's. -/
theorem A_eq (c : Dev nD) (w : Fin cfg0.W) : (dats m 0 c).A w = V m c (Pipeline.arrRef spec0 w) := by
  dsimp only [dats]

/-- The invariant as position `t` starts is `PhiS` at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- The six windows' buffers once the body has run, one equation each. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- As the body starts, an input window's buffer holds the window's block of its array: the block fetched at this point, or,
    where nothing is fetched, the same block as at the point before. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- From the second point on, the output window's buffer starts at the first component of `outsAt0` one position
    earlier: the only write-back of that window follows position 15, so none falls between two consecutive points, and the
    window's block is the whole buffer. -/
theorem before0_5_pos (c : Dev nD) (t : Fin cfg0.N) (ht : t.val ≠ 0) (d) :
    (dats m 0 c).before 5 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 5 rfl t ht (Bool.eq_false_iff.mpr fun h => by have := (flush0_5 _).mp h; dsimp only at this; omega)
    (fun _ => rfl) (fun _ _ => rfl)]
  dsimp only [dats]
theorem before0_5_B (c : Dev nD) (t : Fin cfg0.N) (h0 : ¬t.val % 16 = 0) (h1 : ¬t.val % 4 = 0) (h2 : ¬t.val % 4 = 3) (d) :
    (dats m 0 c).before 5 t d = (outsAt0 m c (t.val - 1) (Nat.lt_of_le_of_lt (Nat.sub_le _ _) t.isLt)).1 :=
  before0_5_pos m c t (fun hz => h0 (by rw [hz])) d
theorem before0_5_C (c : Dev nD) (t : Fin cfg0.N) (h0 : ¬t.val % 16 = 0) (h1 : ¬t.val % 4 = 0) (h2 : t.val % 4 = 3) (d) :
    (dats m 0 c).before 5 t d = (outsAt0 m c (t.val - 1) (Nat.lt_of_le_of_lt (Nat.sub_le _ _) t.isLt)).1 :=
  before0_5_pos m c t (fun hz => h0 (by rw [hz])) d
theorem before0_5_D (c : Dev nD) (t : Fin cfg0.N) (h0 : ¬t.val % 16 = 0) (h1 : t.val % 4 = 0) (h2 : ¬t.val % 4 = 3) (d) :
    (dats m 0 c).before 5 t d = (outsAt0 m c (t.val - 1) (Nat.lt_of_le_of_lt (Nat.sub_le _ _) t.isLt)).1 :=
  before0_5_pos m c t (fun hz => h0 (by rw [hz])) d

end Cert.Kernel.Body

end
-- ==== Proof.KB.Frame.lean ====
/-
  The frame of the kernel: the body obligation at a generic point from the four whole-body runs, over the proof data
  that names what every kept buffer holds point by point, and the run of the program to the frame's post.
-/
import proofs.«112522_g50646254354673_cont_8to1_c_444_16_alg».proof.Proof.KB.FrameDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- The resources present as the body starts at `t`: the invariant, the (empty) debt, and the six windows' buffers. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- The resources the body must hand back at `t`: the invariant one position later, the same debt, and the six windows'
    buffers at the contents the data names. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 12800000 in
/-- One step of the pipeline. Split on the three equations for `t.val`. Position 0 is the first case: the scratch
    buffers and the output's buffer enter at arbitrary contents and every one of them leaves at pieces that cover it. At a
    later position the output's buffer and the scratch buffers enter at the components of `outsAt0` one position
    earlier, which is what the selected case's run assumes; a buffer it only reads leaves unchanged, one it rewrites in
    part leaves at its pieces laid over the entering contents, and the accumulator leaves at pieces that cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : t.val % 4 = 0
    · by_cases h2 : t.val % 4 = 3
      · exfalso; omega
      · have hz : t.val = 0 := by omega
        rw [outsAt0_A m c t h0 h1 h2]
        unfold out0_A_5 sout0_A_0 sout0_A_1 sout0_A_2 sout0_A_3; (try dsimp only)
        rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)).2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        iintro ⟨H0, H1, H2, H3, H4, ⟨%e5, H5⟩, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t))
            isplitl [HS1]
            · unfold owns; iexists _; isplitr
              swap; · iexact HS1
              ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t))
            isplitl [HS2]
            · unfold owns; iexists _; isplitr
              swap; · iexact HS2
              ipureintro; exact View.read_writes_of_cover _ _ _ _ _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t))
            unfold owns; iexists _; isplitr
            swap; · iexact HS3
            ipureintro; exact View.read_writes_of_cover _ _ _ _ _ (scover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t))
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t))
    · exfalso; omega
  · by_cases h1 : t.val % 4 = 0
    · by_cases h2 : t.val % 4 = 3
      · exfalso; omega
      · have hz : t.val ≠ 0 := fun hz => h0 (by rw [hz])
        rw [outsAt0_D m c t h0 h1 h2]
        simp only [before0_5_D m c t h0 h1 h2]
        unfold out0_D_5 sout0_D_1 sout0_D_2 sout0_D_3; (try dsimp only)
        rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexists _; iexact HS3
        iintro ⟨H0, H1, H2, H3, H4, H5, HS0, HS1, HS2, ⟨%es3, HS3⟩⟩
        isplitl [HS0 HS1 HS2 HS3 Hg]
        · isplitl [HS0 HS1 HS2 HS3]
          · isplitl [HS0]; · iexact HS0
            isplitl [HS1]
            · unfold owns; iexists _; isplitr
              swap; · iexact HS1
              ipureintro; rfl
            isplitl [HS2]
            · unfold owns; iexists _; isplitr
              swap; · iexact HS2
              ipureintro; rfl
            unfold owns; iexists _; isplitr
            swap; · iexact HS3
            ipureintro; exact View.read_writes_of_cover _ _ _ _ _ (scover0_D_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; rfl
    · by_cases h2 : t.val % 4 = 3
      · have hz : t.val ≠ 0 := fun hz => h0 (by rw [hz])
        rw [outsAt0_C m c t h0 h1 h2]
        simp only [before0_5_C m c t h0 h1 h2]
        unfold out0_C_5 sout0_C_3; (try dsimp only)
        rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2).2.2 Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, HS0, HS1, HS2, ⟨%es3, HS3⟩⟩
        isplitl [HS0 HS1 HS2 HS3 Hg]
        · isplitl [HS0 HS1 HS2 HS3]
          · isplitl [HS0]; · iexact HS0
            isplitl [HS1]; · iexact HS1
            isplitl [HS2]; · iexact HS2
            unfold owns; iexists _; isplitr
            swap; · iexact HS3
            ipureintro; exact View.read_writes_of_cover _ _ _ _ _ (scover0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; rfl
      · have hz : t.val ≠ 0 := fun hz => h0 (by rw [hz])
        rw [outsAt0_B m c t h0 h1 h2]
        simp only [before0_5_B m c t h0 h1 h2]
        unfold out0_B_5 sout0_B_3; (try dsimp only)
        rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2).2.2 Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, HS0, HS1, HS2, ⟨%es3, HS3⟩⟩
        isplitl [HS0 HS1 HS2 HS3 Hg]
        · isplitl [HS0 HS1 HS2 HS3]
          · isplitl [HS0]; · iexact HS0
            isplitl [HS1]; · iexact HS1
            isplitl [HS2]; · iexact HS2
            unfold owns; iexists _; isplitr
            swap; · iexact HS3
            ipureintro; exact View.read_writes_of_cover _ _ _ _ _ (scover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; rfl

/-- Every position meets the pipeline's requirement on its body. -/
theorem body_obligation (c : Dev nD) : BodyObligation (dats (F := F) m 0 c) (defs₀ (F := F)) Variants.none () Set.univ := fun t => by
  rw [bigSep_W0, bigSep_W0]
  exact sound_body m c t

/-- At position 0 the invariant asks for no more than the scratch buffers at arbitrary contents and the register. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- At a nonzero position the invariant still yields the scratch buffers at some contents and the register: the names
    of the contents are dropped. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-- In particular once all sixteen points have run. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- The whole program, started from launch memory `m` and register states `ρ`, always terminates under fair
    scheduling, and where it stops each array a window stages is as the data above determines it while every other
    long-lived buffer is untouched. -/
theorem run_main : θ_run defs (onTc (τ := τ) (main (F := F))) (s₀ m ρ) (Pipeline.FramePost cfgs (dats m) 0 (Gen.V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := Gen.V m) (hmain := hmain m Variants.none) (hA := A_eq m) (hin := hin m) (hout := hout m)

/-- The five input arrays end exactly as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.KI.Runs.lean ====
/-
  What the four runs of the kernel body share: the three branch conditions as propositions over a grid point
  (first point of the whole grid; first row block of a relation; last row block of a relation) with their closed
  forms over the linear position, the staging memrefs the pipeline hands the body at a point, the four scratch
  buffers as whole memrefs, and the region's invariant opened into those four buffers.
-/
import proofs.«112522_g50646254354673_cont_8to1_c_444_16_alg».proof.Proof.Gen.KernelIdeal.Launch
import proofs.«112522_g50646254354673_cont_8to1_c_444_16_alg».proof.Proof.Gen.KernelIdeal.Skeleton
import proofs.«112522_g50646254354673_cont_8to1_c_444_16_alg».proof.Proof.Gen.KernelIdeal.Points
import proofs.«112522_g50646254354673_cont_8to1_c_444_16_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- Relation 0 and row block 0: the very first grid point. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- Row block 0 of a relation. -/
abbrev cond0_1 (i : grid0.Coords) : Prop :=
  (Scalar.cmpi .ne (Scalar.extui (Scalar.cmpi .eq (BitVec.ofNat 32 (i 1).val) 0#32)) 0#32) = 1#1
theorem hcond0_1 : ∀ t : Fin cfg0.N, cond0_1 (grid0.coords t) ↔ t.val % 4 = 0 :=
  (by decide +kernel : ∀ t : Fin grid0.N, cond0_1 (grid0.coords t) ↔ t.val % 4 = 0)

/-- The last row block (3) of a relation. -/
abbrev cond0_2 (i : grid0.Coords) : Prop :=
  (Scalar.cmpi .ne (Scalar.extui (Scalar.cmpi .eq (BitVec.ofNat 32 (i 1).val) 3#32)) 0#32) = 1#1
theorem hcond0_2 : ∀ t : Fin cfg0.N, cond0_2 (grid0.coords t) ↔ t.val % 4 = 3 :=
  (by decide +kernel : ∀ t : Fin grid0.N, cond0_2 (grid0.coords t) ↔ t.val % 4 = 3)

/-! ## The memrefs the body runs on -/

abbrev ms0_0 (t : Fin cfg0.N) : Memref sig .tc .vmem S4096x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x64 .f32 := win0_5.stage (cfg0.slots t 5)
abbrev hs0_5 (t : Fin cfg0.N) : (ms0_5 t).IsWhole := hstage0_5 ((cfg0.slots t 5).cast nbuf0_5)

/-- The transposed features, the augmented source-side features, the augmented transposed target-side
    features and the transposed column-direction accumulator: whole scoped buffers. -/
abbrev scM0_0 : Memref sig .tc .vmem S64x4096 .f32 := Memref.whole cc0_scratch0
abbrev scM0_1 : Memref sig .tc .vmem S4096x128 .bf16 := Memref.whole cc0_scratch1
abbrev scM0_2 : Memref sig .tc .vmem S72x4096 .bf16 := Memref.whole cc0_scratch2
abbrev scM0_3 : Memref sig .tc .vmem S72x4096 .f32 := Memref.whole cc0_scratch3

/-- Views through which the contents of the output's staging buffer and of the scratch buffers are stated. -/
abbrev VO0_5 : View sig .tc .vmem S4096x64 .f32 := (Memref.whole cc0_stg5_0 : Memref sig .tc .vmem S4096x64 .f32).view
abbrev VS0_0 : View sig .tc .vmem S64x4096 .f32 := scM0_0.view
abbrev VS0_1 : View sig .tc .vmem S4096x128 .bf16 := scM0_1.view
abbrev VS0_2 : View sig .tc .vmem S72x4096 .bf16 := scM0_2.view
abbrev VS0_3 : View sig .tc .vmem S72x4096 .f32 := scM0_3.view

/-- The region's invariant is the four scratch buffers owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Body

end
-- ==== Proof.KI.RunA.lean ====
/-
  The kernel body at the first grid point (relation 0, row block 0): the first two branches are taken. Every
  buffer the body keeps is written before it is used: the output's staging buffer receives the self-loop product
  whole and then the first row block's source-direction message; the transposed features, both augmented feature
  buffers (features and the constant ones/zeros padding) and the zeroed accumulator with the first block's
  contribution are stored whole.
-/
import proofs.«112522_g50646254354673_cont_8to1_c_444_16_alg».proof.Proof.KI.Runs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body leaves in the output's staging buffer and in each scratch buffer, with the triple that
    proves it; what the buffers held before does not matter. -/
noncomputable def kernelRun0_A (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) :
    Σ' (L5 : List (View.Piece (Elt F) S4096x64 .f32)) (LS0 : List (View.Piece (Elt F) S64x4096 .f32)) (LS1 : List (View.Piece (Elt F) S4096x128 .bf16)) (LS2 : List (View.Piece (Elt F) S72x4096 .bf16)), { LS3 : List (View.Piece (Elt F) S72x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__rgcn_body i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__rgcn_body_eq_skeleton, k0_part1_eq_skeleton]; unfold cc0__rgcn_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    isplitl [HS2]; · iexists _; iexact HS2
    iexists _; iexact HS3

end Cert.KernelIdeal.Body

end
-- ==== Proof.KI.RunB.lean ====
/-
  The kernel body at a middle row block (blocks 1 and 2 of a relation): no branch is taken. The body adds the
  normalised source-direction product of this row block to its 1024 rows of the output's staging buffer and this
  block's contribution to the transposed column-direction accumulator; the transposed features and the two
  augmented feature buffers are only read.
-/
import proofs.«112522_g50646254354673_cont_8to1_c_444_16_alg».proof.Proof.KI.Runs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output's staging buffer (over what it held, `xo5`) and in the accumulator,
    with the triple that proves it. -/
noncomputable def kernelRun0_B (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : ¬cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) (xs3 : Vec F S72x4096 .f32) :
    Σ' (L5 : List (View.Piece (Elt F) S4096x64 .f32)), { LS3 : List (View.Piece (Elt F) S72x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xo5) L5)
                ∗ owns (c : Thread nD τ) arg8 fullShare xs0 ∗ owns (c : Thread nD τ) arg9 fullShare xs1 ∗ owns (c : Thread nD τ) arg10 fullShare xs2 ∗ (∃ f, arg11.view.loc (c : Thread nD τ) ↦[arg11.view.set]{fullShare} arg11.view.writes (Elt F) f LS3)) -∗ K ⟨⟩))
          ⊢ wp frame (wpE (defs₀ (F := F)) Variants.none c none) E (cc0__rgcn_body i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__rgcn_body_eq_skeleton, k0_part1_eq_skeleton]; unfold cc0__rgcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hfs0; obtain rfl := harg9.eq_unread hfs1; obtain rfl := harg10.eq_unread hfs2; obtain rfl := harg11.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    iexists _; iexact HS3

end Cert.KernelIdeal.Body

end
-- ==== Proof.KI.RunC.lean ====
/-
  The kernel body at the last row block of a relation: only the closing branch is taken. After the block's
  source-direction message and its contribution to the accumulator, the column direction is closed: the
  accumulator's feature rows, each column scaled by the reciprocal of its clamped degree (the accumulator's
  row of column sums), are transposed and added to the whole output staging buffer.
-/
import proofs.«112522_g50646254354673_cont_8to1_c_444_16_alg».proof.Proof.KI.Runs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output's staging buffer (over what it held, `xo5`) and in the accumulator,
    with the triple that proves it. -/
noncomputable def kernelRun0_C (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : ¬cond0_1 i) (hc2 : cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) (xs3 : Vec F S72x4096 .f32) :
    Σ' (L5 : List (View.Piece (Elt F) S4096x64 .f32)), { LS3 : List (View.Piece (Elt F) S72x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xo5) L5)
                ∗ owns (c : Thread nD τ) arg8 fullShare xs0 ∗ owns (c : Thread nD τ) arg9 fullShare xs1 ∗ owns (c : Thread nD τ) arg10 fullShare xs2 ∗ (∃ f, arg11.view.loc (c : Thread nD τ) ↦[arg11.view.set]{fullShare} arg11.view.writes (Elt F) f LS3)) -∗ K ⟨⟩))
          ⊢ wp frame (wpE (defs₀ (F := F)) Variants.none c none) E (cc0__rgcn_body i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__rgcn_body_eq_skeleton, k0_part1_eq_skeleton]; unfold cc0__rgcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hfs0; obtain rfl := harg9.eq_unread hfs1; obtain rfl := harg10.eq_unread hfs2; obtain rfl := harg11.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    iexists _; iexact HS3

end Cert.KernelIdeal.Body

end
-- ==== Proof.KI.RunD.lean ====
/-
  The kernel body at the first row block of a later relation (relations 1 to 3): only the per-relation branch is
  taken. The feature halves of the two augmented buffers are recomputed over what the buffers held (their constant
  padding stays), the accumulator is zeroed and receives the first block's contribution, and the output's staging
  buffer receives this row block's source-direction message over what it held.
-/
import proofs.«112522_g50646254354673_cont_8to1_c_444_16_alg».proof.Proof.KI.Runs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body writes over the output's staging buffer (at `xo5`) and over the two augmented feature
    buffers (at `xs1`, `xs2`), the pieces that fill the accumulator, and the triple that proves it. -/
noncomputable def kernelRun0_D (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) :
    Σ' (L5 : List (View.Piece (Elt F) S4096x64 .f32)) (LS1 : List (View.Piece (Elt F) S4096x128 .bf16)) (LS2 : List (View.Piece (Elt F) S72x4096 .bf16)), { LS3 : List (View.Piece (Elt F) S72x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5
            ∗ owns (c : Thread nD τ) arg8 fullShare xs0 ∗ owns (c : Thread nD τ) arg9 fullShare xs1 ∗ owns (c : Thread nD τ) arg10 fullShare xs2 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xo5) L5)
                ∗ owns (c : Thread nD τ) arg8 fullShare xs0 ∗ (arg9.view.loc (c : Thread nD τ) ↦[arg9.view.set]{fullShare} arg9.view.writes (Elt F) (harg9.unread xs1) LS1) ∗ (arg10.view.loc (c : Thread nD τ) ↦[arg10.view.set]{fullShare} arg10.view.writes (Elt F) (harg10.unread xs2) LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__rgcn_body i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__rgcn_body_eq_skeleton, k0_part1_eq_skeleton]; unfold cc0__rgcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hfs0; obtain rfl := harg9.eq_unread hfs1; obtain rfl := harg10.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [HS0]
    · iexists _; isplitr; · ipureintro; exact harg8.read_unread _
      iexact HS0
    isplitl [HS1]; · iexact HS1
    isplitl [HS2]; · iexact HS2
    iexists _; iexact HS3

end Cert.KernelIdeal.Body

end
-- ==== Proof.KI.FrameDefs.lean ====
/-
  What the output's staging buffer and the four scratch buffers hold after the body at each of the sixteen grid points
  (four relations by four row blocks), and the pipeline's proof data built on it.

  The first point stores every buffer before using it; a later first row block of a relation rewrites parts of the two
  augmented feature buffers and refills the accumulator; the other row blocks only read the feature buffers and refill
  the accumulator; the output's staging buffer is never written back before the last point, so each later point writes
  its pieces over what the point before left in it.
-/
import proofs.«112522_g50646254354673_cont_8to1_c_444_16_alg».proof.Proof.KI.RunA
import proofs.«112522_g50646254354673_cont_8to1_c_444_16_alg».proof.Proof.KI.RunB
import proofs.«112522_g50646254354673_cont_8to1_c_444_16_alg».proof.Proof.KI.RunC
import proofs.«112522_g50646254354673_cont_8to1_c_444_16_alg».proof.Proof.KI.RunD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the buffers the body keeps -/

/-- At the first point the pieces stored in the output's staging buffer cover it: one of them is the whole block. -/
theorem cover0_A_5 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (y : S4096x64.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 x0 x1 x2 x3 x4).1 S4096x64.size (by sl_kernel_rfl) y

/-- What the first point leaves in the output's staging buffer: its pieces read back, the earlier contents being covered. -/
def out0_A_5 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) : Vec F S4096x64 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 hc2 x0 x1 x2 x3 x4).1)

/-- At the first point the transposed features are stored whole. -/
theorem scover0_A_0 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (y : S64x4096.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 x0 x1 x2 x3 x4).2.1 S64x4096.size (by sl_kernel_rfl) y

/-- What the first point leaves in the transposed-features buffer. -/
def sout0_A_0 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) : Vec F S64x4096 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 hc2 x0 x1 x2 x3 x4).2.1)

/-- At the first point the two column halves stored in the augmented source-side buffer tile it. -/
theorem scover0_A_1 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (y : S4096x128.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 x0 x1 x2 x3 x4).2.2.1 S4096x64.size (by sl_kernel_rfl) y

/-- What the first point leaves in the augmented source-side buffer. -/
def sout0_A_1 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) : Vec F S4096x128 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 hc2 x0 x1 x2 x3 x4).2.2.1)

/-- At the first point the 64 feature rows and the 8 padding rows stored in the augmented target-side buffer tile it (in blocks of 8 rows). -/
theorem scover0_A_2 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (y : S72x4096.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4).2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 hc0 hc1 hc2 x0 x1 x2 x3 x4).2.2.2.1 S8x4096.size (by sl_kernel_rfl) y

/-- What the first point leaves in the augmented target-side buffer. -/
def sout0_A_2 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) : Vec F S72x4096 .bf16 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 hc2 x0 x1 x2 x3 x4).2.2.2.1)

/-- At the first point the accumulator is stored whole. -/
theorem scover0_A_3 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (y : S72x4096.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 x0 x1 x2 x3 x4).2.2.2.2.1 S72x4096.size (by sl_kernel_rfl) y

/-- What the first point leaves in the accumulator. -/
def sout0_A_3 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) : Vec F S72x4096 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 hc0 hc1 hc2 x0 x1 x2 x3 x4).2.2.2.2.1)

/-- What a middle row block leaves in the output's staging buffer: its pieces written over what the buffer held. -/
def out0_B_5 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : ¬cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) (xs3 : Vec F S72x4096 .f32) : Vec F S4096x64 .f32 :=
  arg7.view.read (Elt F) (arg7.view.writes (Elt F) (harg7.unread xo5) (kernelRun0_B c i arg2 harg2 arg3 harg3 arg4 harg4 arg5 harg5 arg6 harg6 arg7 harg7 arg8 harg8 arg9 harg9 arg10 harg10 arg11 harg11 hc0 hc1 hc2 x0 x1 x2 x3 x4 xo5 xs0 xs1 xs2 xs3).1)

/-- At a middle row block the accumulator is stored whole. -/
theorem scover0_B_3 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : ¬cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) (xs3 : Vec F S72x4096 .f32) (y : S72x4096.Idx) :
    ∃ pc ∈ (kernelRun0_B c i arg2 harg2 arg3 harg3 arg4 harg4 arg5 harg5 arg6 harg6 arg7 harg7 arg8 harg8 arg9 harg9 arg10 harg10 arg11 harg11 hc0 hc1 hc2 x0 x1 x2 x3 x4 xo5 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 hc2 x0 x1 x2 x3 x4 xo5 xs0 xs1 xs2 xs3).2.1 S72x4096.size (by sl_kernel_rfl) y

/-- What a middle row block leaves in the accumulator. -/
def sout0_B_3 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : ¬cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) (xs3 : Vec F S72x4096 .f32) : Vec F S72x4096 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 hc0 hc1 hc2 x0 x1 x2 x3 x4 xo5 xs0 xs1 xs2 xs3).2.1)

/-- What the last row block of a relation leaves in the output's staging buffer: its pieces written over what the buffer held. -/
def out0_C_5 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : ¬cond0_1 i) (hc2 : cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) (xs3 : Vec F S72x4096 .f32) : Vec F S4096x64 .f32 :=
  arg7.view.read (Elt F) (arg7.view.writes (Elt F) (harg7.unread xo5) (kernelRun0_C c i arg2 harg2 arg3 harg3 arg4 harg4 arg5 harg5 arg6 harg6 arg7 harg7 arg8 harg8 arg9 harg9 arg10 harg10 arg11 harg11 hc0 hc1 hc2 x0 x1 x2 x3 x4 xo5 xs0 xs1 xs2 xs3).1)

/-- At the last row block of a relation the accumulator is stored whole. -/
theorem scover0_C_3 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : ¬cond0_1 i) (hc2 : cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) (xs3 : Vec F S72x4096 .f32) (y : S72x4096.Idx) :
    ∃ pc ∈ (kernelRun0_C c i arg2 harg2 arg3 harg3 arg4 harg4 arg5 harg5 arg6 harg6 arg7 harg7 arg8 harg8 arg9 harg9 arg10 harg10 arg11 harg11 hc0 hc1 hc2 x0 x1 x2 x3 x4 xo5 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 x0 x1 x2 x3 x4 xo5 xs0 xs1 xs2 xs3).2.1 S72x4096.size (by sl_kernel_rfl) y

/-- What the last row block of a relation leaves in the accumulator. -/
def sout0_C_3 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : ¬cond0_1 i) (hc2 : cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) (xs3 : Vec F S72x4096 .f32) : Vec F S72x4096 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 hc0 hc1 hc2 x0 x1 x2 x3 x4 xo5 xs0 xs1 xs2 xs3).2.1)

/-- What the first row block of a later relation leaves in the output's staging buffer: its pieces written over what the buffer held. -/
def out0_D_5 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) : Vec F S4096x64 .f32 :=
  arg7.view.read (Elt F) (arg7.view.writes (Elt F) (harg7.unread xo5) (kernelRun0_D c i arg2 harg2 arg3 harg3 arg4 harg4 arg5 harg5 arg6 harg6 arg7 harg7 arg8 harg8 arg9 harg9 arg10 harg10 arg11 harg11 hc0 hc1 hc2 x0 x1 x2 x3 x4 xo5 xs0 xs1 xs2).1)

/-- What the first row block of a later relation leaves in the augmented source-side buffer: its pieces written over what the buffer held. -/
def sout0_D_1 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) : Vec F S4096x128 .bf16 :=
  arg9.view.read (Elt F) (arg9.view.writes (Elt F) (harg9.unread xs1) (kernelRun0_D c i arg2 harg2 arg3 harg3 arg4 harg4 arg5 harg5 arg6 harg6 arg7 harg7 arg8 harg8 arg9 harg9 arg10 harg10 arg11 harg11 hc0 hc1 hc2 x0 x1 x2 x3 x4 xo5 xs0 xs1 xs2).2.1)

/-- What the first row block of a later relation leaves in the augmented target-side buffer: its pieces written over what the buffer held. -/
def sout0_D_2 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) : Vec F S72x4096 .bf16 :=
  arg10.view.read (Elt F) (arg10.view.writes (Elt F) (harg10.unread xs2) (kernelRun0_D c i arg2 harg2 arg3 harg3 arg4 harg4 arg5 harg5 arg6 harg6 arg7 harg7 arg8 harg8 arg9 harg9 arg10 harg10 arg11 harg11 hc0 hc1 hc2 x0 x1 x2 x3 x4 xo5 xs0 xs1 xs2).2.2.1)

/-- At the first row block of a later relation the accumulator is stored whole. -/
theorem scover0_D_3 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) (y : S72x4096.Idx) :
    ∃ pc ∈ (kernelRun0_D c i arg2 harg2 arg3 harg3 arg4 harg4 arg5 harg5 arg6 harg6 arg7 harg7 arg8 harg8 arg9 harg9 arg10 harg10 arg11 harg11 hc0 hc1 hc2 x0 x1 x2 x3 x4 xo5 xs0 xs1 xs2).2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 hc0 hc1 hc2 x0 x1 x2 x3 x4 xo5 xs0 xs1 xs2).2.2.2.1 S72x4096.size (by sl_kernel_rfl) y

/-- What the first row block of a later relation leaves in the accumulator. -/
def sout0_D_3 (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : cond0_1 i) (hc2 : ¬cond0_2 i)
    (x0 : Vec F S4096x64 .f32) (x1 : Vec F S1x1024x4096 .f32) (x2 : Vec F S64x64 .f32) (x3 : Vec F S1x64x64 .f32) (x4 : Vec F S1x64x64 .f32) (xo5 : Vec F S4096x64 .f32) (xs0 : Vec F S64x4096 .f32) (xs1 : Vec F S4096x128 .bf16) (xs2 : Vec F S72x4096 .bf16) : Vec F S72x4096 .f32 :=
  VS0_3.read (Elt F) (VS0_3.writes (Elt F) VS0_3.junk (kernelRun0_D c i arg2 harg2 arg3 harg3 arg4 harg4 arg5 harg5 arg6 harg6 arg7 harg7 arg8 harg8 arg9 harg9 arg10 harg10 arg11 harg11 hc0 hc1 hc2 x0 x1 x2 x3 x4 xo5 xs0 xs1 xs2).2.2.2.1)

/-! ## What the buffers hold after each point -/

/-- The five kept buffers, point by point: the output's staging buffer, then the transposed features, the augmented
    source-side features, the augmented target-side features and the accumulator, as they stand once the body has run
    at position `n`. Position 0 is the first point's case on the blocks fetched there. Position `n + 1` is decided by
    `(n + 1) % 16 = 0`, `(n + 1) % 4 = 0` and `(n + 1) % 4 = 3`: the selected case runs on that point's blocks, and a buffer
    it reads, or rewrites only in part, enters at its component of position `n`. Among sixteen points no position meets
    the other combinations of the three equations. -/
def outsAt0 (c : Dev nD) : (n : ℕ) → n < cfg0.N → Vec F S4096x64 .f32 × Vec F S64x4096 .f32 × Vec F S4096x128 .bf16 × Vec F S72x4096 .bf16 × Vec F S72x4096 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 16 = 0 then
      if h1 : (n + 1) % 4 = 0 then
        if h2 : (n + 1) % 4 = 3 then
          False.elim (by have hN : n + 1 < 16 := lt_of_lt_of_eq hn (show cfg0.N = 16 from N_0); omega)
        else
          (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        False.elim (by have hN : n + 1 < 16 := lt_of_lt_of_eq hn (show cfg0.N = 16 from N_0); omega)
    else
      if h1 : (n + 1) % 4 = 0 then
        if h2 : (n + 1) % 4 = 3 then
          False.elim (by have hN : n + 1 < 16 := lt_of_lt_of_eq hn (show cfg0.N = 16 from N_0); omega)
        else
          (out0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1, (outsAt0 c n (Nat.lt_of_succ_lt hn)).2.1, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1, sout0_D_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1)
      else
        if h2 : (n + 1) % 4 = 3 then
          (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, (outsAt0 c n (Nat.lt_of_succ_lt hn)).2.1, (outsAt0 c n (Nat.lt_of_succ_lt hn)).2.2.1, (outsAt0 c n (Nat.lt_of_succ_lt hn)).2.2.2.1, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
        else
          (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, (outsAt0 c n (Nat.lt_of_succ_lt hn)).2.1, (outsAt0 c n (Nat.lt_of_succ_lt hn)).2.2.1, (outsAt0 c n (Nat.lt_of_succ_lt hn)).2.2.2.1, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at the very first point: that case's contents. -/
theorem outsAt0_A (c : Dev nD) (t : Fin cfg0.N) (h0 : t.val % 16 = 0) (h1 : t.val % 4 = 0) (h2 : ¬t.val % 4 = 3) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_pos h1).trans ((dif_neg h2).trans rfl))

/-- `outsAt0` at a middle row block: that case's contents, over what the point before left. -/
theorem outsAt0_B (c : Dev nD) (t : Fin cfg0.N) (h0 : ¬t.val % 16 = 0) (h1 : ¬t.val % 4 = 0) (h2 : ¬t.val % 4 = 3) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, (outsAt0 m c (t.val - 1) (Nat.lt_of_le_of_lt (Nat.sub_le _ _) t.isLt)).2.1, (outsAt0 m c (t.val - 1) (Nat.lt_of_le_of_lt (Nat.sub_le _ _) t.isLt)).2.2.1, (outsAt0 m c (t.val - 1) (Nat.lt_of_le_of_lt (Nat.sub_le _ _) t.isLt)).2.2.2.1, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- `outsAt0` at the last row block of a relation: that case's contents, over what the point before left. -/
theorem outsAt0_C (c : Dev nD) (t : Fin cfg0.N) (h0 : ¬t.val % 16 = 0) (h1 : ¬t.val % 4 = 0) (h2 : t.val % 4 = 3) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, (outsAt0 m c (t.val - 1) (Nat.lt_of_le_of_lt (Nat.sub_le _ _) t.isLt)).2.1, (outsAt0 m c (t.val - 1) (Nat.lt_of_le_of_lt (Nat.sub_le _ _) t.isLt)).2.2.1, (outsAt0 m c (t.val - 1) (Nat.lt_of_le_of_lt (Nat.sub_le _ _) t.isLt)).2.2.2.1, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at the first row block of a later relation: that case's contents, over what the point before left. -/
theorem outsAt0_D (c : Dev nD) (t : Fin cfg0.N) (h0 : ¬t.val % 16 = 0) (h1 : t.val % 4 = 0) (h2 : ¬t.val % 4 = 3) :
    outsAt0 m c t.val t.isLt = (out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1, (outsAt0 m c (t.val - 1) (Nat.lt_of_le_of_lt (Nat.sub_le _ _) t.isLt)).2.1, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1, sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- What the core holds besides the windows when position `n` starts. At `n = 0` the four scratch buffers hold arbitrary
    contents; at `n + 1` they hold the four scratch components of `outsAt0` at `n`. The random-number register is at an
    unnamed state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- `PhiS` at a successor, unfolded. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r)) := rfl

/-- `PhiS` at a nonzero position, stated through its predecessor. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2)) ∗ (∃ r, prngReg c r)) := by
  cases n with
  | zero => exact absurd rfl hz
  | succ n => rfl

/-! ## The pipeline's proof data -/

/-- The data the pipeline's run is stated over, on core `c`. The five input arrays and the output array start at the
    launch contents. Once the body has run at `t`, an input window's buffer still holds its block of the array and the
    output window's buffer holds the first component of `outsAt0` at `t`. The invariant between points is `PhiS`. Every
    buffer is owned in full and no transfer is outstanding. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- Each array of the data is the launch memory's. -/
theorem A_eq (c : Dev nD) (w : Fin cfg0.W) : (dats m 0 c).A w = V m c (Pipeline.arrRef spec0 w) := by
  dsimp only [dats]

/-- The invariant as position `t` starts is `PhiS` at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- The six windows' buffers once the body has run, one equation each. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- As the body starts, an input window's buffer holds the window's block of its array: the block fetched at this point, or,
    where nothing is fetched, the same block as at the point before. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- From the second point on, the output window's buffer starts at the first component of `outsAt0` one position
    earlier: the only write-back of that window follows position 15, so none falls between two consecutive points, and the
    window's block is the whole buffer. -/
theorem before0_5_pos (c : Dev nD) (t : Fin cfg0.N) (ht : t.val ≠ 0) (d) :
    (dats m 0 c).before 5 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 5 rfl t ht (Bool.eq_false_iff.mpr fun h => by have := (flush0_5 _).mp h; dsimp only at this; omega)
    (fun _ => rfl) (fun _ _ => rfl)]
  dsimp only [dats]
theorem before0_5_B (c : Dev nD) (t : Fin cfg0.N) (h0 : ¬t.val % 16 = 0) (h1 : ¬t.val % 4 = 0) (h2 : ¬t.val % 4 = 3) (d) :
    (dats m 0 c).before 5 t d = (outsAt0 m c (t.val - 1) (Nat.lt_of_le_of_lt (Nat.sub_le _ _) t.isLt)).1 :=
  before0_5_pos m c t (fun hz => h0 (by rw [hz])) d
theorem before0_5_C (c : Dev nD) (t : Fin cfg0.N) (h0 : ¬t.val % 16 = 0) (h1 : ¬t.val % 4 = 0) (h2 : t.val % 4 = 3) (d) :
    (dats m 0 c).before 5 t d = (outsAt0 m c (t.val - 1) (Nat.lt_of_le_of_lt (Nat.sub_le _ _) t.isLt)).1 :=
  before0_5_pos m c t (fun hz => h0 (by rw [hz])) d
theorem before0_5_D (c : Dev nD) (t : Fin cfg0.N) (h0 : ¬t.val % 16 = 0) (h1 : t.val % 4 = 0) (h2 : ¬t.val % 4 = 3) (d) :
    (dats m 0 c).before 5 t d = (outsAt0 m c (t.val - 1) (Nat.lt_of_le_of_lt (Nat.sub_le _ _) t.isLt)).1 :=
  before0_5_pos m c t (fun hz => h0 (by rw [hz])) d

end Cert.KernelIdeal.Body

end
-- ==== Proof.KI.Frame.lean ====
/-
  The frame of the kernel: the body obligation at a generic point from the four whole-body runs, over the proof data
  that names what every kept buffer holds point by point, and the run of the program to the frame's post.
-/
import proofs.«112522_g50646254354673_cont_8to1_c_444_16_alg».proof.Proof.KI.FrameDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- The resources present as the body starts at `t`: the invariant, the (empty) debt, and the six windows' buffers. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- The resources the body must hand back at `t`: the invariant one position later, the same debt, and the six windows'
    buffers at the contents the data names. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 12800000 in
/-- One step of the pipeline. Split on the three equations for `t.val`. Position 0 is the first case: the scratch
    buffers and the output's buffer enter at arbitrary contents and every one of them leaves at pieces that cover it. At a
    later position the output's buffer and the scratch buffers enter at the components of `outsAt0` one position
    earlier, which is what the selected case's run assumes; a buffer it only reads leaves unchanged, one it rewrites in
    part leaves at its pieces laid over the entering contents, and the accumulator leaves at pieces that cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : t.val % 4 = 0
    · by_cases h2 : t.val % 4 = 3
      · exfalso; omega
      · have hz : t.val = 0 := by omega
        rw [outsAt0_A m c t h0 h1 h2]
        unfold out0_A_5 sout0_A_0 sout0_A_1 sout0_A_2 sout0_A_3; (try dsimp only)
        rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)).2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        iintro ⟨H0, H1, H2, H3, H4, ⟨%e5, H5⟩, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t))
            isplitl [HS1]
            · unfold owns; iexists _; isplitr
              swap; · iexact HS1
              ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t))
            isplitl [HS2]
            · unfold owns; iexists _; isplitr
              swap; · iexact HS2
              ipureintro; exact View.read_writes_of_cover _ _ _ _ _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t))
            unfold owns; iexists _; isplitr
            swap; · iexact HS3
            ipureintro; exact View.read_writes_of_cover _ _ _ _ _ (scover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t))
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t))
    · exfalso; omega
  · by_cases h1 : t.val % 4 = 0
    · by_cases h2 : t.val % 4 = 3
      · exfalso; omega
      · have hz : t.val ≠ 0 := fun hz => h0 (by rw [hz])
        rw [outsAt0_D m c t h0 h1 h2]
        simp only [before0_5_D m c t h0 h1 h2]
        unfold out0_D_5 sout0_D_1 sout0_D_2 sout0_D_3; (try dsimp only)
        rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexists _; iexact HS3
        iintro ⟨H0, H1, H2, H3, H4, H5, HS0, HS1, HS2, ⟨%es3, HS3⟩⟩
        isplitl [HS0 HS1 HS2 HS3 Hg]
        · isplitl [HS0 HS1 HS2 HS3]
          · isplitl [HS0]; · iexact HS0
            isplitl [HS1]
            · unfold owns; iexists _; isplitr
              swap; · iexact HS1
              ipureintro; rfl
            isplitl [HS2]
            · unfold owns; iexists _; isplitr
              swap; · iexact HS2
              ipureintro; rfl
            unfold owns; iexists _; isplitr
            swap; · iexact HS3
            ipureintro; exact View.read_writes_of_cover _ _ _ _ _ (scover0_D_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; rfl
    · by_cases h2 : t.val % 4 = 3
      · have hz : t.val ≠ 0 := fun hz => h0 (by rw [hz])
        rw [outsAt0_C m c t h0 h1 h2]
        simp only [before0_5_C m c t h0 h1 h2]
        unfold out0_C_5 sout0_C_3; (try dsimp only)
        rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2).2.2 Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, HS0, HS1, HS2, ⟨%es3, HS3⟩⟩
        isplitl [HS0 HS1 HS2 HS3 Hg]
        · isplitl [HS0 HS1 HS2 HS3]
          · isplitl [HS0]; · iexact HS0
            isplitl [HS1]; · iexact HS1
            isplitl [HS2]; · iexact HS2
            unfold owns; iexists _; isplitr
            swap; · iexact HS3
            ipureintro; exact View.read_writes_of_cover _ _ _ _ _ (scover0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; rfl
      · have hz : t.val ≠ 0 := fun hz => h0 (by rw [hz])
        rw [outsAt0_B m c t h0 h1 h2]
        simp only [before0_5_B m c t h0 h1 h2]
        unfold out0_B_5 sout0_B_3; (try dsimp only)
        rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2).2.2 Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, HS0, HS1, HS2, ⟨%es3, HS3⟩⟩
        isplitl [HS0 HS1 HS2 HS3 Hg]
        · isplitl [HS0 HS1 HS2 HS3]
          · isplitl [HS0]; · iexact HS0
            isplitl [HS1]; · iexact HS1
            isplitl [HS2]; · iexact HS2
            unfold owns; iexists _; isplitr
            swap; · iexact HS3
            ipureintro; exact View.read_writes_of_cover _ _ _ _ _ (scover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; rfl

/-- Every position meets the pipeline's requirement on its body. -/
theorem body_obligation (c : Dev nD) : BodyObligation (dats (F := F) m 0 c) (defs₀ (F := F)) Variants.none () Set.univ := fun t => by
  rw [bigSep_W0, bigSep_W0]
  exact sound_body m c t

/-- At position 0 the invariant asks for no more than the scratch buffers at arbitrary contents and the register. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- At a nonzero position the invariant still yields the scratch buffers at some contents and the register: the names
    of the contents are dropped. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-- In particular once all sixteen points have run. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- The whole program, started from launch memory `m` and register states `ρ`, always terminates under fair
    scheduling, and where it stops each array a window stages is as the data above determines it while every other
    long-lived buffer is untouched. -/
theorem run_main : θ_run defs (onTc (τ := τ) (main (F := F))) (s₀ m ρ) (Pipeline.FramePost cfgs (dats m) 0 (Gen.V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := Gen.V m) (hmain := hmain m Variants.none) (hA := A_eq m) (hin := hin m) (hout := hout m)

/-- The five input arrays end exactly as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.Spec.lean ====
/-
  The mathematics of one relational graph-convolution layer, stated once over the extended reals and
  over plain index types, in the two arrangements the two programs compute it in.

  Inputs: node features `X` (4096 x 64), four dense adjacency slices `A r` (4096 x 4096), a self-loop
  weight `Wl` (64 x 64) and per-relation message weights `Win r`, `Wout r` (64 x 64).
  For each relation `r` two messages reach node `a`: along the rows of `A r` (normalised by the row
  sum, clamped below by a small threshold) and along its columns (normalised by the column sum).

  * `G` normalises the adjacency entry first and then sums: `∑ k, (A r a k / max (rowDeg r a) ε) * (X Win_r) k j`.
  * `K` sums first and multiplies by the reciprocal of the clamped degree afterwards, takes the degree as a
    sum of products with a column of ones, and gathers the column direction in four consecutive blocks of
    1024 rows starting from zero, in transposed layout.
  Both add the eight messages to `X Wl` in the same order.
-/
import Idealize.ShloMosaic.PureOps.Ideal
import Idealize.ShloMosaic.Lib.ValueIdx

noncomputable section

namespace Cert.Rgcn

open Idealize.ShloMosaic Idealize.ShloMosaic.ValueIdx

abbrev SX : Shape := ⟨2, ![4096, 64]⟩
abbrev SA : Shape := ⟨3, ![4, 4096, 4096]⟩
abbrev SW : Shape := ⟨2, ![64, 64]⟩
abbrev SR : Shape := ⟨3, ![4, 64, 64]⟩

/-- The clamp under both normalisers: the single-precision number nearest 1e-12, the same word in both programs. -/
def eps : EReal := Ideal.ofBits .f32 0x2B8CBCCC#32
/-- The single-precision one and zero, as the idealised kernel reads their words. -/
def one : EReal := Ideal.ofBits .f32 0x3F800000#32
def zero : EReal := Ideal.ofBits .f32 0x00000000#32

/-- Row `1024 * i + k` of a 4096-row array, for block `i` of four and row `k` inside the block. -/
def blockRow (i : Fin 4) (k : Fin 1024) : Fin 4096 := ⟨1024 * i.val + k.val, by omega⟩

section
variable (X : SX.Idx → EReal) (A : SA.Idx → EReal) (Wl : SW.Idx → EReal) (Win Wout : SR.Idx → EReal)

/-- `(X Wl) a j`. -/
def loopT (a : Fin 4096) (j : Fin 64) : EReal := ∑ l : Fin 64, X (ix2 a l) * Wl (ix2 l j)
/-- `(X Win_r) k j` and `(X Wout_r) k j`. -/
def hIn (r : Fin 4) (k : Fin 4096) (j : Fin 64) : EReal := ∑ l : Fin 64, X (ix2 k l) * Win (ix3 r l j)
def hOut (r : Fin 4) (k : Fin 4096) (j : Fin 64) : EReal := ∑ l : Fin 64, X (ix2 k l) * Wout (ix3 r l j)
/-- `(Wout_rᵀ Xᵀ) j k`: the same number as `hOut r k j` with the factors in the other order. -/
def hOutT (r : Fin 4) (j : Fin 64) (k : Fin 4096) : EReal := ∑ l : Fin 64, Wout (ix3 r l j) * X (ix2 k l)

/-! ### Normalise first, then sum -/

def rowDeg (r : Fin 4) (a : Fin 4096) : EReal := zero + ∑ k : Fin 4096, A (ix3 r a k)
def colDeg (r : Fin 4) (a : Fin 4096) : EReal := zero + ∑ k : Fin 4096, A (ix3 r k a)
def msgIn (r : Fin 4) (a : Fin 4096) (j : Fin 64) : EReal :=
  ∑ k : Fin 4096, Ideal.div (A (ix3 r a k)) (max (rowDeg A r a) eps) * hIn X Win r k j
def msgOut (r : Fin 4) (a : Fin 4096) (j : Fin 64) : EReal :=
  ∑ k : Fin 4096, Ideal.div (A (ix3 r k a)) (max (colDeg A r a) eps) * hOut X Wout r k j
def G (a : Fin 4096) (j : Fin 64) : EReal :=
  loopT X Wl a j + msgIn X A Win 0 a j + msgOut X A Wout 0 a j + msgIn X A Win 1 a j + msgOut X A Wout 1 a j
    + msgIn X A Win 2 a j + msgOut X A Wout 2 a j + msgIn X A Win 3 a j + msgOut X A Wout 3 a j

/-! ### Sum first, then multiply by the reciprocal of the degree -/

def pK (r : Fin 4) (a : Fin 4096) (j : Fin 64) : EReal := ∑ k : Fin 4096, A (ix3 r a k) * hIn X Win r k j
def degK (r : Fin 4) (a : Fin 4096) : EReal := ∑ k : Fin 4096, A (ix3 r a k) * one
def srcK (r : Fin 4) (a : Fin 4096) (j : Fin 64) : EReal :=
  pK X A Win r a j * Ideal.div one (max (degK A r a) eps)
/-- Block `i`'s contribution to the transposed column-direction sum, and to the column degree. -/
def blkY (r : Fin 4) (i : Fin 4) (j : Fin 64) (c : Fin 4096) : EReal :=
  ∑ k : Fin 1024, hOutT X Wout r j (blockRow i k) * A (ix3 r (blockRow i k) c)
def blkD (r : Fin 4) (i : Fin 4) (c : Fin 4096) : EReal :=
  ∑ k : Fin 1024, one * A (ix3 r (blockRow i k) c)
def yK (r : Fin 4) (j : Fin 64) (c : Fin 4096) : EReal :=
  zero + blkY X A Wout r 0 j c + blkY X A Wout r 1 j c + blkY X A Wout r 2 j c + blkY X A Wout r 3 j c
def cdegK (r : Fin 4) (c : Fin 4096) : EReal :=
  zero + blkD A r 0 c + blkD A r 1 c + blkD A r 2 c + blkD A r 3 c
def revK (r : Fin 4) (a : Fin 4096) (j : Fin 64) : EReal :=
  yK X A Wout r j a * Ideal.div one (max (cdegK A r a) eps)
def K (a : Fin 4096) (j : Fin 64) : EReal :=
  loopT X Wl a j + srcK X A Win 0 a j + revK X A Wout 0 a j + srcK X A Win 1 a j + revK X A Wout 1 a j
    + srcK X A Win 2 a j + revK X A Wout 2 a j + srcK X A Win 3 a j + revK X A Wout 3 a j

end

end Cert.Rgcn

end
-- ==== Proof.KI.Final.lean ====
/-
  The result array after the kernel's run, and the run re-posted at it.

  The output window's block is the whole 4096 x 64 array at every grid point (its block index is (0, 0) throughout), and
  the block is written back at the last of the sixteen points only. So the array after the run holds exactly what the
  output's staging buffer holds after the body at the last point. Given that this is the layer in the arrangement that
  sums first and multiplies by the reciprocal of the clamped degree afterwards, at every node and feature, the array
  ends holding that; the five argument arrays are staged by input windows, which never write back, and end as launched.
-/
import proofs.«112522_g50646254354673_cont_8to1_c_444_16_alg».proof.Proof.KI.Frame
import proofs.«112522_g50646254354673_cont_8to1_c_444_16_alg».proof.Proof.Spec
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The layer in the arrangement that sums first, as an array over the result's indices: at index i, the value at node
    i 0 and feature i 1 of core c's five argument arrays as launched. -/
def KX (c : Dev nD) : S4096x64.Idx → Elt Ideal .f32 := fun i =>
  Cert.Rgcn.K (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (i 0) (i 1)

/-- The grid has sixteen points, so the sixteenth exists. -/
theorem lt15 : 15 < cfg0.N := by rw [show cfg0.N = 16 from N_0]; omega

/-! ## Output window 5 -/

/-- The output's block index is (0, 0) at every grid point (decided over the grid). -/
theorem idx_facts5 : ∀ t : Fin cfg0.N, win0_5.index t (0 : Fin 2) = 0 ∧ win0_5.index t (1 : Fin 2) = 0 :=
  (by decide +kernel : ∀ t : Fin grid0.N, _)

/-- An index of the array is in point t's block iff each coordinate is in the block's range on its axis. -/
theorem mem_blk5 (t : Fin cfg0.N) (i : S4096x64.Idx) :
    i ∈ ((cfg0.win 5).blk t).view.set ↔ ∀ a : Fin 2, win0_5.index t a * S4096x64.size a ≤ (i a).val ∧ (i a).val < win0_5.index t a * S4096x64.size a + S4096x64.size a := by
  show i ∈ ((View.whole main_v0).slice (win0_5.rect t)).set ↔ _
  rw [View.set_slice_whole, Rect.mem_set_unit]
  exact Iff.rfl

/-- Every index of the array is in the last point's block, and the last point writes back. -/
theorem cover5 (i : S4096x64.Idx) : ∃ t : Fin cfg0.N, (cfg0.win 5).flush t = true ∧ i ∈ ((cfg0.win 5).blk t).view.set := by
  refine ⟨⟨15, lt15⟩, (flush0_5 _).mpr rfl, ?_⟩
  rw [mem_blk5]
  obtain ⟨e0, e1⟩ := idx_facts5 ⟨15, lt15⟩
  have hi0 : (i 0).val < 4096 := (i 0).isLt
  have hi1 : (i 1).val < 64 := (i 1).isLt
  intro a
  match a with
  | ⟨0, _⟩ => show win0_5.index ⟨15, lt15⟩ (0 : Fin 2) * 4096 ≤ (i 0).val ∧ (i 0).val < win0_5.index ⟨15, lt15⟩ (0 : Fin 2) * 4096 + 4096; omega
  | ⟨1, _⟩ => show win0_5.index ⟨15, lt15⟩ (1 : Fin 2) * 64 ≤ (i 1).val ∧ (i 1).val < win0_5.index ⟨15, lt15⟩ (1 : Fin 2) * 64 + 64; omega

section
variable (hlast : ∀ (c : Dev nD) (h15 : 15 < cfg0.N) (a : Fin 4096) (j : Fin 64),
  (outsAt0 (F := Ideal) m c 15 h15).1 (ValueIdx.ix2 a j)
    = Cert.Rgcn.K (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) a j)
include hlast

/-- What the output's staging buffer holds after the last point is the layer, at every index of the array. -/
theorem last_eq (c : Dev nD) (h15 : 15 < cfg0.N) (z : S4096x64.Idx) : (outsAt0 (F := Ideal) m c 15 h15).1 z = KX m c z := by
  exact (congrArg (outsAt0 (F := Ideal) m c 15 h15).1 (ValueIdx.eq_ix2 z)).trans (hlast c h15 (z 0) (z 1))

/-- WHAT A POINT THAT WRITES BACK WRITES is its block of the layer: only the last point writes back, its block is the
    whole array, and the buffer then holds the layer. -/
theorem flushed5_eq (c : Dev nD) (t : Fin cfg0.N) (hf : (cfg0.win 5).flush t = true) :
    (dats m 0 c).flushed 5 t = ((cfg0.win 5).blk t).view.read (Elt Ideal) (KX m c) := by
  show (cfg0.win 5).cut (grid0.coords t) ((dats m 0 c).after 5 t) = _
  rw [after0_5]
  have h15 : t.val = 15 := by
    have h := (flush0_5 t).mp hf
    have hN : t.val < 16 := lt_of_lt_of_eq t.isLt (show cfg0.N = 16 from N_0)
    omega
  obtain ⟨n, hn⟩ := t
  dsimp only at h15
  subst h15
  obtain ⟨e0, e1⟩ := idx_facts5 ⟨15, hn⟩
  funext y
  have hz : ((cfg0.win 5).blk ⟨15, hn⟩).view.emb y = (cfg0.win 5).xinj (grid0.coords ⟨15, hn⟩) y := by
    funext a; apply Fin.ext
    match a with
    | ⟨0, _⟩ => show win0_5.index ⟨15, hn⟩ (0 : Fin 2) * 4096 + 1 * (y 0).val = (y 0).val; omega
    | ⟨1, _⟩ => show win0_5.index ⟨15, hn⟩ (1 : Fin 2) * 64 + 1 * (y 1).val = (y 1).val; omega
  show (outsAt0 (F := Ideal) m c 15 hn).1 ((cfg0.win 5).xinj (grid0.coords ⟨15, hn⟩) y) = KX m c (((cfg0.win 5).blk ⟨15, hn⟩).view.emb y)
  rw [hz]
  exact last_eq m hlast c hn _

/-- THE ARRAY after the run is the layer: the last point's block covers every index. -/
theorem final5 (c : Dev nD) : (dats m 0 c).arrAt 5 cfg0.N = KX m c :=
  (dats m 0 c).arrAt_eq_of_cover 5 (KX m c) (fun t hf => flushed5_eq m hlast c t hf) cover5

end

/-! ## The run, read -/

/-- After the frame run, the output window's array is what the write-backs leave in it. -/
theorem post5 (r : PUnit × MemSt nD τ sig (Elt Ideal)) (h : Pipeline.FramePost cfgs (dats m) 0 (V m) r) (c : Dev nD) :
    r.2.mem ((c.tc : Thread nD τ).loc main_v0) = (dats m 0 c).arrAt 5 cfg0.N :=
  (h c).1 5

/-- After the frame run each argument is as launched: an input window stages it and never writes it back. -/
theorem kept_main_arg0 (r : PUnit × MemSt nD τ sig (Elt Ideal)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))
theorem kept_main_arg1 (r : PUnit × MemSt nD τ sig (Elt Ideal)) (h : Pipeline.FramePost cfgs (dats m) 0 (V m) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))
theorem kept_main_arg2 (r : PUnit × MemSt nD τ sig (Elt Ideal)) (h : Pipeline.FramePost cfgs (dats m) 0 (V m) r) (c : Dev nD) :
    r.2.mem ((c.tc : Thread nD τ).loc main_arg2) = m ((c.tc : Thread nD τ).loc main_arg2) :=
  ((h c).1 2).trans (((dats m 0 c).arrAt_in 2 rfl _).trans ((A_eq m c 2).trans (V_main_arg2 m c)))
theorem kept_main_arg3 (r : PUnit × MemSt nD τ sig (Elt Ideal)) (h : Pipeline.FramePost cfgs (dats m) 0 (V m) r) (c : Dev nD) :
    r.2.mem ((c.tc : Thread nD τ).loc main_arg3) = m ((c.tc : Thread nD τ).loc main_arg3) :=
  ((h c).1 3).trans (((dats m 0 c).arrAt_in 3 rfl _).trans ((A_eq m c 3).trans (V_main_arg3 m c)))
theorem kept_main_arg4 (r : PUnit × MemSt nD τ sig (Elt Ideal)) (h : Pipeline.FramePost cfgs (dats m) 0 (V m) r) (c : Dev nD) :
    r.2.mem ((c.tc : Thread nD τ).loc main_arg4) = m ((c.tc : Thread nD τ).loc main_arg4) :=
  ((h c).1 4).trans (((dats m 0 c).arrAt_in 4 rfl _).trans ((A_eq m c 4).trans (V_main_arg4 m c)))

/-- The frame run re-posted: the result array at the layer in the arrangement that sums first, the arguments unchanged. -/
theorem run (hlast : ∀ (c : Dev nD) (h15 : 15 < cfg0.N) (a : Fin 4096) (j : Fin 64),
      (outsAt0 (F := Ideal) m c 15 h15).1 (ValueIdx.ix2 a j)
        = Cert.Rgcn.K (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) a j) :
    θ_run defs (onTc (τ := τ) (main (F := Ideal))) ⟨m, fun _ => 0, ρ⟩ fun r => ∀ c : Dev nD,
      r.2.mem ((c.tc : Thread nD τ).loc main_v0) = KX m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(post5 m r h c).trans (final5 m hlast c),
      kept_main_arg0 m r h c, kept_main_arg1 m r h c, kept_main_arg2 m r h c, kept_main_arg3 m r h c, kept_main_arg4 m r h c⟩)
    (run_main m ρ)

end Cert.KernelIdeal.Body

end
-- ==== Proof.KI.Blocks.lean ====
/-
  The blocks the pipeline stages at a grid point, read off the argument arrays. Point `t` (0..15) is relation
  `t / 4`, row block `t % 4`: the feature matrix and the self-loop weight come whole at every point, the adjacency
  comes as rows `1024 (t % 4) .. 1024 (t % 4) + 1023` of slice `t / 4`, each message weight as slice `t / 4`.
-/
import proofs.«112522_g50646254354673_cont_8to1_c_444_16_alg».proof.Proof.KI.Runs
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The windows' index maps at every point, and the point's coordinates. -/
theorem idx_facts : ∀ t : Fin cfg0.N,
    win0_0.index t (0 : Fin 2) = 0 ∧ win0_0.index t (1 : Fin 2) = 0
    ∧ win0_1.index t (0 : Fin 3) = t.val / 4 ∧ win0_1.index t (1 : Fin 3) = t.val % 4 ∧ win0_1.index t (2 : Fin 3) = 0
    ∧ win0_2.index t (0 : Fin 2) = 0 ∧ win0_2.index t (1 : Fin 2) = 0
    ∧ win0_3.index t (0 : Fin 3) = t.val / 4 ∧ win0_3.index t (1 : Fin 3) = 0 ∧ win0_3.index t (2 : Fin 3) = 0
    ∧ win0_4.index t (0 : Fin 3) = t.val / 4 ∧ win0_4.index t (1 : Fin 3) = 0 ∧ win0_4.index t (2 : Fin 3) = 0
    ∧ win0_5.index t (0 : Fin 2) = 0 ∧ win0_5.index t (1 : Fin 2) = 0
    ∧ (grid0.coords t 0).val = t.val / 4 ∧ (grid0.coords t 1).val = t.val % 4 :=
  (by decide +kernel : ∀ t : Fin grid0.N, _)

theorem blk0_apply (c : Dev nD) (t : Fin cfg0.N) (a : Fin 4096) (l : Fin 64) :
    iblk m c 0 t (ix2 a l) = V m c main_arg0 (ix2 a l) := by
  obtain ⟨e0, e1, -⟩ := idx_facts t
  show V m c main_arg0 (((cfg0.win 0).blk t).view.emb (ix2 a l)) = V m c main_arg0 (ix2 a l)
  congr 1
  funext d; apply Fin.ext
  match d with
  | ⟨0, _⟩ => show win0_0.index t (0 : Fin 2) * 4096 + 1 * a.val = a.val; omega
  | ⟨1, _⟩ => show win0_0.index t (1 : Fin 2) * 64 + 1 * l.val = l.val; omega

theorem blk1_apply (c : Dev nD) (t : Fin cfg0.N) (p : Fin 1024) (k : Fin 4096) :
    iblk m c 1 t (ix3 0 p k) = V m c main_arg1 (ix3 ⟨t.val / 4, by have := lt_of_lt_of_eq t.isLt (show cfg0.N = 16 from N_0); omega⟩ ⟨1024 * (t.val % 4) + p.val, by omega⟩ k) := by
  obtain ⟨-, -, e0, e1, e2, -⟩ := idx_facts t
  show V m c main_arg1 (((cfg0.win 1).blk t).view.emb (ix3 0 p k)) = V m c main_arg1 _
  congr 1
  funext d; apply Fin.ext
  match d with
  | ⟨0, _⟩ => show win0_1.index t (0 : Fin 3) * 1 + 1 * 0 = t.val / 4; omega
  | ⟨1, _⟩ => show win0_1.index t (1 : Fin 3) * 1024 + 1 * p.val = 1024 * (t.val % 4) + p.val; omega
  | ⟨2, _⟩ => show win0_1.index t (2 : Fin 3) * 4096 + 1 * k.val = k.val; omega

theorem blk2_apply (c : Dev nD) (t : Fin cfg0.N) (l j : Fin 64) :
    iblk m c 2 t (ix2 l j) = V m c main_arg2 (ix2 l j) := by
  obtain ⟨-, -, -, -, -, e0, e1, -⟩ := idx_facts t
  show V m c main_arg2 (((cfg0.win 2).blk t).view.emb (ix2 l j)) = V m c main_arg2 (ix2 l j)
  congr 1
  funext d; apply Fin.ext
  match d with
  | ⟨0, _⟩ => show win0_2.index t (0 : Fin 2) * 64 + 1 * l.val = l.val; omega
  | ⟨1, _⟩ => show win0_2.index t (1 : Fin 2) * 64 + 1 * j.val = j.val; omega

theorem blk3_apply (c : Dev nD) (t : Fin cfg0.N) (l j : Fin 64) :
    iblk m c 3 t (ix3 0 l j) = V m c main_arg3 (ix3 ⟨t.val / 4, by have := lt_of_lt_of_eq t.isLt (show cfg0.N = 16 from N_0); omega⟩ l j) := by
  obtain ⟨-, -, -, -, -, -, -, e0, e1, e2, -⟩ := idx_facts t
  show V m c main_arg3 (((cfg0.win 3).blk t).view.emb (ix3 0 l j)) = V m c main_arg3 _
  congr 1
  funext d; apply Fin.ext
  match d with
  | ⟨0, _⟩ => show win0_3.index t (0 : Fin 3) * 1 + 1 * 0 = t.val / 4; omega
  | ⟨1, _⟩ => show win0_3.index t (1 : Fin 3) * 64 + 1 * l.val = l.val; omega
  | ⟨2, _⟩ => show win0_3.index t (2 : Fin 3) * 64 + 1 * j.val = j.val; omega

theorem blk4_apply (c : Dev nD) (t : Fin cfg0.N) (l j : Fin 64) :
    iblk m c 4 t (ix3 0 l j) = V m c main_arg4 (ix3 ⟨t.val / 4, by have := lt_of_lt_of_eq t.isLt (show cfg0.N = 16 from N_0); omega⟩ l j) := by
  obtain ⟨-, -, -, -, -, -, -, -, -, -, e0, e1, e2, -⟩ := idx_facts t
  show V m c main_arg4 (((cfg0.win 4).blk t).view.emb (ix3 0 l j)) = V m c main_arg4 _
  congr 1
  funext d; apply Fin.ext
  match d with
  | ⟨0, _⟩ => show win0_4.index t (0 : Fin 3) * 1 + 1 * 0 = t.val / 4; omega
  | ⟨1, _⟩ => show win0_4.index t (1 : Fin 3) * 64 + 1 * l.val = l.val; omega
  | ⟨2, _⟩ => show win0_4.index t (2 : Fin 3) * 64 + 1 * j.val = j.val; omega

end Cert.KernelIdeal.Body

end
-- ==== Proof.Steps.lean ====
/-
  What the kernel's five carried buffers hold after each of its sixteen grid points, as mathematics: relation `r`
  (0..3) and row block `ib` (0..3) of the point. The transposed features never change after the first point; the two
  augmented feature buffers hold relation `r`'s products with a column (row) of ones and zero padding; the
  accumulator holds the column-direction partial sums of blocks 0..ib; the output holds the self-loop product, both
  messages of the relations before `r`, relation `r`'s row-direction message on the rows of blocks 0..ib, and — after
  the last block — its column-direction message.
-/
import proofs.«112522_g50646254354673_cont_8to1_c_444_16_alg».proof.Proof.Spec

noncomputable section

namespace Cert.Rgcn

open Idealize.ShloMosaic Idealize.ShloMosaic.ValueIdx

section
variable (X : SX.Idx → EReal) (A : SA.Idx → EReal) (Wl : SW.Idx → EReal) (Win Wout : SR.Idx → EReal)

/-- The augmented source-side features of relation `r`: `X Win_r` in columns 0..63, ones in column 64, zeros beyond. -/
def Hspec (r : Fin 4) (k : Fin 4096) (j : Fin 128) : EReal :=
  if h : j.val < 64 then hIn X Win r k ⟨j.val, h⟩ else if j.val = 64 then one else zero
/-- The augmented transposed target-side features: `Wout_rᵀ Xᵀ` in rows 0..63, ones in row 64, zeros beyond. -/
def Uspec (r : Fin 4) (j : Fin 72) (k : Fin 4096) : EReal :=
  if h : j.val < 64 then hOutT X Wout r ⟨j.val, h⟩ k else if j.val = 64 then one else zero
/-- Block `i`'s contribution to row `j` of the accumulator. -/
def blkU (r : Fin 4) (i : Fin 4) (j : Fin 72) (c : Fin 4096) : EReal :=
  ∑ k : Fin 1024, Uspec X Wout r j (blockRow i k) * A (ix3 r (blockRow i k) c)
/-- The accumulator after blocks 0..ib of relation `r`. -/
def accY (r : Fin 4) : Fin 4 → Fin 72 → Fin 4096 → EReal
  | ⟨0, _⟩ => fun j c => zero + blkU X A Wout r 0 j c
  | ⟨1, _⟩ => fun j c => zero + blkU X A Wout r 0 j c + blkU X A Wout r 1 j c
  | ⟨2, _⟩ => fun j c => zero + blkU X A Wout r 0 j c + blkU X A Wout r 1 j c + blkU X A Wout r 2 j c
  | ⟨_ + 3, _⟩ => fun j c => zero + blkU X A Wout r 0 j c + blkU X A Wout r 1 j c + blkU X A Wout r 2 j c + blkU X A Wout r 3 j c
/-- The output before relation `r` begins. -/
def baseK : Fin 4 → Fin 4096 → Fin 64 → EReal
  | ⟨0, _⟩ => fun a j => loopT X Wl a j
  | ⟨1, _⟩ => fun a j => loopT X Wl a j + srcK X A Win 0 a j + revK X A Wout 0 a j
  | ⟨2, _⟩ => fun a j => loopT X Wl a j + srcK X A Win 0 a j + revK X A Wout 0 a j + srcK X A Win 1 a j + revK X A Wout 1 a j
  | ⟨_ + 3, _⟩ => fun a j => loopT X Wl a j + srcK X A Win 0 a j + revK X A Wout 0 a j + srcK X A Win 1 a j + revK X A Wout 1 a j
      + srcK X A Win 2 a j + revK X A Wout 2 a j
/-- The output after the point of relation `r`, row block `ib`. -/
def outAcc (r ib : Fin 4) (a : Fin 4096) (j : Fin 64) : EReal :=
  if a.val < 1024 * (ib.val + 1) then
    (if ib.val = 3 then baseK X A Wl Win Wout r a j + srcK X A Win r a j + revK X A Wout r a j
     else baseK X A Wl Win Wout r a j + srcK X A Win r a j)
  else baseK X A Wl Win Wout r a j

/-- The row-direction message as the kernel forms it from the augmented features. -/
theorem srcK_of_Hspec (r : Fin 4) (a : Fin 4096) (j : Fin 64) :
    (∑ k : Fin 4096, A (ix3 r a k) * Hspec X Win r k ⟨j.val, by omega⟩)
        * Ideal.div one (max (∑ k : Fin 4096, A (ix3 r a k) * Hspec X Win r k ⟨64, by omega⟩) eps)
      = srcK X A Win r a j := by
  unfold srcK pK degK Hspec
  simp only [j.isLt, dif_pos, Fin.eta, show ¬ (64 : ℕ) < 64 from by omega, dif_neg, not_false_eq_true, if_true]

/-- Rows 0..63 of the full accumulator are the transposed column-direction sums, row 64 the column degrees. -/
theorem accY_last_feat (r : Fin 4) (j : Fin 64) (c : Fin 4096) :
    accY X A Wout r 3 ⟨j.val, by omega⟩ c = yK X A Wout r j c := by
  show zero + blkU X A Wout r 0 ⟨j.val, _⟩ c + blkU X A Wout r 1 ⟨j.val, _⟩ c + blkU X A Wout r 2 ⟨j.val, _⟩ c + blkU X A Wout r 3 ⟨j.val, _⟩ c = _
  unfold yK blkU blkY Uspec
  simp only [j.isLt, dif_pos, Fin.eta]
theorem accY_last_deg (r : Fin 4) (c : Fin 4096) :
    accY X A Wout r 3 ⟨64, by omega⟩ c = cdegK A r c := by
  show zero + blkU X A Wout r 0 ⟨64, _⟩ c + blkU X A Wout r 1 ⟨64, _⟩ c + blkU X A Wout r 2 ⟨64, _⟩ c + blkU X A Wout r 3 ⟨64, _⟩ c = _
  unfold cdegK blkU blkD Uspec
  simp only [show ¬ (64 : ℕ) < 64 from by omega, dif_neg, not_false_eq_true, if_true]

/-- After the last point the output is the whole sum. -/
theorem outAcc_last (a : Fin 4096) (j : Fin 64) : outAcc X A Wl Win Wout 3 3 a j = K X A Wl Win Wout a j := by
  unfold outAcc
  rw [if_pos (by have := a.isLt; show a.val < 1024 * ((3 : Fin 4).val + 1); show a.val < 1024 * (3 + 1); omega), if_pos (show (3 : Fin 4).val = 3 from rfl)]
  rfl

/-- A finished relation is the next relation's start. -/
theorem baseK_succ (r : Fin 4) (h : r.val + 1 < 4) (a : Fin 4096) (j : Fin 64) :
    outAcc X A Wl Win Wout r 3 a j = baseK X A Wl Win Wout ⟨r.val + 1, h⟩ a j := by
  unfold outAcc
  rw [if_pos (by have := a.isLt; show a.val < 1024 * ((3 : Fin 4).val + 1); show a.val < 1024 * (3 + 1); omega), if_pos (show (3 : Fin 4).val = 3 from rfl)]
  match r, h with
  | ⟨0, _⟩, _ => rfl
  | ⟨1, _⟩, _ => rfl
  | ⟨2, _⟩, _ => rfl

/-- One more block: the accumulator gains that block's contribution. -/
theorem accY_succ (r : Fin 4) (ib' ib : Fin 4) (h : ib'.val + 1 = ib.val) (j : Fin 72) (c : Fin 4096) :
    accY X A Wout r ib j c = accY X A Wout r ib' j c + blkU X A Wout r ib j c := by
  match ib', ib, h with
  | ⟨0, _⟩, ⟨1, _⟩, _ => rfl
  | ⟨1, _⟩, ⟨2, _⟩, _ => rfl
  | ⟨2, _⟩, ⟨3, _⟩, _ => rfl

/-- The output after a middle row block, on and off the block's rows. -/
theorem outAcc_mid_in (r ib' ib : Fin 4) (h : ib'.val + 1 = ib.val) (hne : ib.val ≠ 3) (a : Fin 4096) (j : Fin 64)
    (ha : 1024 * ib.val ≤ a.val ∧ a.val < 1024 * ib.val + 1024) :
    outAcc X A Wl Win Wout r ib a j = outAcc X A Wl Win Wout r ib' a j + srcK X A Win r a j := by
  unfold outAcc
  rw [if_pos (by omega), if_neg hne, if_neg (by omega)]
theorem outAcc_mid_out (r ib' ib : Fin 4) (h : ib'.val + 1 = ib.val) (hne : ib.val ≠ 3) (a : Fin 4096) (j : Fin 64)
    (ha : ¬(1024 * ib.val ≤ a.val ∧ a.val < 1024 * ib.val + 1024)) :
    outAcc X A Wl Win Wout r ib a j = outAcc X A Wl Win Wout r ib' a j := by
  unfold outAcc
  by_cases hlt : a.val < 1024 * ib.val
  · rw [if_pos (by omega), if_neg hne, if_pos (by omega), if_neg (by omega)]
  · rw [if_neg (by omega), if_neg (by omega)]

/-- The output after the last row block: the block's rows gain the row-direction message, every row the
    column-direction message. -/
theorem outAcc_last_in (r ib' ib : Fin 4) (h : ib'.val + 1 = ib.val) (h3 : ib.val = 3) (a : Fin 4096) (j : Fin 64)
    (ha : 1024 * ib.val ≤ a.val ∧ a.val < 1024 * ib.val + 1024) :
    outAcc X A Wl Win Wout r ib a j = outAcc X A Wl Win Wout r ib' a j + srcK X A Win r a j + revK X A Wout r a j := by
  unfold outAcc
  rw [if_pos (by omega), if_pos h3, if_neg (by omega)]
theorem outAcc_last_out (r ib' ib : Fin 4) (h : ib'.val + 1 = ib.val) (h3 : ib.val = 3) (a : Fin 4096) (j : Fin 64)
    (ha : ¬(1024 * ib.val ≤ a.val ∧ a.val < 1024 * ib.val + 1024)) :
    outAcc X A Wl Win Wout r ib a j = outAcc X A Wl Win Wout r ib' a j + revK X A Wout r a j := by
  unfold outAcc
  have := a.isLt
  rw [if_pos (by omega), if_pos h3, if_pos (by omega), if_neg (by omega)]

/-- The output after the first row block of a relation. -/
theorem outAcc_first_in (r ib : Fin 4) (h0 : ib.val = 0) (a : Fin 4096) (j : Fin 64)
    (ha : 1024 * ib.val ≤ a.val ∧ a.val < 1024 * ib.val + 1024) :
    outAcc X A Wl Win Wout r ib a j = baseK X A Wl Win Wout r a j + srcK X A Win r a j := by
  unfold outAcc
  rw [if_pos (by omega), if_neg (by omega)]
theorem outAcc_first_out (r ib : Fin 4) (h0 : ib.val = 0) (a : Fin 4096) (j : Fin 64)
    (ha : ¬(1024 * ib.val ≤ a.val ∧ a.val < 1024 * ib.val + 1024)) :
    outAcc X A Wl Win Wout r ib a j = baseK X A Wl Win Wout r a j := by
  unfold outAcc
  rw [if_neg (by omega)]
/-- A finished relation is the next one's start, for any pair of consecutive relations. -/
theorem baseK_of_prev (r' r : Fin 4) (h : r'.val + 1 = r.val) (ib' : Fin 4) (h3 : ib'.val = 3) (a : Fin 4096) (j : Fin 64) :
    baseK X A Wl Win Wout r a j = outAcc X A Wl Win Wout r' ib' a j := by
  have e : ib' = 3 := Fin.ext h3
  subst e
  have hlt : r'.val + 1 < 4 := by have := r.isLt; omega
  have hr : r = ⟨r'.val + 1, hlt⟩ := Fin.ext h.symm
  rw [hr]
  exact (baseK_succ X A Wl Win Wout r' hlt a j).symm
/-- The first accumulator: zero and the first block. -/
theorem accY_zero (r ib : Fin 4) (h0 : ib.val = 0) (j : Fin 72) (c : Fin 4096) :
    accY X A Wout r ib j c = zero + blkU X A Wout r ib j c := by
  have e : ib = 0 := Fin.ext h0
  subst e; rfl

end

end Cert.Rgcn

end
-- ==== Proof.KI.InvDef.lean ====
/-
  The invariant of the sixteen grid points, at the ideal instance: after the point of relation `r = t / 4` and row
  block `ib = t % 4` the five carried buffers hold the mathematical quantities of Steps.lean, read index by index off
  the argument arrays as the region finds them.
-/
import proofs.«112522_g50646254354673_cont_8to1_c_444_16_alg».proof.Proof.KI.FrameDefs
import proofs.«112522_g50646254354673_cont_8to1_c_444_16_alg».proof.Proof.KI.Blocks
import proofs.«112522_g50646254354673_cont_8to1_c_444_16_alg».proof.Proof.Steps

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Rgcn

variable (m : (ℓ : Loc nD τ sig) → Buf (Elt Ideal) ℓ)

theorem tlt (t : Fin cfg0.N) : t.val < 16 := lt_of_lt_of_eq t.isLt (show cfg0.N = 16 from N_0)
/-- The relation and the row block of a point. -/
def rOf (t : Fin cfg0.N) : Fin 4 := ⟨t.val / 4, by have := tlt t; omega⟩
def ibOf (t : Fin cfg0.N) : Fin 4 := ⟨t.val % 4, Nat.mod_lt _ (by omega)⟩
/-- The point before. -/
abbrev prevT (t : Fin cfg0.N) : Fin cfg0.N := ⟨t.val - 1, Nat.lt_of_le_of_lt (Nat.sub_le _ _) t.isLt⟩

/-- The argument arrays as the region finds them, as functions on Spec's index types. -/
abbrev aX (c : Dev nD) : SX.Idx → EReal := V m c main_arg0
abbrev aA (c : Dev nD) : SA.Idx → EReal := V m c main_arg1
abbrev aWl (c : Dev nD) : SW.Idx → EReal := V m c main_arg2
abbrev aWin (c : Dev nD) : SR.Idx → EReal := V m c main_arg3
abbrev aWout (c : Dev nD) : SR.Idx → EReal := V m c main_arg4

/-- What the five buffers hold after point `t`. -/
def Inv (c : Dev nD) (t : Fin cfg0.N) : Prop :=
  (∀ (l : Fin 64) (k : Fin 4096), (outsAt0 (F := Ideal) m c t.val t.isLt).2.1 (ix2 l k) = aX m c (ix2 k l))
  ∧ (∀ (k : Fin 4096) (j : Fin 128), (outsAt0 (F := Ideal) m c t.val t.isLt).2.2.1 (ix2 k j) = Hspec (aX m c) (aWin m c) (rOf t) k j)
  ∧ (∀ (j : Fin 72) (k : Fin 4096), (outsAt0 (F := Ideal) m c t.val t.isLt).2.2.2.1 (ix2 j k) = Uspec (aX m c) (aWout m c) (rOf t) j k)
  ∧ (∀ (j : Fin 72) (q : Fin 4096), (outsAt0 (F := Ideal) m c t.val t.isLt).2.2.2.2 (ix2 j q) = accY (aX m c) (aA m c) (aWout m c) (rOf t) (ibOf t) j q)
  ∧ (∀ (a : Fin 4096) (j : Fin 64), (outsAt0 (F := Ideal) m c t.val t.isLt).1 (ix2 a j) = outAcc (aX m c) (aA m c) (aWl m c) (aWin m c) (aWout m c) (rOf t) (ibOf t) a j)

end Cert.KernelIdeal.Body

end
-- ==== Proof.LibRows.lean ====
/-
  Rows of a two-axis array read at an index, at the ideal values (floats as extended reals): general
  lemmas, none of them about a particular program.

  * Keepdims columns. A vector [a] viewed as a column [a, 1] reads, at (p, 0), entry p; a column [a, 1]
    spread along the rows of [a, b] reads, at (p, c), the column's entry (p, 0) — as a kernel's
    `vector.shape_cast` / `vector.broadcast` and as the host's `broadcast_in_dim`; likewise a vector [b]
    as one row [1, b], one row spread down [a, b], and a scalar spread over [a].
  * One-axis reductions over the LAST axis of [a, b]. The index that reduces to row p with coordinate k
    put back is (p, k); so a
    row sum is the sum over the row's b entries — for a kernel's `vector.multi_reduction` and for the host's
    `stablehlo.reduce` alike.
  * A rows-by-columns product. For dimension numbers that contract the left operand's last axis with the
    right operand's first one, a `tpu.matmul` into a zero accumulator and the host's `dot_general` are, at
    (p, c), the sum over k of lhs (p, k) · rhs (k, c).
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.LibRows

open Idealize.ShloMosaic Idealize.ShloMosaic.ValueIdx

/-! ## Keepdims columns and rows -/

section Layout
variable {α : Type}

/-- A vector [a] cast to a column [a, 1] reads, at (p, u), entry p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast along the rows of [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: `broadcast_in_dim` of [a] to [a, 1] along axis 0. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's form of the second: `broadcast_in_dim` of [a, 1] to [a, b] along both axes. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A vector [b] as one row [1, b] (`broadcast_in_dim` along axis 1) reads, at (u, c), entry c. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- One row [1, b] spread down [a, b] (`broadcast_in_dim` along both axes) reads, at (p, c), the row at (0, c). -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A scalar spread over [a] reads the scalar everywhere. -/
theorem broadcastInDim_scalar_a_apply {a : ℕ} (x : (⟨0, ![]⟩ : Shape).Idx → α)
    (h : (⟨0, ![]⟩ : Shape).BroadcastsInDim ⟨1, ![a]⟩ ![]) (p : Fin a) :
    broadcastInDim ⟨1, ![a]⟩ ![] h x (ix1 p) = x ix0 :=
  broadcastInDim_apply _ h x (ix1 p) ix0 fun ax => ax.elim0

end Layout

/-! ## Reductions over the last axis of [a, b] -/

/-- Row p with coordinate k put back on the reduced (last) axis is the index (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A kernel's row sum: the sum over the row's entries. -/
theorem multiReduction_add_row {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

/-- The host's row sum from zero (`stablehlo.reduce` with an `add` body): the sum over the row's entries. -/
theorem hostReduceAdd_row {a b : ℕ} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x (constant (F := Ideal) (⟨0, ![]⟩ : Shape) .f32 0x00000000#32) h' hu (ix1 p)
      = ∑ k : Fin b, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (lift_row h p k)

/-! ## A rows-by-columns product -/

/-- For dimension numbers whose one contraction index runs over K, reading the left operand at (row, k) and the
    right one at (k, column) — stated as the four coordinate facts `hl0 … hr1`, which a program's own record of
    dimension numbers gives —, the sum over the contraction index at (p, c) is the sum over k of
    lhs (p, k) · rhs (k, c). -/
theorem dot_rows_sum {a K b : ℕ} (d : DotDims ⟨2, ![a, K]⟩ ⟨2, ![K, b]⟩ ⟨2, ![a, b]⟩)
    (hr : d.contr.rank = 1) (hs : d.contr.size ⟨0, by omega⟩ = K)
    (hl0 : ∀ (i : (⟨2, ![a, b]⟩ : Shape).Idx) (q : d.contr.Idx), (d.lhsIdx i q 0).val = (i 0).val)
    (hl1 : ∀ (i : (⟨2, ![a, b]⟩ : Shape).Idx) (q : d.contr.Idx), (d.lhsIdx i q 1).val = (q ⟨0, by omega⟩).val)
    (hr0 : ∀ (i : (⟨2, ![a, b]⟩ : Shape).Idx) (q : d.contr.Idx), (d.rhsIdx i q 0).val = (q ⟨0, by omega⟩).val)
    (hr1 : ∀ (i : (⟨2, ![a, b]⟩ : Shape).Idx) (q : d.contr.Idx), (d.rhsIdx i q 1).val = (i 1).val)
    (l : (⟨2, ![a, K]⟩ : Shape).Idx → EReal) (r : (⟨2, ![K, b]⟩ : Shape).Idx → EReal) (p : Fin a) (c : Fin b) :
    ∑ q : d.contr.Idx, l (d.lhsIdx (ix2 p c) q) * r (d.rhsIdx (ix2 p c) q) = ∑ k : Fin K, l (ix2 p k) * r (ix2 k c) := by
  rw [← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun ax => Fin.ext (by
    match ax with
    | ⟨0, _⟩ => exact hl0 _ _
    | ⟨1, _⟩ => exact (hl1 _ _).trans hk)
  have er : d.rhsIdx (ix2 p c) ((contrEquiv1 d K hr hs).symm k) = ix2 k c := funext fun ax => Fin.ext (by
    match ax with
    | ⟨0, _⟩ => exact (hr0 _ _).trans hk
    | ⟨1, _⟩ => exact hr1 _ _)
  rw [el, er]

/-- So a `tpu.matmul` into the zero accumulator is that sum … -/
theorem matmul_zero_rows {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ (i : (⟨2, ![a, b]⟩ : Shape).Idx) (q : d.contr.Idx), (d.lhsIdx i q 0).val = (i 0).val)
    (hl1 : ∀ (i : (⟨2, ![a, b]⟩ : Shape).Idx) (q : d.contr.Idx), (d.lhsIdx i q 1).val = (q ⟨0, by omega⟩).val)
    (hr0 : ∀ (i : (⟨2, ![a, b]⟩ : Shape).Idx) (q : d.contr.Idx), (d.rhsIdx i q 0).val = (q ⟨0, by omega⟩).val)
    (hr1 : ∀ (i : (⟨2, ![a, b]⟩ : Shape).Idx) (q : d.contr.Idx), (d.rhsIdx i q 1).val = (i 1).val)
    (prec : Option ContractPrecision) (lhs : FVec Ideal ⟨2, ![a, K]⟩ φ₁) (rhs : FVec Ideal ⟨2, ![K, b]⟩ φ₂) (p : Fin a) (c : Fin b) :
    FloatOps.matmul d prec lhs rhs (constant (⟨2, ![a, b]⟩ : Shape) .f32 0x00000000#32) (ix2 p c)
      = ∑ k : Fin K, lhs (ix2 p k) * rhs (ix2 k c) :=
  (Ideal.matmul_constant_zero_apply d prec lhs rhs (ix2 p c)).trans (dot_rows_sum d hr hs hl0 hl1 hr0 hr1 lhs rhs p c)

/-- … and so is the host's `dot_general`. -/
theorem dotGeneral_rows {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ (i : (⟨2, ![a, b]⟩ : Shape).Idx) (q : d.contr.Idx), (d.lhsIdx i q 0).val = (i 0).val)
    (hl1 : ∀ (i : (⟨2, ![a, b]⟩ : Shape).Idx) (q : d.contr.Idx), (d.lhsIdx i q 1).val = (q ⟨0, by omega⟩).val)
    (hr0 : ∀ (i : (⟨2, ![a, b]⟩ : Shape).Idx) (q : d.contr.Idx), (d.rhsIdx i q 0).val = (q ⟨0, by omega⟩).val)
    (hr1 : ∀ (i : (⟨2, ![a, b]⟩ : Shape).Idx) (q : d.contr.Idx), (d.rhsIdx i q 1).val = (i 1).val)
    (prec : Option ContractPrecision) (sched : HostSchedule) (lhs : FVec Ideal ⟨2, ![a, K]⟩ φ₁) (rhs : FVec Ideal ⟨2, ![K, b]⟩ φ₂)
    (p : Fin a) (c : Fin b) :
    FloatOps.dotGeneral d prec sched lhs rhs (ix2 p c) = ∑ k : Fin K, lhs (ix2 p k) * rhs (ix2 k c) :=
  (Ideal.dotGeneral_apply d prec sched lhs rhs (ix2 p c)).trans (dot_rows_sum d hr hs hl0 hl1 hr0 hr1 lhs rhs p c)

end Cert.LibRows

end
-- ==== Proof.Payloads.lean ====
/-
  The values the kernel body stores, read at an index at the ideal values (floats as extended reals).

  Each stored value is a pure term of the values loaded before it. Read at an index, every pointwise operation
  acts on the operands' entries at that index, every layout operation (a cast to the same shape, a unit axis
  dropped, a transpose, a slice, a broadcast of a row or a column) reads its operand at one index, a rounding to a
  narrower format is the identity on extended reals, and a matrix product into a zero accumulator is the finite sum
  over the contraction index of the left operand's entry times the right operand's entry.
-/
import proofs.«112522_g50646254354673_cont_8to1_c_444_16_alg».proof.Proof.Gen.KernelIdeal.Skeleton
import proofs.«112522_g50646254354673_cont_8to1_c_444_16_alg».proof.Proof.Spec
import proofs.«112522_g50646254354673_cont_8to1_c_444_16_alg».proof.Proof.LibRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Rgcn

variable [Cert.KernelIdeal.Facts]

/-- The stored accumulator is the accumulator: a cast to the same shape changes nothing. -/
theorem pay1_apply (v : FVec Ideal S72x4096 .f32) (y : S72x4096.Idx) : k0_pay1 (F := Ideal) v y = v y := by
  unfold Gen.k0_pay1
  exact congrFun (shapeCast_self v _) y

/-- The accumulator's initial value is zero everywhere. -/
theorem pay9_apply (y : S72x4096.Idx) : k0_pay9 (F := Ideal) y = zero := by
  unfold Gen.k0_pay9
  refine (congrFun (shapeCast_self _ _) y).trans ?_
  rfl

/-- The transposed features read, at (l, k), the features at (k, l). -/
theorem pay4_apply (x : Vec Ideal S4096x64 .f32) (l : Fin 64) (k : Fin 4096) :
    k0_pay4 (F := Ideal) x (ix2 l k) = x (ix2 k l) := by
  unfold Gen.k0_pay4
  refine (congrFun (shapeCast_self _ _) (ix2 l k)).trans ?_
  exact transpose_ix2_apply x _ l k

/-! ## The four matrix products' dimension numbers

Three of them contract the left operand's last axis with the right operand's first one; the fourth contracts the
first axis of both. For each, the operand indices at an output index and a contraction index, one coordinate at a
time. -/

theorem dotA_l0 (i : S4096x64.Idx) (q : dot_S4096x64_S64x64_S4096x64_1_0_0_1_n_n.contr.Idx) : (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide),
    dif_pos (show (0 : Fin S4096x64.rank) ∈ dot_S4096x64_S64x64_S4096x64_1_0_0_1_n_n.lhsNonContracting by decide)]
  rfl
theorem dotA_l1 (i : S4096x64.Idx) (q : dot_S4096x64_S64x64_S4096x64_1_0_0_1_n_n.contr.Idx) : (dot_S4096x64_S64x64_S4096x64_1_0_0_1_n_n.lhsIdx i q 1).val = (q ⟨0, by decide⟩).val :=
  dot_S4096x64_S64x64_S4096x64_1_0_0_1_n_n.lhsIdx_val_of_single rfl i q
theorem dotA_r0 (i : S4096x64.Idx) (q : dot_S4096x64_S64x64_S4096x64_1_0_0_1_n_n.contr.Idx) : (dot_S4096x64_S64x64_S4096x64_1_0_0_1_n_n.rhsIdx i q 0).val = (q ⟨0, by decide⟩).val :=
  dot_S4096x64_S64x64_S4096x64_1_0_0_1_n_n.rhsIdx_val_of_single rfl i q
theorem dotA_r1 (i : S4096x64.Idx) (q : dot_S4096x64_S64x64_S4096x64_1_0_0_1_n_n.contr.Idx) : (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide),
    dif_pos (show (1 : Fin S64x64.rank) ∈ dot_S4096x64_S64x64_S4096x64_1_0_0_1_n_n.rhsNonContracting by decide)]
  rfl

theorem dotC_l0 (i : S1024x128.Idx) (q : dot_S1024x4096_S4096x128_S1024x128_1_0_0_1_n_n.contr.Idx) : (dot_S1024x4096_S4096x128_S1024x128_1_0_0_1_n_n.lhsIdx i q 0).val = (i 0).val := by
  unfold DotDims.lhsIdx
  rw [dif_neg (show ¬(0 : Fin S1024x4096.rank) ∈ dot_S1024x4096_S4096x128_S1024x128_1_0_0_1_n_n.lhsBatch by decide),
    dif_pos (show (0 : Fin S1024x4096.rank) ∈ dot_S1024x4096_S4096x128_S1024x128_1_0_0_1_n_n.lhsNonContracting by decide)]
  rfl
theorem dotC_l1 (i : S1024x128.Idx) (q : dot_S1024x4096_S4096x128_S1024x128_1_0_0_1_n_n.contr.Idx) : (dot_S1024x4096_S4096x128_S1024x128_1_0_0_1_n_n.lhsIdx i q 1).val = (q ⟨0, by decide⟩).val :=
  dot_S1024x4096_S4096x128_S1024x128_1_0_0_1_n_n.lhsIdx_val_of_single rfl i q
theorem dotC_r0 (i : S1024x128.Idx) (q : dot_S1024x4096_S4096x128_S1024x128_1_0_0_1_n_n.contr.Idx) : (dot_S1024x4096_S4096x128_S1024x128_1_0_0_1_n_n.rhsIdx i q 0).val = (q ⟨0, by decide⟩).val :=
  dot_S1024x4096_S4096x128_S1024x128_1_0_0_1_n_n.rhsIdx_val_of_single rfl i q
theorem dotC_r1 (i : S1024x128.Idx) (q : dot_S1024x4096_S4096x128_S1024x128_1_0_0_1_n_n.contr.Idx) : (dot_S1024x4096_S4096x128_S1024x128_1_0_0_1_n_n.rhsIdx i q 1).val = (i 1).val := by
  unfold DotDims.rhsIdx
  rw [dif_neg (show ¬(1 : Fin S4096x128.rank) ∈ dot_S1024x4096_S4096x128_S1024x128_1_0_0_1_n_n.rhsBatch by decide),
    dif_pos (show (1 : Fin S4096x128.rank) ∈ dot_S1024x4096_S4096x128_S1024x128_1_0_0_1_n_n.rhsNonContracting by decide)]
  rfl

theorem dotD_l0 (i : S72x4096.Idx) (q : dot_S72x1024_S1024x4096_S72x4096_1_0_0_1_n_n.contr.Idx) : (dot_S72x1024_S1024x4096_S72x4096_1_0_0_1_n_n.lhsIdx i q 0).val = (i 0).val := by
  unfold DotDims.lhsIdx
  rw [dif_neg (show ¬(0 : Fin S72x1024.rank) ∈ dot_S72x1024_S1024x4096_S72x4096_1_0_0_1_n_n.lhsBatch by decide),
    dif_pos (show (0 : Fin S72x1024.rank) ∈ dot_S72x1024_S1024x4096_S72x4096_1_0_0_1_n_n.lhsNonContracting by decide)]
  rfl
theorem dotD_l1 (i : S72x4096.Idx) (q : dot_S72x1024_S1024x4096_S72x4096_1_0_0_1_n_n.contr.Idx) : (dot_S72x1024_S1024x4096_S72x4096_1_0_0_1_n_n.lhsIdx i q 1).val = (q ⟨0, by decide⟩).val :=
  dot_S72x1024_S1024x4096_S72x4096_1_0_0_1_n_n.lhsIdx_val_of_single rfl i q
theorem dotD_r0 (i : S72x4096.Idx) (q : dot_S72x1024_S1024x4096_S72x4096_1_0_0_1_n_n.contr.Idx) : (dot_S72x1024_S1024x4096_S72x4096_1_0_0_1_n_n.rhsIdx i q 0).val = (q ⟨0, by decide⟩).val :=
  dot_S72x1024_S1024x4096_S72x4096_1_0_0_1_n_n.rhsIdx_val_of_single rfl i q
theorem dotD_r1 (i : S72x4096.Idx) (q : dot_S72x1024_S1024x4096_S72x4096_1_0_0_1_n_n.contr.Idx) : (dot_S72x1024_S1024x4096_S72x4096_1_0_0_1_n_n.rhsIdx i q 1).val = (i 1).val := by
  unfold DotDims.rhsIdx
  rw [dif_neg (show ¬(1 : Fin S1024x4096.rank) ∈ dot_S72x1024_S1024x4096_S72x4096_1_0_0_1_n_n.rhsBatch by decide),
    dif_pos (show (1 : Fin S1024x4096.rank) ∈ dot_S72x1024_S1024x4096_S72x4096_1_0_0_1_n_n.rhsNonContracting by decide)]
  rfl

/-- The fourth product contracts axis 0 of both operands: the left operand is read at (contraction, row). -/
theorem dotB_l0 (i : S64x4096.Idx) (q : dot_S64x64_S64x4096_S64x4096_0_0_1_1_n_n.contr.Idx) : (dot_S64x64_S64x4096_S64x4096_0_0_1_1_n_n.lhsIdx i q 0).val = (q ⟨0, by decide⟩).val :=
  dot_S64x64_S64x4096_S64x4096_0_0_1_1_n_n.lhsIdx_val_of_single rfl i q
theorem dotB_l1 (i : S64x4096.Idx) (q : dot_S64x64_S64x4096_S64x4096_0_0_1_1_n_n.contr.Idx) : (dot_S64x64_S64x4096_S64x4096_0_0_1_1_n_n.lhsIdx i q 1).val = (i 0).val := by
  unfold DotDims.lhsIdx
  rw [dif_neg (show ¬(1 : Fin S64x64.rank) ∈ dot_S64x64_S64x4096_S64x4096_0_0_1_1_n_n.lhsBatch by decide),
    dif_pos (show (1 : Fin S64x64.rank) ∈ dot_S64x64_S64x4096_S64x4096_0_0_1_1_n_n.lhsNonContracting by decide)]
  rfl
theorem dotB_r0 (i : S64x4096.Idx) (q : dot_S64x64_S64x4096_S64x4096_0_0_1_1_n_n.contr.Idx) : (dot_S64x64_S64x4096_S64x4096_0_0_1_1_n_n.rhsIdx i q 0).val = (q ⟨0, by decide⟩).val :=
  dot_S64x64_S64x4096_S64x4096_0_0_1_1_n_n.rhsIdx_val_of_single rfl i q
theorem dotB_r1 (i : S64x4096.Idx) (q : dot_S64x64_S64x4096_S64x4096_0_0_1_1_n_n.contr.Idx) : (dot_S64x64_S64x4096_S64x4096_0_0_1_1_n_n.rhsIdx i q 1).val = (i 1).val := by
  unfold DotDims.rhsIdx
  rw [dif_neg (show ¬(1 : Fin S64x4096.rank) ∈ dot_S64x64_S64x4096_S64x4096_0_0_1_1_n_n.rhsBatch by decide),
    dif_pos (show (1 : Fin S64x4096.rank) ∈ dot_S64x64_S64x4096_S64x4096_0_0_1_1_n_n.rhsNonContracting by decide)]
  rfl

/-! ## The products -/

/-- The self-loop term: features times the self-loop weight. -/
theorem pay3_apply (x : Vec Ideal S4096x64 .f32) (w : Vec Ideal S64x64 .f32) (a : Fin 4096) (j : Fin 64) :
    k0_pay3 (F := Ideal) x w (ix2 a j) = ∑ l : Fin 64, x (ix2 a l) * w (ix2 l j) := by
  unfold Gen.k0_pay3
  exact Cert.LibRows.matmul_zero_rows dot_S4096x64_S64x64_S4096x64_1_0_0_1_n_n rfl rfl dotA_l0 dotA_l1 dotA_r0 dotA_r1 none x w a j

/-- The row-direction messages' features: features times the relation's weight (a unit leading axis dropped),
    rounded to a narrower format, which on extended reals is the identity. -/
theorem pay7_apply (x : Vec Ideal S4096x64 .f32) (w : Vec Ideal S1x64x64 .f32) (k : Fin 4096) (j : Fin 64) :
    k0_pay7 (F := Ideal) x w (ix2 k j) = ∑ l : Fin 64, x (ix2 k l) * w (ix3 0 l j) := by
  unfold Gen.k0_pay7
  refine (congrFun (shapeCast_self _ _) (ix2 k j)).trans ?_
  refine (Cert.LibRows.matmul_zero_rows dot_S4096x64_S64x64_S4096x64_1_0_0_1_n_n rfl rfl dotA_l0 dotA_l1 dotA_r0 dotA_r1 none x _ k j).trans ?_
  exact Finset.sum_congr rfl fun l _ => congrArg (x (ix2 k l) * ·) (shapeCast_1ab_ab_apply w _ l j)

/-- The column-direction messages' features in transposed layout: the relation's weight, transposed by contracting its
    first axis, times the transposed features. -/
theorem pay8_apply (w : Vec Ideal S1x64x64 .f32) (xT : Vec Ideal S64x4096 .f32) (j : Fin 64) (k : Fin 4096) :
    k0_pay8 (F := Ideal) w xT (ix2 j k) = ∑ l : Fin 64, w (ix3 0 l j) * xT (ix2 l k) := by
  unfold Gen.k0_pay8
  refine (congrFun (shapeCast_self _ _) (ix2 j k)).trans ?_
  refine (Ideal.matmul_constant_zero_apply (φ₁ := .f32) (φ₂ := .f32) dot_S64x64_S64x4096_S64x4096_0_0_1_1_n_n none (shapeCast S64x64 w Gen.shapeCasts_S1x64x64_S64x64) xT (ix2 j k)).trans ?_
  rw [← Equiv.sum_comp (contrEquiv1 dot_S64x64_S64x4096_S64x4096_0_0_1_1_n_n 64 rfl rfl).symm]
  refine Finset.sum_congr rfl fun l _ => ?_
  have hk := contrEquiv1_symm_val dot_S64x64_S64x4096_S64x4096_0_0_1_1_n_n 64 rfl rfl l
  have el : dot_S64x64_S64x4096_S64x4096_0_0_1_1_n_n.lhsIdx (ix2 j k) ((contrEquiv1 dot_S64x64_S64x4096_S64x4096_0_0_1_1_n_n 64 rfl rfl).symm l) = ix2 l j := funext fun ax => Fin.ext (by
    match ax with
    | ⟨0, _⟩ => exact (dotB_l0 _ _).trans hk
    | ⟨1, _⟩ => exact dotB_l1 _ _)
  have er : dot_S64x64_S64x4096_S64x4096_0_0_1_1_n_n.rhsIdx (ix2 j k) ((contrEquiv1 dot_S64x64_S64x4096_S64x4096_0_0_1_1_n_n 64 rfl rfl).symm l) = ix2 l k := funext fun ax => Fin.ext (by
    match ax with
    | ⟨0, _⟩ => exact (dotB_r0 _ _).trans hk
    | ⟨1, _⟩ => exact dotB_r1 _ _)
  rw [el, er]
  exact congrArg (· * xT (ix2 l k)) (shapeCast_1ab_ab_apply w _ l j)

/-- The adjacency block with its unit leading axis dropped and rounded to a narrower format: the block itself. -/
theorem pay10_apply (a1 : Vec Ideal S1x1024x4096 .f32) (p : Fin 1024) (k : Fin 4096) :
    k0_pay10 (F := Ideal) a1 (ix2 p k) = a1 (ix3 0 p k) := by
  unfold Gen.k0_pay10
  exact shapeCast_1ab_ab_apply a1 _ p k

/-- The column-direction accumulator gains the transposed features of the block's rows times the block. -/
theorem pay12_apply (a1 : Vec Ideal S1x1024x4096 .f32) (y : Vec Ideal S72x4096 .f32) (u : Vec Ideal S72x1024 .bf16) (j : Fin 72) (c : Fin 4096) :
    k0_pay12 (F := Ideal) a1 y u (ix2 j c) = y (ix2 j c) + ∑ k : Fin 1024, u (ix2 j k) * a1 (ix3 0 k c) := by
  unfold Gen.k0_pay12
  refine congrArg (y (ix2 j c) + ·) ?_
  refine (Cert.LibRows.matmul_zero_rows dot_S72x1024_S1024x4096_S72x4096_1_0_0_1_n_n rfl rfl dotD_l0 dotD_l1 dotD_r0 dotD_r1 none u (k0_pay10 a1) j c).trans ?_
  exact Finset.sum_congr rfl fun k _ => congrArg (u (ix2 j k) * ·) (pay10_apply a1 k c)

/-! ## The normalised messages -/

/-- The block's rows times the stacked features and ones: at (p, c), the sum over the block's columns. -/
theorem blockProduct_apply (a1 : Vec Ideal S1x1024x4096 .f32) (h : Vec Ideal S4096x128 .bf16) (p : Fin 1024) (c : Fin 128) :
    matmul (F := Ideal) (φ₁ := .bf16) (φ₂ := .bf16) dot_S1024x4096_S4096x128_S1024x128_1_0_0_1_n_n none (k0_pay10 a1) h (constant S1024x128 .f32 0x00000000#32) (ix2 p c)
      = ∑ k : Fin 4096, a1 (ix3 0 p k) * h (ix2 k c) := by
  refine (Cert.LibRows.matmul_zero_rows dot_S1024x4096_S4096x128_S1024x128_1_0_0_1_n_n rfl rfl dotC_l0 dotC_l1 dotC_r0 dotC_r1 none (k0_pay10 a1) h p c).trans ?_
  exact Finset.sum_congr rfl fun k _ => congrArg (· * h (ix2 k c)) (pay10_apply a1 p k)

/-- The row-direction update of a block of rows: the summed messages (columns 0 to 63 of the product) times the
    reciprocal of the clamped degree (column 64 of the product, spread along the row), added to what was there. -/
theorem pay11_apply (a1 : Vec Ideal S1x1024x4096 .f32) (h : Vec Ideal S4096x128 .bf16) (o : Vec Ideal S1024x64 .f32) (p : Fin 1024) (j : Fin 64) :
    k0_pay11 (F := Ideal) a1 h o (ix2 p j) = o (ix2 p j) + (∑ k : Fin 4096, a1 (ix3 0 p k) * h (ix2 k ⟨j.val, by omega⟩)) * Ideal.div one (max (∑ k : Fin 4096, a1 (ix3 0 p k) * h (ix2 k ⟨64, by omega⟩)) eps) := by
  unfold Gen.k0_pay11
  refine (addf_apply _ _ (ix2 p j)).trans ?_
  refine congrArg₂ (· + ·) (congrFun (shapeCast_self o _) (ix2 p j)) ?_
  refine (mulf_apply _ _ (ix2 p j)).trans ?_
  refine congrArg₂ (· * ·) ?_ ?_
  · refine (extractStridedSlice_apply _ _ _ (ix2 p j) (ix2 p ⟨j.val, by omega⟩) fun ax => ?_).trans (blockProduct_apply a1 h p _)
    match ax with
    | ⟨0, _⟩ => exact (Nat.zero_add _).symm
    | ⟨1, _⟩ => exact (Nat.zero_add _).symm
  · refine (Cert.LibRows.broadcastTo_a1_ab_apply _ _ p j).trans ?_
    refine (divf_apply _ _ (ix2 p (0 : Fin 1))).trans ?_
    refine congrArg₂ Ideal.div rfl ?_
    refine (maximumf_apply _ _ (ix2 p (0 : Fin 1))).trans ?_
    refine congrArg₂ max ?_ rfl
    refine (extractStridedSlice_apply _ _ _ (ix2 p (0 : Fin 1)) (ix2 p ⟨64, by omega⟩) fun ax => ?_).trans (blockProduct_apply a1 h p _)
    match ax with
    | ⟨0, _⟩ => exact (Nat.zero_add _).symm
    | ⟨1, _⟩ => rfl

/-- The last step: the column-direction sums, transposed back, times the reciprocal of the clamped column degree
    (one row, spread down the columns), added to what was there. -/
theorem pay2_apply (d : Vec Ideal S1x4096 .f32) (o : Vec Ideal S4096x64 .f32) (y : Vec Ideal S64x4096 .f32) (a : Fin 4096) (j : Fin 64) :
    k0_pay2 (F := Ideal) d o y (ix2 a j) = o (ix2 a j) + y (ix2 j a) * Ideal.div one (max (d (ix2 0 a)) eps) := by
  unfold Gen.k0_pay2
  refine (addf_apply _ _ (ix2 a j)).trans ?_
  refine congrArg₂ (· + ·) (congrFun (shapeCast_self o _) (ix2 a j)) ?_
  refine (transpose_ix2_apply _ _ a j).trans ?_
  refine (mulf_apply _ _ (ix2 j a)).trans ?_
  refine congrArg (y (ix2 j a) * ·) ?_
  refine (broadcastTo_1b_ab_apply _ _ j a).trans ?_
  rfl

/-! ## The columns and rows of ones -/

/-- A 32-bit word of a natural below 2^32 is the zero word exactly when the natural is zero. -/
theorem ofNat32_eq_zero_iff (n : Nat) (hn : n < 4294967296) : BitVec.ofNat 32 n = 0#32 ↔ n = 0 := by
  constructor
  · intro e
    have h := congrArg BitVec.toNat e
    rw [BitVec.toNat_ofNat, BitVec.toNat_ofNat] at h
    omega
  · intro e; rw [e]

/-- A choice by the word of an equality test is the choice by the equality. -/
theorem select_cmpi_eq {α : Type} (x y : BitVec 32) (a b : α) :
    Scalar.select (Scalar.cmpi .eq x y) a b = if x = y then a else b := by
  show (if BitVec.ofBool (x == y) = 1#1 then a else b) = _
  by_cases h : x = y
  · rw [if_pos h, if_pos (by rw [beq_iff_eq.2 h]; decide)]
  · rw [if_neg h, if_neg (by rw [beq_eq_false_iff_ne.2 h]; decide)]

/-- The column of ones beside the features: one in column 0 of the block, zero in the others. -/
theorem pay5_apply (k : Fin 4096) (j : Fin 64) : k0_pay5 (F := Ideal) (ix2 k j) = if j.val = 0 then one else zero := by
  unfold Gen.k0_pay5
  refine (congrFun (shapeCast_self _ _) (ix2 k j)).trans ?_
  have hi : iota .tc S4096x64 32 [1] Gen.iota_S4096x64_d1_w32 (ix2 k j) = BitVec.ofNat 32 j.val :=
    iota_single_apply .tc S4096x64 32 1 _ (ix2 k j)
  show Scalar.select (Scalar.cmpi .eq (iota .tc S4096x64 32 [1] Gen.iota_S4096x64_d1_w32 (ix2 k j)) 0#32) one zero = _
  rw [hi, select_cmpi_eq]
  have hj := ofNat32_eq_zero_iff j.val (by omega)
  by_cases h0 : j.val = 0
  · rw [if_pos h0, if_pos (hj.2 h0)]
  · rw [if_neg h0, if_neg (fun e => h0 (hj.1 e))]

/-- The row of ones under the transposed features: one in row 0 of the block, zero in the others. -/
theorem pay6_apply (j : Fin 8) (k : Fin 4096) : k0_pay6 (F := Ideal) (ix2 j k) = if j.val = 0 then one else zero := by
  unfold Gen.k0_pay6
  refine (congrFun (shapeCast_self _ _) (ix2 j k)).trans ?_
  have hi : iota .tc S8x4096 32 [0] Gen.iota_S8x4096_d0_w32 (ix2 j k) = BitVec.ofNat 32 j.val :=
    iota_single_apply .tc S8x4096 32 0 _ (ix2 j k)
  show Scalar.select (Scalar.cmpi .eq (iota .tc S8x4096 32 [0] Gen.iota_S8x4096_d0_w32 (ix2 j k)) 0#32) one zero = _
  rw [hi, select_cmpi_eq]
  have hj := ofNat32_eq_zero_iff j.val (by omega)
  by_cases h0 : j.val = 0
  · rw [if_pos h0, if_pos (hj.2 h0)]
  · rw [if_neg h0, if_neg (fun e => h0 (hj.1 e))]

end Cert.KernelIdeal.Pay

end
-- ==== Proof.LibWritesChain.lean ====
/-
  A buffer filled store by store, read as ONE function of the index. A run of unmasked stores through rectangles of a
  buffer leaves, at each element, the payload of the newest store covering it. So if the stores' rectangles cover the
  buffer and every store holds, at its own place, the value of one function G, the buffer holds exactly G whatever it
  held before. This file has that statement for a whole buffer, two ways of deciding that the rectangles cover (the
  library's tiling test, and for a rank-one buffer a word-by-word test cheap enough for hundreds of one-word stores),
  the placement of rank-one unit-stride rectangles and lanes as plain index arithmetic, and three small tactics for
  proving a statement about every store of a long list: for a list written out, for a list given as a chain of
  definitions (each link a few stores consed onto the previous one), and for unfolding such a family of definitions
  by the common beginning of their names.
-/
import Idealize.ShloMosaic.Lib.Writes
import Idealize.ShloMosaic.Lib.ValueIdx
import Idealize.ShloMosaic.PureOps

noncomputable section

namespace Cert.LibWritesChain

open Idealize.ShloMosaic Idealize.ShloMosaic.ValueIdx

/-! ## Unfolding a family of definitions by the prefix of their names -/

open Lean Elab Tactic Meta in
/-- `delta_sl p` replaces, in the goal (`delta_sl p at h`: in a hypothesis), every constant whose name begins with the
    prefix p — as written, or under any enclosing namespace — by its definition, and again inside what the
    definitions unfold to, until no such constant is left. The new statement is the old one up to unfolding. -/
elab "delta_sl " pfx:ident loc:(Parser.Tactic.location)? : tactic => do
  let p := pfx.getId
  let ns ← getCurrNamespace
  let rec prefixes (n : Name) : List Name := match n with
    | .anonymous => [.anonymous]
    | .str q _ => n :: prefixes q
    | .num q _ => n :: prefixes q
  let cands := (prefixes ns).map (· ++ p)
  let hit (n : Name) : Bool := cands.any fun c => c.isPrefixOf n || c.toString.isPrefixOf n.toString
  let unfoldAll (e : Expr) : MetaM Expr := do Meta.deltaExpand (← instantiateMVars e) hit
  withLocation (expandOptLocation (mkOptionalNode loc))
    (fun h => do
      let g ← getMainGoal
      let t' ← unfoldAll (← h.getType)
      replaceMainGoal [← g.replaceLocalDeclDefEq h t'])
    (do
      let g ← getMainGoal
      let t' ← unfoldAll (← g.getType)
      replaceMainGoal [← g.replaceTargetDefEq t'])
    (fun _ => throwError "delta_sl: nothing to unfold here")

/-! ## A whole buffer, rectangles of a rank-one shape, and lanes of a vector -/

section Uniform

variable {sig : RefSig} {κ : Kind} {sp : Space} {Val : EltTy → Type} {e : EltTy} {n : ℕ}

/-- A copy of a whole array moves the values as they are. -/
theorem readAs_same_apply {s : Shape} (g : s.Idx → Val e) : (ReadAs.same : ReadAs Val s e s e).apply g = g := rfl

/-- A unit-stride rectangle of a rank-one shape places its position x at offset + x. -/
theorem unit1_idx (o : ℕ) (sz : Fin 1 → ℕ) (h : ∀ a, (![o] : Fin 1 → ℕ) a + sz a ≤ (⟨1, ![n]⟩ : Shape).size a)
    (x : (Rect.unit (s := ⟨1, ![n]⟩) ![o] sz h).shape.Idx) :
    (Rect.unit (s := ⟨1, ![n]⟩) ![o] sz h).toLoadRect.idx x
      = ix1 (⟨o + (x 0).val, by have := h 0; have := (x 0).isLt; exact Nat.lt_of_lt_of_le (Nat.add_lt_add_left (x 0).isLt o) (h 0)⟩ : Fin n) := by
  funext a
  match a with
  | ⟨0, _⟩ => exact Fin.ext (by show o + 1 * (x 0).val = o + (x 0).val; rw [Nat.one_mul])

theorem unit1_emb (o : ℕ) (sz : Fin 1 → ℕ) (h : ∀ a, (![o] : Fin 1 → ℕ) a + sz a ≤ (⟨1, ![n]⟩ : Shape).size a)
    (x : (Rect.unit (s := ⟨1, ![n]⟩) ![o] sz h).shape.Idx) :
    (Rect.unit (s := ⟨1, ![n]⟩) ![o] sz h).emb x
      = ix1 (⟨o + (x 0).val, Nat.lt_of_lt_of_le (Nat.add_lt_add_left (x 0).isLt o) (h 0)⟩ : Fin n) :=
  unit1_idx o sz h x

/-- A rectangle of one word sits at its offset. -/
theorem unit1_emb_one (j : ℕ) (h : ∀ a, (![j] : Fin 1 → ℕ) a + (![1] : Fin 1 → ℕ) a ≤ (⟨1, ![n]⟩ : Shape).size a)
    (x : (Rect.unit (s := ⟨1, ![n]⟩) ![j] ![1] h).shape.Idx) :
    (Rect.unit (s := ⟨1, ![n]⟩) ![j] ![1] h).emb x = ix1 (⟨j, Nat.lt_of_lt_of_le (Nat.lt_succ_self j) (h 0)⟩ : Fin n) := by
  have hx : (x 0).val = 0 := Nat.lt_one_iff.mp (x 0).isLt
  rw [unit1_emb]
  exact congrArg ix1 (Fin.ext (by show j + (x 0).val = j; rw [hx, Nat.add_zero]))

/-- A load through a unit-stride rectangle of a rank-one view reads the view at offset + position. -/
theorem readAt_unit1 (v : View sig κ sp (⟨1, ![n]⟩ : Shape) e) (o : ℕ) (sz : Fin 1 → ℕ)
    (h : ∀ a, (![o] : Fin 1 → ℕ) a + sz a ≤ (⟨1, ![n]⟩ : Shape).size a) (f : v.ty.Contents Val) :
    v.readAt Val (Rect.unit (s := ⟨1, ![n]⟩) ![o] sz h).toLoadRect f
      = fun x => v.read Val f (ix1 (⟨o + (x 0).val, Nat.lt_of_lt_of_le (Nat.add_lt_add_left (x 0).isLt o) (h 0)⟩ : Fin n)) :=
  funext fun x => congrArg (v.read Val f) (unit1_idx o sz h x)

/-- The lane of a vector at a literal position. -/
theorem extractAt_one {α : Type} (l : ℕ) (v : (⟨1, ![n]⟩ : Shape).Idx → α) (h : ∀ a, (![l] : Fin 1 → ℕ) a < (⟨1, ![n]⟩ : Shape).size a) :
    extractAt ![l] v h = v (ix1 (⟨l, h 0⟩ : Fin n)) :=
  congrArg v (funext fun a => match a with | ⟨0, _⟩ => rfl)

/-- The one lane of the one-lane slice of a vector at l is the vector's lane l. -/
theorem extractAt_slice_one {α : Type} (l : ℕ) (v : (⟨1, ![n]⟩ : Shape).Idx → α)
    (hs : (⟨1, ![n]⟩ : Shape).Slices ![l] (⟨1, ![1]⟩ : Shape)) (h : ∀ a, (![0] : Fin 1 → ℕ) a < (⟨1, ![1]⟩ : Shape).size a) :
    extractAt ![0] (extractStridedSlice (⟨1, ![1]⟩ : Shape) ![l] v hs) h
      = v (ix1 (⟨l, by have := hs.2 0; exact Nat.lt_of_lt_of_le (Nat.lt_succ_self l) this⟩ : Fin n)) :=
  congrArg v (funext fun a => match a with | ⟨0, _⟩ => Fin.ext (Nat.add_zero l))

end Uniform

/-! ## The collapse -/

section Collapse

variable {sig : RefSig} {κ : Kind} {Val : EltTy → Type}

/-- Stores through a whole buffer that cover it, each holding G at its own place, leave G, whatever was there before. -/
theorem writes_whole_eq (b : Ref sig κ) (f : b.ty.Contents Val) (L : List (View.Piece Val b.ty.shape b.ty.elt))
    (G : b.ty.shape.Idx → Val b.ty.elt)
    (hp : ∀ p ∈ L, ∀ x : p.1.shape.Idx, p.2 x = G (p.1.emb x))
    (hc : ∀ y : b.ty.shape.Idx, ∃ p ∈ L, y ∈ p.1.set) :
    (View.whole b).writes Val f L = G :=
  funext fun y => View.read_writes_apply_of_pieces (View.whole b) f G L hp y (hc y)

end Collapse

/-! ## A statement about every store of a literal list, store by store -/

open Lean Elab Tactic in
/-- `pieces_all tac` proves `∀ p ∈ [p₁, …, pₙ], Φ p` for a list written out: it splits off the head n times, runs tac on
    each `Φ pᵢ` (tac must close it) and ends at the empty list. -/
elab "pieces_all " t:tacticSeq : tactic => do
  repeat
    let closed ← try
        evalTactic (← `(tactic| exact List.forall_mem_nil _))
        pure true
      catch _ => pure false
    if closed then break
    evalTactic (← `(tactic| refine List.forall_mem_cons.2 ⟨?_, ?_⟩))
    match ← getGoals with
    | hd :: tl :: rest =>
      setGoals [hd]
      evalTactic t
      unless (← getGoals).isEmpty do throwError "pieces_all: the tactic left a goal open on a store"
      setGoals (tl :: rest)
    | _ => throwError "pieces_all: not a statement about every member of a written-out list"

/-- The covering condition for a written-out list of stores, by evaluation of the library's decision on the offsets. -/
theorem cover_by_eval {s : Shape} {e : EltTy} {Val : EltTy → Type} (L : List (View.Piece Val s e)) (size : Fin s.rank → ℕ)
    (h : View.Piece.tiled L size = true) : ∀ y : s.Idx, ∃ p ∈ L, y ∈ p.1.set :=
  View.cover_of_tiled L size h

open Lean Elab Tactic Meta in
/-- `eval_true` closes a goal `b = true`, b a Boolean that evaluates to true, by reflexivity, leaving the whole evaluation
    to the kernel's check of the finished proof (no evaluation while the proof is being written). -/
elab "eval_true" : tactic => do
  let g ← getMainGoal
  g.assign (mkApp2 (mkConst ``Eq.refl [levelOne]) (mkConst ``Bool) (mkConst ``Bool.true))

/-! ## Covering a rank-one buffer, decided word by word -/

section Cover1

variable {n : ℕ} {e : EltTy} {Val : EltTy → Type}

/-- Is word i under some store of the list (unit stride on the one axis)? -/
def hitB : List (View.Piece Val (⟨1, ![n]⟩ : Shape) e) → ℕ → Bool
  | [], _ => false
  | p :: L, i => (Nat.ble (p.1.off 0) i && Nat.blt i (p.1.off 0 + p.1.size 0) && Nat.beq (p.1.stride 0) 1) || hitB L i

/-- Are the words 0, …, k-1 each under some store? -/
def allHitB (L : List (View.Piece Val (⟨1, ![n]⟩ : Shape) e)) : ℕ → Bool
  | 0 => true
  | k + 1 => hitB L k && allHitB L k

theorem hitB_spec : ∀ (L : List (View.Piece Val (⟨1, ![n]⟩ : Shape) e)) (i : ℕ), hitB L i = true →
    ∃ p ∈ L, p.1.off 0 ≤ i ∧ i < p.1.off 0 + p.1.size 0 ∧ p.1.stride 0 = 1
  | [], _, h => by simp [hitB] at h
  | p :: L, i, h => by
    simp only [hitB, Bool.or_eq_true, Bool.and_eq_true, Nat.ble_eq, Nat.blt_eq] at h
    rcases h with ⟨⟨h1, h2⟩, h3⟩ | h
    · exact ⟨p, List.mem_cons_self, h1, h2, Nat.eq_of_beq_eq_true h3⟩
    · obtain ⟨q, hq, hh⟩ := hitB_spec L i h
      exact ⟨q, List.mem_cons_of_mem _ hq, hh⟩

theorem allHitB_spec (L : List (View.Piece Val (⟨1, ![n]⟩ : Shape) e)) :
    ∀ k, allHitB L k = true → ∀ i, i < k → hitB L i = true
  | 0, _, i, hi => absurd hi (Nat.not_lt_zero i)
  | k + 1, h, i, hi => by
    simp only [allHitB, Bool.and_eq_true] at h
    rcases Nat.lt_succ_iff_lt_or_eq.mp hi with hlt | rfl
    · exact allHitB_spec L k h.2 i hlt
    · exact h.1

/-- Stores of a rank-one buffer cover it when every word is under one of them: decided by evaluation. -/
theorem cover1_by_eval (L : List (View.Piece Val (⟨1, ![n]⟩ : Shape) e)) (h : allHitB L n = true) :
    ∀ y : (⟨1, ![n]⟩ : Shape).Idx, ∃ p ∈ L, y ∈ p.1.set := by
  intro y
  obtain ⟨p, hp, h1, h2, h3⟩ := hitB_spec L (y 0).val (allHitB_spec L n h _ (y 0).isLt)
  refine ⟨p, hp, p.1.mem_set.mpr (Fin.forall_fin_one.mpr ⟨(y 0).val - p.1.off 0, by omega, ?_⟩)⟩
  rw [h3, Nat.one_mul]
  omega

end Cover1

open Lean Elab Tactic Meta in
/-- `pieces_chain pfx tac` proves `∀ p ∈ L, Φ p` for a list L given as a chain of definitions whose names begin with pfx
    (each link a few stores consed onto the previous link) or written out. It walks the list, unfolding one link at a
    time, makes one goal `Φ pᵢ` per store — small: the store's payload and the rest of the list stay folded — closed by
    tac, and puts the n "head and tail" steps together directly (the kernel checks the result). -/
elab "pieces_chain " pfx:ident t:tacticSeq : tactic => withMainContext do
  let p := pfx.getId
  let ns ← getCurrNamespace
  let rec prefixes (n : Name) : List Name := match n with
    | .anonymous => [.anonymous]
    | .str q _ => n :: prefixes q
    | .num q _ => n :: prefixes q
  let cands := (prefixes ns).map (· ++ p)
  let hit (n : Name) : Bool := cands.any fun c => c.isPrefixOf n || c.toString.isPrefixOf n.toString
  let g ← getMainGoal
  let gT ← instantiateMVars (← g.getType)
  let (Φ, L) ← forallBoundedTelescope gT (some 2) fun xs body => do
    unless xs.size == 2 do throwError "pieces_chain: not a statement about every member of a list"
    let hT ← instantiateMVars (← inferType xs[1]!)
    let args := hT.getAppArgs
    unless hT.isAppOf ``Membership.mem && args.size == 5 do throwError "pieces_chain: not a statement about every member of a list"
    let L := if args[4]! == xs[0]! then args[3]! else args[4]!
    if body.containsFVar xs[1]!.fvarId! then throwError "pieces_chain: the statement depends on the membership proof"
    return (← mkLambdaFVars #[xs[0]!] body, L)
  -- the members in order, each with the rest of the list as it is spelt after it
  let mut elems : Array (Expr × Expr) := #[]
  let mut cur := L
  let mut α := mkSort levelZero
  repeat
    if cur.isAppOfArity ``List.cons 3 then
      elems := elems.push (cur.appFn!.appArg!, cur.appArg!)
      cur := cur.appArg!
    else if cur.isAppOfArity ``List.nil 1 then
      α := cur.appArg!
      break
    else
      let unfolded? ← match cur.getAppFn with
        | .const n _ => if hit n then unfoldDefinition? cur else pure none
        | _ => pure none
      match unfolded? with
      | some e => cur := e.headBeta
      | none =>
        let e ← whnfR cur
        if e == cur then throwError "pieces_chain: the list is neither written out nor a link of the chain: {cur}"
        cur := e
  -- one goal per member
  let mut proofs : Array Expr := #[]
  for (a, _) in elems do
    let hd ← mkFreshExprSyntheticOpaqueMVar (Φ.beta #[a])
    setGoals [hd.mvarId!]
    evalTactic t
    unless (← getGoals).isEmpty do throwError "pieces_chain: the tactic left a goal open on a store"
    proofs := proofs.push (← instantiateMVars hd)
  -- put together from the end
  let mut acc ← mkAppOptM ``List.forall_mem_nil #[α, Φ]
  for i in [0:elems.size] do
    let j := elems.size - 1 - i
    let (a, tl) := elems[j]!
    let iff ← mkAppOptM ``List.forall_mem_cons #[α, Φ, a, tl]
    let conj ← mkAppM ``And.intro #[proofs[j]!, acc]
    acc ← mkAppM ``Iff.mpr #[iff, conj]
  g.assign acc
  setGoals []

end Cert.LibWritesChain

end
-- ==== Proof.KI.PiecesA.lean ====
/-
  The kernel body at the first grid point, read one element at a time: what each of the five buffers the body stores
  into holds afterwards, as the arithmetic of the inputs.
-/
import proofs.«112522_g50646254354673_cont_8to1_c_444_16_alg».proof.Proof.KI.RunA
import proofs.«112522_g50646254354673_cont_8to1_c_444_16_alg».proof.Proof.Payloads
import proofs.«112522_g50646254354673_cont_8to1_c_444_16_alg».proof.Proof.Spec
import proofs.«112522_g50646254354673_cont_8to1_c_444_16_alg».proof.Proof.LibWritesChain
import Idealize.ShloMosaic.Lib.WritesUnit
import Idealize.ShloMosaic.Lib.Pipeline.Value
import Idealize.ShloMosaic.Lib.Pipeline.FrameBody
import Idealize.ShloMosaic.Lib.ValueIdx

set_option maxRecDepth 16384

noncomputable section

namespace Cert.KernelIdeal.Body

open Cert.KernelIdeal Cert.KernelIdeal.Gen Cert.LibWritesChain Cert.Rgcn Cert.KernelIdeal.Pay
open Idealize.ShloMosaic Idealize.ShloMosaic.TcCoe Idealize.ShloMosaic.ValueIdx
open Idealize.SL Idealize.SL.Sem

/-! ## Loads of whole buffers and offsets spelt as zeros -/

theorem zeros2 : (![0, 0] : Fin 2 → ℕ) = fun _ => 0 := by
  funext a; match a with | ⟨0, _⟩ => rfl | ⟨1, _⟩ => rfl
theorem zeros3 : (![0, 0, 0] : Fin 3 → ℕ) = fun _ => 0 := by
  funext a; match a with | ⟨0, _⟩ => rfl | ⟨1, _⟩ => rfl | ⟨2, _⟩ => rfl

/-- A load through the whole rectangle of a whole buffer whose contents read X reads X. -/
theorem readAt_whole_unread_first {S : Shape} {e : EltTy} {m : Memref sig .tc .vmem S e} (h : m.IsWhole)
    {off : Fin S.rank → ℕ} (hz : off = fun _ => 0) (inb : ∀ a, off a + S.size a ≤ S.size a) (X : S.Idx → Elt Ideal e) :
    View.readAt (Elt Ideal) m.view (Rect.unit off S.size inb).toLoadRect (h.unread X) = X := by
  rw [View.readAt_eq_ld, h.read_unread, View.ld_unit_zero hz]

/-- Where a position of a unit-stride rectangle sits: at the offsets plus the position. -/
theorem unit_idx_eq {s : Shape} {off off' size : Fin s.rank → ℕ} (inb : ∀ a, off a + size a ≤ s.size a)
    (x : (Rect.unit off size inb).shape.Idx) (y : s.Idx) (heq : off = off') (hx : ∀ a, (y a).val = off' a + (x a).val) :
    (Rect.unit off size inb).toLoadRect.idx x = y := by
  subst heq
  exact funext fun a => Fin.ext (by
    show off a + 1 * (x a).val = (y a).val
    rw [hx a, Nat.one_mul])

/-- A load through a unit-stride rectangle reads, at a position, the contents at the offsets plus the position. -/
theorem readAt_unit_apply {sig' : RefSig} {κ : Kind} {sp : Space} {s : Shape} {e : EltTy} {Val : EltTy → Type}
    (v : View sig' κ sp s e) (g : v.ty.Contents Val) {off off' size : Fin s.rank → ℕ} (inb : ∀ a, off a + size a ≤ s.size a)
    (x : (Rect.unit off size inb).shape.Idx) (y : s.Idx) (heq : off = off') (hx : ∀ a, (y a).val = off' a + (x a).val) :
    v.readAt Val (Rect.unit off size inb).toLoadRect g x = v.read Val g y :=
  (View.readAt_apply (v := v) _ g x).trans (congrArg (v.read Val g) (unit_idx_eq inb x y heq hx))

/-- At the first row block of a relation the row-block coordinate is zero. -/
theorem i1_of_cond0_1 : ∀ i : grid0.Coords, cond0_1 i → (i 1).val = 0 := by decide +kernel

theorem k0_off1_zero (i : grid0.Coords) (h : cond0_1 i) : k0_off1 i = ![0, 0] := by
  rw [k0_off1_eq, i1_of_cond0_1 i h]
theorem k0_off2_zero (i : grid0.Coords) (h : cond0_1 i) : k0_off2 i = ![0, 0] := by
  rw [k0_off2_eq, i1_of_cond0_1 i h]

/-! ## The two augmented feature arrays -/

/-- The augmented source-side features: row k holds the features times the relation's first weight slice in columns
    0 to 63, a one in column 64 and zeros beyond. -/
def augH (x0 : Vec Ideal S4096x64 .f32) (x3 : Vec Ideal S1x64x64 .f32) (k : Fin 4096) (j : Fin 128) : EReal :=
  if h : j.val < 64 then ∑ l : Fin 64, x0 (ix2 k l) * x3 (ix3 0 l ⟨j.val, h⟩) else if j.val = 64 then one else zero

/-- The augmented target-side features in transposed layout: rows 0 to 63 hold the transposed weight slice times the
    transposed features, row 64 is ones and the rows below are zeros. -/
def augU (x0 : Vec Ideal S4096x64 .f32) (x4 : Vec Ideal S1x64x64 .f32) (j : Fin 72) (k : Fin 4096) : EReal :=
  if h : j.val < 64 then ∑ l : Fin 64, x4 (ix3 0 l ⟨j.val, h⟩) * x0 (ix2 k l) else if j.val = 64 then one else zero

/-- Row k of the first block of 1024 rows is row k. -/
theorem blockRow_zero (k : Fin 1024) : blockRow 0 k = ⟨k.val, Nat.lt_of_lt_of_le k.isLt (by decide)⟩ :=
  Fin.ext (by show 1024 * 0 + k.val = k.val; omega)

section RunA

variable (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : cond0_0 i) (hc1 : cond0_1 i) (hc2 : ¬cond0_2 i)
  (x0 : Vec Ideal S4096x64 .f32) (x1 : Vec Ideal S1x1024x4096 .f32) (x2 : Vec Ideal S64x64 .f32) (x3 : Vec Ideal S1x64x64 .f32) (x4 : Vec Ideal S1x64x64 .f32)

local notation "RA" => kernelRun0_A (F := Ideal) c i arg2 harg2 arg3 harg3 arg4 harg4 arg5 harg5 arg6 harg6 arg7 harg7 arg8 harg8 arg9 harg9 arg10 harg10 arg11 harg11 hc0 hc1 hc2 x0 x1 x2 x3 x4

/-- The transposed-features buffer holds the features transposed. -/
theorem runA_scratch0 {sig' : RefSig} {κ : Kind} {sp : Space} (v : View sig' κ sp S64x4096 .f32) (f : v.ty.Contents (Elt Ideal)) (l : Fin 64) (k : Fin 4096) :
    v.read (Elt Ideal) (v.writes (Elt Ideal) f (RA).2.1) (ix2 l k) = x0 (ix2 k l) := by
  unfold kernelRun0_A; dsimp only; delta_sl kernelRun0_A.sl
  refine (View.read_writes_cons_unit_of_mem v f _ _ _ (ix2 l k) (ix2 l k) rfl
    (Fin.forall_fin_two.mpr ⟨(Nat.zero_add _).symm, (Nat.zero_add _).symm⟩)).trans ?_
  rw [readAt_whole_unread_first harg2 zeros2]
  exact pay4_apply x0 l k

/-- The source-side buffer holds the augmented source-side features. -/
theorem runA_scratch1 {sig' : RefSig} {κ : Kind} {sp : Space} (v : View sig' κ sp S4096x128 .bf16) (f : v.ty.Contents (Elt Ideal)) (k : Fin 4096) (j : Fin 128) :
    v.read (Elt Ideal) (v.writes (Elt Ideal) f (RA).2.2.1) (ix2 k j) = augH x0 x3 k j := by
  unfold kernelRun0_A; dsimp only; delta_sl kernelRun0_A.sl
  unfold augH
  by_cases h : j.val < 64
  · rw [dif_pos h]
    refine (View.read_writes_cons_unit_of_mem v f _ _ _ (ix2 k j) (ix2 k (⟨j.val, h⟩ : Fin 64)) rfl
      (Fin.forall_fin_two.mpr ⟨(Nat.zero_add _).symm, (Nat.zero_add _).symm⟩)).trans ?_
    rw [readAt_whole_unread_first harg2 zeros2, readAt_whole_unread_first harg5 zeros3]
    exact pay7_apply x0 x3 k ⟨j.val, h⟩
  · rw [dif_neg h]
    refine (View.read_writes_cons_unit_of_not_mem v f _ _ _ (ix2 k j) rfl (1 : Fin 2) (Or.inr (Nat.le_of_not_lt h))).trans ?_
    have hj : j.val = 64 + (j.val - 64) := by omega
    refine (View.read_writes_cons_unit_of_mem v f _ _ _ (ix2 k j) (ix2 k (⟨j.val - 64, by omega⟩ : Fin 64)) rfl
      (Fin.forall_fin_two.mpr ⟨(Nat.zero_add _).symm, hj⟩)).trans ?_
    refine (pay5_apply k ⟨j.val - 64, by omega⟩).trans ?_
    by_cases h64 : j.val = 64
    · rw [if_pos h64, if_pos (show j.val - 64 = 0 by omega)]
    · rw [if_neg h64, if_neg (show ¬ j.val - 64 = 0 by omega)]

/-- The target-side buffer holds the augmented target-side features in transposed layout. -/
theorem runA_scratch2 {sig' : RefSig} {κ : Kind} {sp : Space} (v : View sig' κ sp S72x4096 .bf16) (f : v.ty.Contents (Elt Ideal)) (j : Fin 72) (k : Fin 4096) :
    v.read (Elt Ideal) (v.writes (Elt Ideal) f (RA).2.2.2.1) (ix2 j k) = augU x0 x4 j k := by
  unfold kernelRun0_A; dsimp only; delta_sl kernelRun0_A.sl
  unfold augU
  by_cases h : j.val < 64
  · rw [dif_pos h]
    refine (View.read_writes_cons_unit_of_mem v f _ _ _ (ix2 j k) (ix2 (⟨j.val, h⟩ : Fin 64) k) rfl
      (Fin.forall_fin_two.mpr ⟨(Nat.zero_add _).symm, (Nat.zero_add _).symm⟩)).trans ?_
    rw [View.readCov_unit_zero _ zeros2, readAt_whole_unread_first harg2 zeros2, readAt_whole_unread_first harg6 zeros3]
    refine (pay8_apply x4 (k0_pay4 x0) ⟨j.val, h⟩ k).trans ?_
    exact Finset.sum_congr rfl fun l _ => congrArg (x4 (ix3 0 l ⟨j.val, h⟩) * ·) (pay4_apply x0 l k)
  · rw [dif_neg h]
    refine (View.read_writes_cons_unit_of_not_mem v f _ _ _ (ix2 j k) rfl (0 : Fin 2) (Or.inr (Nat.le_of_not_lt h))).trans ?_
    have hj : j.val = 64 + (j.val - 64) := by omega
    refine (View.read_writes_cons_unit_of_mem v f _ _ _ (ix2 j k) (ix2 (⟨j.val - 64, by omega⟩ : Fin 8) k) rfl
      (Fin.forall_fin_two.mpr ⟨hj, (Nat.zero_add _).symm⟩)).trans ?_
    refine (pay6_apply ⟨j.val - 64, by omega⟩ k).trans ?_
    by_cases h64 : j.val = 64
    · rw [if_pos h64, if_pos (show j.val - 64 = 0 by omega)]
    · rw [if_neg h64, if_neg (show ¬ j.val - 64 = 0 by omega)]

/-- The accumulator holds zero plus the first block's contribution: the augmented target-side features of the block's
    rows times the block. -/
theorem runA_scratch3 {sig' : RefSig} {κ : Kind} {sp : Space} (v : View sig' κ sp S72x4096 .f32) (f : v.ty.Contents (Elt Ideal)) (j : Fin 72) (cc : Fin 4096) :
    v.read (Elt Ideal) (v.writes (Elt Ideal) f (RA).2.2.2.2.1) (ix2 j cc)
      = zero + ∑ k : Fin 1024, augU x0 x4 j ⟨k.val, Nat.lt_of_lt_of_le k.isLt (by decide)⟩ * x1 (ix3 0 k cc) := by
  have hU : ∀ k : Fin 1024, _ := fun k => runA_scratch2 c i arg2 harg2 arg3 harg3 arg4 harg4 arg5 harg5 arg6 harg6 arg7 harg7 arg8 harg8 arg9 harg9 arg10 harg10 arg11 harg11 hc0 hc1 hc2 x0 x1 x2 x3 x4 arg10.view arg10.view.junk j ⟨k.val, Nat.lt_of_lt_of_le k.isLt (by decide)⟩
  unfold kernelRun0_A at hU ⊢; dsimp only at hU ⊢; delta_sl kernelRun0_A.sl at hU; delta_sl kernelRun0_A.sl
  refine (View.read_writes_cons_unit_of_mem v f _ _ _ (ix2 j cc) (ix2 j cc) rfl
    (Fin.forall_fin_two.mpr ⟨(Nat.zero_add _).symm, (Nat.zero_add _).symm⟩)).trans ?_
  refine (pay1_apply _ (ix2 j cc)).trans ?_
  refine (pay12_apply _ _ _ j cc).trans ?_
  refine congrArg₂ (· + ·) ?_ (Finset.sum_congr rfl fun k _ => congrArg₂ (· * ·) ?_ ?_)
  · rw [View.readCov_unit_zero _ zeros2]
    exact pay9_apply (ix2 j cc)
  · refine (readAt_unit_apply arg10.view _ _ (ix2 j k) (ix2 j ⟨k.val, Nat.lt_of_lt_of_le k.isLt (by decide)⟩) (k0_off2_zero i hc1)
      (Fin.forall_fin_two.mpr ⟨(Nat.zero_add _).symm, (Nat.zero_add _).symm⟩)).trans ?_
    exact hU k
  · rw [readAt_whole_unread_first harg3 zeros3]

/-- The output's staging buffer holds the self-loop product everywhere, and on the first block of 1024 rows also the
    first relation's row-direction message: the block's rows times the augmented source-side features, columns 0 to 63
    divided by the clamped column 64. -/
theorem runA_out {sig' : RefSig} {κ : Kind} {sp : Space} (v : View sig' κ sp S4096x64 .f32) (f : v.ty.Contents (Elt Ideal)) (a : Fin 4096) (j : Fin 64) :
    v.read (Elt Ideal) (v.writes (Elt Ideal) f (RA).1) (ix2 a j)
      = if h : a.val < 1024 then
          (∑ l : Fin 64, x0 (ix2 a l) * x2 (ix2 l j))
            + (∑ k : Fin 4096, x1 (ix3 0 ⟨a.val, h⟩ k) * augH x0 x3 k ⟨j.val, Nat.lt_of_lt_of_le j.isLt (by decide)⟩)
              * Ideal.div one (max (∑ k : Fin 4096, x1 (ix3 0 ⟨a.val, h⟩ k) * augH x0 x3 k ⟨64, by decide⟩) eps)
        else ∑ l : Fin 64, x0 (ix2 a l) * x2 (ix2 l j) := by
  have hH : ∀ (k : Fin 4096) (j' : Fin 128), _ := fun k j' => runA_scratch1 c i arg2 harg2 arg3 harg3 arg4 harg4 arg5 harg5 arg6 harg6 arg7 harg7 arg8 harg8 arg9 harg9 arg10 harg10 arg11 harg11 hc0 hc1 hc2 x0 x1 x2 x3 x4 arg9.view arg9.view.junk k j'
  unfold kernelRun0_A at hH ⊢; dsimp only at hH ⊢; delta_sl kernelRun0_A.sl at hH; delta_sl kernelRun0_A.sl
  have hloop : ∀ {sig'' : RefSig} {κ' : Kind} {sp' : Space} (w : View sig'' κ' sp' S4096x64 .f32) (g : w.ty.Contents (Elt Ideal)),
      w.read (Elt Ideal) (w.writes (Elt Ideal) g
        [⟨Rect.unit ![0, 0] S4096x64.size inb_S4096x64_S4096x64_0_0,
          k0_pay3 (View.readAt (Elt Ideal) arg2.view (Rect.unit ![0, 0] S4096x64.size inb_S4096x64_S4096x64_0_0).toLoadRect (harg2.unread x0))
            (View.readAt (Elt Ideal) arg4.view (Rect.unit ![0, 0] S64x64.size inb_S64x64_S64x64_0_0).toLoadRect (harg4.unread x2))⟩]) (ix2 a j)
        = ∑ l : Fin 64, x0 (ix2 a l) * x2 (ix2 l j) := fun w g => by
    refine (View.read_writes_cons_unit_of_mem w g _ _ _ (ix2 a j) (ix2 a j) rfl
      (Fin.forall_fin_two.mpr ⟨(Nat.zero_add _).symm, (Nat.zero_add _).symm⟩)).trans ?_
    rw [readAt_whole_unread_first harg2 zeros2, readAt_whole_unread_first harg4 zeros2]
    exact pay3_apply x0 x2 a j
  by_cases h : a.val < 1024
  · rw [dif_pos h]
    refine (View.read_writes_cons_unit_of_mem v f _ _ _ (ix2 a j) (ix2 (⟨a.val, h⟩ : Fin 1024) j) (k0_off1_zero i hc1)
      (Fin.forall_fin_two.mpr ⟨(Nat.zero_add _).symm, (Nat.zero_add _).symm⟩)).trans ?_
    refine (pay11_apply _ _ _ ⟨a.val, h⟩ j).trans ?_
    rw [readAt_whole_unread_first harg3 zeros3]
    refine congrArg₂ (· + ·) ?_ (congrArg₂ (· * ·) (Finset.sum_congr rfl fun k _ => congrArg (x1 (ix3 0 ⟨a.val, h⟩ k) * ·) ?_)
      (congrArg (Ideal.div one) (congrArg (max · eps) (Finset.sum_congr rfl fun k _ => congrArg (x1 (ix3 0 ⟨a.val, h⟩ k) * ·) ?_))))
    · refine (readAt_unit_apply arg7.view _ _ (ix2 (⟨a.val, h⟩ : Fin 1024) j) (ix2 a j) (k0_off1_zero i hc1)
        (Fin.forall_fin_two.mpr ⟨(Nat.zero_add _).symm, (Nat.zero_add _).symm⟩)).trans ?_
      exact hloop arg7.view _
    · refine (readAt_unit_apply arg9.view _ _ (ix2 k (⟨j.val, Nat.lt_of_lt_of_le j.isLt (by decide)⟩ : Fin 128)) (ix2 k (⟨j.val, Nat.lt_of_lt_of_le j.isLt (by decide)⟩ : Fin 128)) rfl
        (Fin.forall_fin_two.mpr ⟨(Nat.zero_add _).symm, (Nat.zero_add _).symm⟩)).trans ?_
      exact hH k _
    · refine (readAt_unit_apply arg9.view _ _ (ix2 k (⟨64, by decide⟩ : Fin 128)) (ix2 k (⟨64, by decide⟩ : Fin 128)) rfl
        (Fin.forall_fin_two.mpr ⟨(Nat.zero_add _).symm, (Nat.zero_add _).symm⟩)).trans ?_
      exact hH k _
  · rw [dif_neg h]
    refine (View.read_writes_cons_unit_of_not_mem v f _ _ _ (ix2 a j) (k0_off1_zero i hc1) (0 : Fin 2) (Or.inr (Nat.le_of_not_lt h))).trans ?_
    exact hloop v f

end RunA

end Cert.KernelIdeal.Body

end
-- ==== Proof.KI.InvA.lean ====
/-
  The first grid point establishes the invariant: every carried buffer is stored before it is used, so the transposed
  features, both augmented feature buffers of relation 0, the accumulator with block 0's contribution and the output
  with the self-loop product and block 0's row-direction message are read off the point's blocks alone.
-/
import proofs.«112522_g50646254354673_cont_8to1_c_444_16_alg».proof.Proof.KI.InvDef
import proofs.«112522_g50646254354673_cont_8to1_c_444_16_alg».proof.Proof.KI.PiecesA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Rgcn

variable (m : (ℓ : Loc nD τ sig) → Buf (Elt Ideal) ℓ)

/-- The augmented source-side features computed from a point's blocks are those of the point's relation. -/
theorem augH_blocks (c : Dev nD) (t : Fin cfg0.N) (k : Fin 4096) (j : Fin 128) :
    augH (iblk m c 0 t) (iblk m c 3 t) k j = Hspec (aX m c) (aWin m c) (rOf t) k j := by
  unfold augH Hspec hIn
  by_cases h : j.val < 64
  · rw [dif_pos h, dif_pos h]
    refine Finset.sum_congr rfl fun l _ => congrArg₂ (· * ·) (blk0_apply m c t k l) ((blk3_apply m c t l ⟨j.val, h⟩).trans ?_)
    show V m c main_arg3 _ = V m c main_arg3 _
    congr 1
  · rw [dif_neg h, dif_neg h]

/-- The augmented target-side features computed from a point's blocks are those of the point's relation. -/
theorem augU_blocks (c : Dev nD) (t : Fin cfg0.N) (j : Fin 72) (k : Fin 4096) :
    augU (iblk m c 0 t) (iblk m c 4 t) j k = Uspec (aX m c) (aWout m c) (rOf t) j k := by
  unfold augU Uspec hOutT
  by_cases h : j.val < 64
  · rw [dif_pos h, dif_pos h]
    refine Finset.sum_congr rfl fun l _ => congrArg₂ (· * ·) ((blk4_apply m c t l ⟨j.val, h⟩).trans ?_) (blk0_apply m c t k l)
    show V m c main_arg4 _ = V m c main_arg4 _
    congr 1
  · rw [dif_neg h, dif_neg h]

set_option maxHeartbeats 1600000 in
theorem inv_A (c : Dev nD) (t : Fin cfg0.N) (h0 : t.val % 16 = 0) : Inv m c t := by
  have hN := tlt t
  have h1 : t.val % 4 = 0 := by omega
  have h2 : ¬t.val % 4 = 3 := by omega
  have hib0 : (ibOf t).val = 0 := h1
  have hr0 : rOf t = 0 := Fin.ext (by show t.val / 4 = 0; omega)
  have hS0 : (outsAt0 (F := Ideal) m c t.val t.isLt).2.1 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) := by rw [outsAt0_A m c t h0 h1 h2]
  have hS1 : (outsAt0 (F := Ideal) m c t.val t.isLt).2.2.1 = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) := by rw [outsAt0_A m c t h0 h1 h2]
  have hS2 : (outsAt0 (F := Ideal) m c t.val t.isLt).2.2.2.1 = sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) := by rw [outsAt0_A m c t h0 h1 h2]
  have hS3 : (outsAt0 (F := Ideal) m c t.val t.isLt).2.2.2.2 = sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) := by rw [outsAt0_A m c t h0 h1 h2]
  have hS5 : (outsAt0 (F := Ideal) m c t.val t.isLt).1 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) := by rw [outsAt0_A m c t h0 h1 h2]
  refine ⟨?_, ?_, ?_, ?_, ?_⟩
  · intro l k
    rw [hS0]
    unfold sout0_A_0
    refine (runA_scratch0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) VS0_0 VS0_0.junk l k).trans ?_
    exact blk0_apply m c t k l
  · intro k j
    rw [hS1]
    unfold sout0_A_1
    refine (runA_scratch1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) VS0_1 VS0_1.junk k j).trans ?_
    exact augH_blocks m c t k j
  · intro j k
    rw [hS2]
    unfold sout0_A_2
    refine (runA_scratch2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) VS0_2 VS0_2.junk j k).trans ?_
    exact augU_blocks m c t j k
  · intro j q
    rw [hS3]
    unfold sout0_A_3
    refine (runA_scratch3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) VS0_3 VS0_3.junk j q).trans ?_
    rw [accY_zero _ _ _ (rOf t) (ibOf t) hib0 j q]
    unfold blkU
    refine congrArg (zero + ·) (Finset.sum_congr rfl fun k _ => ?_)
    have hk : (⟨k.val, Nat.lt_of_lt_of_le k.isLt (by decide)⟩ : Fin 4096) = blockRow (ibOf t) k :=
      Fin.ext (by show k.val = 1024 * (ibOf t).val + k.val; rw [hib0]; omega)
    rw [hk, blk1_apply m c t k q]
    refine congrArg₂ (· * ·) (augU_blocks m c t j _) ?_
    show V m c main_arg1 _ = V m c main_arg1 _
    congr 1
  · intro a j
    rw [hS5]
    unfold out0_A_5
    refine (runA_out c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) VO0_5 VO0_5.junk a j).trans ?_
    have hloop' : ∀ (y0 : Vec Ideal S4096x64 .f32) (y2 : Vec Ideal S64x64 .f32), (∀ l : Fin 64, y0 (ix2 a l) = aX m c (ix2 a l)) →
        (∀ l : Fin 64, y2 (ix2 l j) = aWl m c (ix2 l j)) →
        (∑ l : Fin 64, y0 (ix2 a l) * y2 (ix2 l j)) = baseK (aX m c) (aA m c) (aWl m c) (aWin m c) (aWout m c) (rOf t) a j := fun y0 y2 e0 e2 => by
      rw [hr0]
      show _ = loopT (aX m c) (aWl m c) a j
      unfold loopT
      exact Finset.sum_congr rfl fun l _ => congrArg₂ (· * ·) (e0 l) (e2 l)
    have hloop := hloop' (iblk m c 0 t) (iblk m c 2 t) (fun l => blk0_apply m c t a l) (fun l => blk2_apply m c t l j)
    by_cases h : a.val < 1024
    · rw [dif_pos h, outAcc_first_in _ _ _ _ _ (rOf t) (ibOf t) hib0 a j ⟨by omega, by omega⟩,
        ← srcK_of_Hspec (aX m c) (aA m c) (aWin m c) (rOf t) a j]
      have hrow : ∀ k : Fin 4096, iblk m c 1 t (ix3 0 (⟨a.val, h⟩ : Fin 1024) k) = aA m c (ix3 (rOf t) a k) := fun k => by
        rw [blk1_apply m c t _ k]
        show V m c main_arg1 _ = V m c main_arg1 _
        congr 1
        funext d
        match d with
        | ⟨0, _⟩ => rfl
        | ⟨1, _⟩ => exact Fin.ext (by show 1024 * (t.val % 4) + a.val = a.val; omega)
        | ⟨2, _⟩ => rfl
      refine congrArg₂ (· + ·) hloop (congrArg₂ (· * ·) (Finset.sum_congr rfl fun k _ => congrArg₂ (· * ·) (hrow k) (augH_blocks m c t k _))
        (congrArg (Ideal.div one) (congrArg (max · eps) (Finset.sum_congr rfl fun k _ => congrArg₂ (· * ·) (hrow k) (augH_blocks m c t k _)))))
    · rw [dif_neg h, outAcc_first_out _ _ _ _ _ (rOf t) (ibOf t) hib0 a j (by omega)]
      exact hloop

end Cert.KernelIdeal.Body

end
-- ==== Proof.KI.PiecesBCD.lean ====
/-
  What the kernel body leaves in the output's staging buffer and in its scratch buffers, read at an index, for the
  three kinds of grid point after the first of a relation's row blocks is set up: a middle row block, the last row
  block of a relation, and the first row block of a relation other than the very first grid point.

  Each run of the body is a list of stores, newest first. Read through any view of the buffer over any older
  contents, an element under the newest store covering it holds that store's payload at the element's position in
  the store's rectangle, and any other element holds what was there before. The payloads are pure terms of the values
  loaded before the store; a load through the whole rectangle of a whole buffer reads the buffer's contents, and a
  load of a block reads them at the block's offsets plus the position. The offsets of the two blocks that move with
  the row block `ib` are `(1024 * ib, 0)` and `(0, 1024 * ib)`.
-/
import proofs.«112522_g50646254354673_cont_8to1_c_444_16_alg».proof.Proof.KI.RunB
import proofs.«112522_g50646254354673_cont_8to1_c_444_16_alg».proof.Proof.KI.RunC
import proofs.«112522_g50646254354673_cont_8to1_c_444_16_alg».proof.Proof.KI.RunD
import proofs.«112522_g50646254354673_cont_8to1_c_444_16_alg».proof.Proof.Spec
import proofs.«112522_g50646254354673_cont_8to1_c_444_16_alg».proof.Proof.Payloads
import proofs.«112522_g50646254354673_cont_8to1_c_444_16_alg».proof.Proof.LibWritesChain
import Idealize.ShloMosaic.Lib.WritesUnit
import Idealize.ShloMosaic.Lib.WholeRead
import Idealize.ShloMosaic.Lib.Pipeline.Value
import Idealize.ShloMosaic.Lib.Pipeline.FrameBody
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Cert.Rgcn (one zero eps)

/-! ## The two dynamic offsets in closed form -/

/-- The slab of the output's staging buffer starts at row `1024 * ib`, column 0, `ib` the row block. -/
theorem k0_off1_eq (i : grid0.Coords) : k0_off1 i = ![1024 * (i 1).val, 0] := by
  revert i; decide +kernel

/-- The block of the transposed target-side features starts at row 0, column `1024 * ib`. -/
theorem k0_off2_eq (i : grid0.Coords) : k0_off2 i = ![0, 1024 * (i 1).val] := by
  revert i; decide +kernel

theorem ib_lt (i : grid0.Coords) : (i 1).val < 4 := (i 1).isLt

/-! ## Loads read at an index -/

section Loads

variable {Val : EltTy → Type} {κ : Kind} {sp : Space}

/-- A load through the whole rectangle of a whole buffer held at the contents that read `X` reads `X`. -/
theorem readAt_whole_unread {s : Shape} {e : EltTy} {m : Memref sig κ sp s e} (h : m.IsWhole) (X : s.Idx → Val e)
    {off : Fin s.rank → ℕ} (hz : off = fun _ => 0) (inb : ∀ a, off a + s.size a ≤ s.size a) :
    View.readAt Val m.view (Rect.unit off s.size inb).toLoadRect (h.unread X) = X := by
  rw [View.readAt_eq_ld, h.read_unread, View.ld_unit_zero hz]

/-- A unit-stride rectangle of a rank-2 shape places its position `x` at the offsets plus `x`. -/
theorem unit2_idx {n0 n1 : ℕ} {off : Fin 2 → ℕ} {o0 o1 : ℕ} (hoff : off = ![o0, o1]) (sz : Fin 2 → ℕ)
    (h : ∀ a, off a + sz a ≤ (⟨2, ![n0, n1]⟩ : Shape).size a)
    (x : (Rect.unit (s := ⟨2, ![n0, n1]⟩) off sz h).shape.Idx) (p0 : Fin n0) (p1 : Fin n1)
    (h0 : p0.val = o0 + (x 0).val) (h1 : p1.val = o1 + (x 1).val) :
    (Rect.unit (s := ⟨2, ![n0, n1]⟩) off sz h).toLoadRect.idx x = ix2 p0 p1 := by
  subst hoff
  funext a
  match a with
  | ⟨0, _⟩ => exact Fin.ext (by show o0 + 1 * (x 0).val = p0.val; omega)
  | ⟨1, _⟩ => exact Fin.ext (by show o1 + 1 * (x 1).val = p1.val; omega)

/-- A store through the whole rectangle of a rank-2 buffer, the newest, is read back as its payload. -/
theorem read_writes_cons_whole2 {d0 d1 : ℕ} {e : EltTy} (v : View sig κ sp (⟨2, ![d0, d1]⟩ : Shape) e) (f : v.ty.Contents Val)
    (inb : ∀ a : Fin 2, (![0, 0] : Fin 2 → ℕ) a + (![d0, d1] : Fin 2 → ℕ) a ≤ (![d0, d1] : Fin 2 → ℕ) a)
    (w : (Rect.unit (s := ⟨2, ![d0, d1]⟩) ![0, 0] ![d0, d1] inb).shape.Idx → Val e)
    (L : List (View.Piece Val (⟨2, ![d0, d1]⟩ : Shape) e)) (y : (⟨2, ![d0, d1]⟩ : Shape).Idx) :
    v.read Val (v.writes Val f ((⟨Rect.unit (s := ⟨2, ![d0, d1]⟩) ![0, 0] ![d0, d1] inb, w⟩ : View.Piece Val (⟨2, ![d0, d1]⟩ : Shape) e) :: L)) y
      = w y :=
  View.read_writes_cons_rows_of_mem v f inb w L y y rfl (Nat.zero_add _).symm rfl

theorem z2 : (![0, 0] : Fin 2 → ℕ) = fun _ => 0 := by funext a; match a with | ⟨0, _⟩ => rfl | ⟨1, _⟩ => rfl
theorem z3 : (![0, 0, 0] : Fin 3 → ℕ) = fun _ => 0 := by
  funext a; match a with | ⟨0, _⟩ => rfl | ⟨1, _⟩ => rfl | ⟨2, _⟩ => rfl

/-- A load through the whole rectangle reads the contents through the view. -/
theorem readAt_whole {s : Shape} {e : EltTy} (v : View sig κ sp s e) (g : v.ty.Contents Val)
    {off : Fin s.rank → ℕ} (hz : off = fun _ => 0) (inb : ∀ a, off a + s.size a ≤ s.size a) :
    v.readAt Val (Rect.unit off s.size inb).toLoadRect g = v.read Val g := by
  rw [View.readAt_eq_ld, View.ld_unit_zero hz]

/-- A load, after one store through the whole rectangle, reads the store's payload at the load's indices. -/
theorem readCov_whole [∀ e, Nonempty (Val e)] {s : Shape} {e : EltTy} (v : View sig κ sp s e)
    {off : Fin s.rank → ℕ} (hz : off = fun _ => 0) (inb : ∀ a, off a + s.size a ≤ s.size a) (w : s.Idx → Val e)
    (B : LoadRect s) :
    v.readCov [(⟨Rect.unit off s.size inb, w⟩ : View.Piece Val s e)] B = fun x => w (B.idx x) := by
  rw [View.readCov_eq_canon', View.canon_unit_zero hz]

theorem readCov_whole_apply [∀ e, Nonempty (Val e)] {s : Shape} {e : EltTy} (v : View sig κ sp s e)
    {off : Fin s.rank → ℕ} (hz : off = fun _ => 0) (inb : ∀ a, off a + s.size a ≤ s.size a) (w : s.Idx → Val e)
    (B : LoadRect s) (x : B.shape.Idx) :
    v.readCov [(⟨Rect.unit off s.size inb, w⟩ : View.Piece Val s e)] B x = w (B.idx x) :=
  congrFun (readCov_whole v hz inb w B) x

end Loads

/-! ## The values, as functions of the index -/

section Vals

variable (i : grid0.Coords)

/-- The output's staging buffer after the row block's store: on the block's 1024 rows the old value plus the
    block's product with the augmented source-side features, divided by the clamped row degree (the product's
    column 64); elsewhere the old value. -/
def slabVal (A : Vec Ideal S1x1024x4096 .f32) (H : Vec Ideal S4096x128 .bf16) (O : Vec Ideal S4096x64 .f32)
    (a : Fin 4096) (j : Fin 64) : EReal :=
  if h : 1024 * (i 1).val ≤ a.val ∧ a.val < 1024 * (i 1).val + 1024 then
    O (ix2 a j)
      + (∑ k : Fin 4096, A (ix3 0 ⟨a.val - 1024 * (i 1).val, by omega⟩ k) * H (ix2 k ⟨j.val, by omega⟩))
        * Ideal.div one (max (∑ k : Fin 4096, A (ix3 0 ⟨a.val - 1024 * (i 1).val, by omega⟩ k) * H (ix2 k ⟨64, by omega⟩)) eps)
  else O (ix2 a j)

/-- The transposed column-direction accumulator after the row block's store: the old value plus the block's columns
    of the augmented transposed target-side features times the block. -/
def accVal (A : Vec Ideal S1x1024x4096 .f32) (U : Vec Ideal S72x4096 .bf16) (Y : Vec Ideal S72x4096 .f32)
    (j : Fin 72) (q : Fin 4096) : EReal :=
  Y (ix2 j q) + ∑ k : Fin 1024, U (ix2 j ⟨1024 * (i 1).val + k.val, by have := ib_lt i; omega⟩) * A (ix3 0 k q)

/-- The augmented source-side features after a relation's set-up: columns 0..63 are the features times the
    relation's weight, the others as they were. -/
def hinVal (X : Vec Ideal S4096x64 .f32) (W : Vec Ideal S1x64x64 .f32) (H : Vec Ideal S4096x128 .bf16)
    (k : Fin 4096) (j : Fin 128) : EReal :=
  if h : j.val < 64 then ∑ l : Fin 64, X (ix2 k l) * W (ix3 0 l ⟨j.val, h⟩) else H (ix2 k j)

/-- The augmented transposed target-side features after a relation's set-up: rows 0..63 are the transposed
    weight times the transposed features, the others as they were. -/
def houtVal (W : Vec Ideal S1x64x64 .f32) (XT : Vec Ideal S64x4096 .f32) (U : Vec Ideal S72x4096 .bf16)
    (j : Fin 72) (k : Fin 4096) : EReal :=
  if h : j.val < 64 then ∑ l : Fin 64, W (ix3 0 l ⟨j.val, h⟩) * XT (ix2 l k) else U (ix2 j k)

end Vals

/-! ## The row block's two stores, read at an index -/

section Generic

variable {κ : Kind} {sp : Space}

/-- The store of the block's 1024 rows of the staging buffer, the newest: on those rows the payload at the row minus
    the block's first row, elsewhere the rest of the list. -/
theorem slab_read (v : View sig κ sp S4096x64 .f32) (f : v.ty.Contents (Elt Ideal)) (i : grid0.Coords)
    (A : Vec Ideal S1x1024x4096 .f32) (H : Vec Ideal S4096x128 .bf16) (O : Vec Ideal S1024x64 .f32)
    (L : List (View.Piece (Elt Ideal) S4096x64 .f32)) (a : Fin 4096) (j : Fin 64) :
    v.read (Elt Ideal) (v.writes (Elt Ideal) f
        ((⟨Rect.unit (s := S4096x64) (k0_off1 i) S1024x64.size (k0_off1_inb i), k0_pay11 (F := Ideal) A H O⟩ : View.Piece (Elt Ideal) S4096x64 .f32) :: L)) (ix2 a j)
      = if h : 1024 * (i 1).val ≤ a.val ∧ a.val < 1024 * (i 1).val + 1024 then
          O (ix2 ⟨a.val - 1024 * (i 1).val, by omega⟩ j)
            + (∑ k : Fin 4096, A (ix3 0 ⟨a.val - 1024 * (i 1).val, by omega⟩ k) * H (ix2 k ⟨j.val, by omega⟩))
              * Ideal.div one (max (∑ k : Fin 4096, A (ix3 0 ⟨a.val - 1024 * (i 1).val, by omega⟩ k) * H (ix2 k ⟨64, by omega⟩)) eps)
        else v.read (Elt Ideal) (v.writes (Elt Ideal) f L) (ix2 a j) := by
  by_cases h : 1024 * (i 1).val ≤ a.val ∧ a.val < 1024 * (i 1).val + 1024
  · rw [dif_pos h]
    have hp : a.val - 1024 * (i 1).val < 1024 := by omega
    refine (View.read_writes_cons_rows_of_mem v f (k0_off1_inb i) _ L (ix2 a j) (ix2 ⟨a.val - 1024 * (i 1).val, hp⟩ j)
      (k0_off1_eq i) (by show a.val = 1024 * (i 1).val + (a.val - 1024 * (i 1).val); omega) rfl).trans ?_
    rw [Pay.pay11_apply]
  · rw [dif_neg h]
    exact View.read_writes_cons_rows_of_not_mem v f (k0_off1_inb i) _ L (ix2 a j) (k0_off1_eq i) rfl
      (by show a.val < 1024 * (i 1).val ∨ 1024 * (i 1).val + 1024 ≤ a.val; omega)

/-- A load of the block's rows of a whole staging buffer held at `X` reads `X` at the block's first row plus
    the position. -/
theorem slab_load {m : Memref sig κ sp S4096x64 .f32} (hm : m.IsWhole) (X : Vec Ideal S4096x64 .f32)
    (i : grid0.Coords) (p : Fin 1024) (j : Fin 64) (a : Fin 4096) (ha : a.val = 1024 * (i 1).val + p.val) :
    View.readAt (Elt Ideal) m.view (Rect.unit (s := S4096x64) (k0_off1 i) S1024x64.size (k0_off1_inb i)).toLoadRect
      (hm.unread X) (ix2 p j) = X (ix2 a j) := by
  rw [hm.readAt_unread, unit2_idx (k0_off1_eq i) S1024x64.size (k0_off1_inb i) (ix2 p j) a j ha (Nat.zero_add _).symm]

/-- The staging buffer held at `X`, after the row block's store, reads `slabVal`. -/
theorem stage_after_slab {m3 : Memref sig κ sp S1x1024x4096 .f32} (h3 : m3.IsWhole)
    {m7 : Memref sig κ sp S4096x64 .f32} (h7 : m7.IsWhole) (i : grid0.Coords)
    (A : Vec Ideal S1x1024x4096 .f32) (H : Vec Ideal S4096x128 .bf16) (X : Vec Ideal S4096x64 .f32)
    (a : Fin 4096) (j : Fin 64) :
    m7.view.read (Elt Ideal) (m7.view.writes (Elt Ideal) (h7.unread X)
        [(⟨Rect.unit (s := S4096x64) (k0_off1 i) S1024x64.size (k0_off1_inb i),
          k0_pay11 (F := Ideal)
            (View.readAt (Elt Ideal) m3.view (Rect.unit (s := S1x1024x4096) ![0, 0, 0] S1x1024x4096.size inb_S1x1024x4096_S1x1024x4096_0_0_0).toLoadRect (h3.unread A))
            H
            (View.readAt (Elt Ideal) m7.view (Rect.unit (s := S4096x64) (k0_off1 i) S1024x64.size (k0_off1_inb i)).toLoadRect (h7.unread X))⟩ : View.Piece (Elt Ideal) S4096x64 .f32)])
      (ix2 a j) = slabVal i A H X a j := by
  rw [slab_read]
  unfold slabVal
  by_cases h : 1024 * (i 1).val ≤ a.val ∧ a.val < 1024 * (i 1).val + 1024
  · rw [dif_pos h, dif_pos h, slab_load h7 X i _ j a (by show a.val = 1024 * (i 1).val + (a.val - 1024 * (i 1).val); omega),
      readAt_whole_unread h3 A z3]
  · rw [dif_neg h, dif_neg h]
    exact congrFun (h7.read_unread X) (ix2 a j)

/-- The accumulator's new value at an index: the old value plus the block's product, the transposed target-side
    features read through any view `v10` of their buffer at any contents `g`. -/
theorem acc_apply {m3 : Memref sig κ sp S1x1024x4096 .f32} (h3 : m3.IsWhole) (A : Vec Ideal S1x1024x4096 .f32)
    {κ' : Kind} {sp' : Space} (v10 : View sig κ' sp' S72x4096 .bf16) (g : v10.ty.Contents (Elt Ideal))
    (Y : Vec Ideal S72x4096 .f32) (i : grid0.Coords) (j : Fin 72) (q : Fin 4096) :
    k0_pay1 (F := Ideal) (k0_pay12 (F := Ideal)
        (View.readAt (Elt Ideal) m3.view (Rect.unit (s := S1x1024x4096) ![0, 0, 0] S1x1024x4096.size inb_S1x1024x4096_S1x1024x4096_0_0_0).toLoadRect (h3.unread A))
        Y
        (View.readAt (Elt Ideal) v10 (Rect.unit (s := S72x4096) (k0_off2 i) S72x1024.size (k0_off2_inb i)).toLoadRect g))
      (ix2 j q)
      = Y (ix2 j q) + ∑ k : Fin 1024, v10.read (Elt Ideal) g (ix2 j ⟨1024 * (i 1).val + k.val, by have := ib_lt i; omega⟩) * A (ix3 0 k q) := by
  rw [Pay.pay1_apply, Pay.pay12_apply, readAt_whole_unread h3 A z3]
  refine congrArg (_ + ·) (Finset.sum_congr rfl fun k _ => ?_)
  rw [View.readAt_apply, unit2_idx (k0_off2_eq i) S72x1024.size (k0_off2_inb i) (ix2 j k) j
    ⟨1024 * (i 1).val + k.val, by have := ib_lt i; omega⟩ (Nat.zero_add _).symm rfl]

/-- The store of columns 0..63 of the augmented source-side features, the newest. -/
theorem hin_read (v : View sig κ sp S4096x128 .bf16) (f : v.ty.Contents (Elt Ideal))
    (X : Vec Ideal S4096x64 .f32) (W : Vec Ideal S1x64x64 .f32) (L : List (View.Piece (Elt Ideal) S4096x128 .bf16))
    (k : Fin 4096) (j : Fin 128) :
    v.read (Elt Ideal) (v.writes (Elt Ideal) f
        ((⟨Rect.unit (s := S4096x128) ![0, 0] S4096x64.size inb_S4096x128_S4096x64_0_0, k0_pay7 (F := Ideal) X W⟩ : View.Piece (Elt Ideal) S4096x128 .bf16) :: L)) (ix2 k j)
      = if h : j.val < 64 then ∑ l : Fin 64, X (ix2 k l) * W (ix3 0 l ⟨j.val, h⟩)
        else v.read (Elt Ideal) (v.writes (Elt Ideal) f L) (ix2 k j) := by
  by_cases h : j.val < 64
  · rw [dif_pos h]
    refine (View.read_writes_cons_unit_of_mem v f inb_S4096x128_S4096x64_0_0 _ L (ix2 k j) (ix2 k ⟨j.val, h⟩) rfl
      (fun a => match a with | ⟨0, _⟩ => (Nat.zero_add _).symm | ⟨1, _⟩ => (Nat.zero_add _).symm)).trans ?_
    rw [Pay.pay7_apply]
  · rw [dif_neg h]
    exact View.read_writes_cons_unit_of_not_mem v f inb_S4096x128_S4096x64_0_0 _ L (ix2 k j) rfl (1 : Fin 2)
      (Or.inr (by show 0 + 64 ≤ j.val; omega))

/-- The store of rows 0..63 of the augmented transposed target-side features, the newest. -/
theorem hout_read (v : View sig κ sp S72x4096 .bf16) (f : v.ty.Contents (Elt Ideal))
    (W : Vec Ideal S1x64x64 .f32) (XT : Vec Ideal S64x4096 .f32) (L : List (View.Piece (Elt Ideal) S72x4096 .bf16))
    (j : Fin 72) (k : Fin 4096) :
    v.read (Elt Ideal) (v.writes (Elt Ideal) f
        ((⟨Rect.unit (s := S72x4096) ![0, 0] S64x4096.size inb_S72x4096_S64x4096_0_0, k0_pay8 (F := Ideal) W XT⟩ : View.Piece (Elt Ideal) S72x4096 .bf16) :: L)) (ix2 j k)
      = if h : j.val < 64 then ∑ l : Fin 64, W (ix3 0 l ⟨j.val, h⟩) * XT (ix2 l k)
        else v.read (Elt Ideal) (v.writes (Elt Ideal) f L) (ix2 j k) := by
  by_cases h : j.val < 64
  · rw [dif_pos h]
    refine (View.read_writes_cons_unit_of_mem v f inb_S72x4096_S64x4096_0_0 _ L (ix2 j k) (ix2 ⟨j.val, h⟩ k) rfl
      (fun a => match a with | ⟨0, _⟩ => (Nat.zero_add _).symm | ⟨1, _⟩ => (Nat.zero_add _).symm)).trans ?_
    rw [Pay.pay8_apply]
  · rw [dif_neg h]
    exact View.read_writes_cons_unit_of_not_mem v f inb_S72x4096_S64x4096_0_0 _ L (ix2 j k) rfl (0 : Fin 2)
      (Or.inr (by show 0 + 64 ≤ j.val; omega))

/-- The augmented source-side features held at `H`, after a relation's set-up store, read `hinVal`. -/
theorem hin_after {m2 : Memref sig κ sp S4096x64 .f32} (h2 : m2.IsWhole) {m5 : Memref sig κ sp S1x64x64 .f32} (h5 : m5.IsWhole)
    {m9 : Memref sig κ sp S4096x128 .bf16} (h9 : m9.IsWhole)
    (X : Vec Ideal S4096x64 .f32) (W : Vec Ideal S1x64x64 .f32) (H : Vec Ideal S4096x128 .bf16) :
    m9.view.read (Elt Ideal) (m9.view.writes (Elt Ideal) (h9.unread H)
        [(⟨Rect.unit (s := S4096x128) ![0, 0] S4096x64.size inb_S4096x128_S4096x64_0_0,
          k0_pay7 (F := Ideal)
            (View.readAt (Elt Ideal) m2.view (Rect.unit (s := S4096x64) ![0, 0] S4096x64.size inb_S4096x64_S4096x64_0_0).toLoadRect (h2.unread X))
            (View.readAt (Elt Ideal) m5.view (Rect.unit (s := S1x64x64) ![0, 0, 0] S1x64x64.size inb_S1x64x64_S1x64x64_0_0_0).toLoadRect (h5.unread W))⟩ : View.Piece (Elt Ideal) S4096x128 .bf16)])
      = fun y => hinVal X W H (y 0) (y 1) := by
  funext y
  obtain ⟨k, j, rfl⟩ : ∃ k j, y = ix2 k j := ⟨y 0, y 1, eq_ix2 y⟩
  rw [hin_read, readAt_whole_unread h2 X z2, readAt_whole_unread h5 W z3]
  show _ = hinVal X W H k j
  unfold hinVal
  by_cases h : j.val < 64
  · rw [dif_pos h, dif_pos h]
  · rw [dif_neg h, dif_neg h]; exact congrFun (h9.read_unread H) (ix2 k j)

/-- The augmented transposed target-side features held at `U`, after a relation's set-up store, read `houtVal`. -/
theorem hout_after {m6 : Memref sig κ sp S1x64x64 .f32} (h6 : m6.IsWhole) {m8 : Memref sig κ sp S64x4096 .f32} (h8 : m8.IsWhole)
    {m10 : Memref sig κ sp S72x4096 .bf16} (h10 : m10.IsWhole)
    (W : Vec Ideal S1x64x64 .f32) (XT : Vec Ideal S64x4096 .f32) (U : Vec Ideal S72x4096 .bf16) :
    m10.view.read (Elt Ideal) (m10.view.writes (Elt Ideal) (h10.unread U)
        [(⟨Rect.unit (s := S72x4096) ![0, 0] S64x4096.size inb_S72x4096_S64x4096_0_0,
          k0_pay8 (F := Ideal)
            (View.readAt (Elt Ideal) m6.view (Rect.unit (s := S1x64x64) ![0, 0, 0] S1x64x64.size inb_S1x64x64_S1x64x64_0_0_0).toLoadRect (h6.unread W))
            (View.readAt (Elt Ideal) m8.view (Rect.unit (s := S64x4096) ![0, 0] S64x4096.size inb_S64x4096_S64x4096_0_0).toLoadRect (h8.unread XT))⟩ : View.Piece (Elt Ideal) S72x4096 .bf16)])
      = fun y => houtVal W XT U (y 0) (y 1) := by
  funext y
  obtain ⟨j, k, rfl⟩ : ∃ j k, y = ix2 j k := ⟨y 0, y 1, eq_ix2 y⟩
  rw [hout_read, readAt_whole_unread h6 W z3, readAt_whole_unread h8 XT z2]
  show _ = houtVal W XT U j k
  unfold houtVal
  by_cases h : j.val < 64
  · rw [dif_pos h, dif_pos h]
  · rw [dif_neg h, dif_neg h]; exact congrFun (h10.read_unread U) (ix2 j k)

end Generic

/-! ## The column-direction accumulator after a middle or a last row block -/

/-- Middle row block: the accumulator gains, at (j, q), the block's rows of the augmented transposed target-side
    features times the block of the adjacency slice. -/
theorem piecesB3 {κ : Kind} {sp : Space} (v : View sig κ sp S72x4096 .f32) (f : v.ty.Contents (Elt Ideal))
    (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : ¬cond0_1 i) (hc2 : ¬cond0_2 i)
    (x0 : Vec Ideal S4096x64 .f32) (x1 : Vec Ideal S1x1024x4096 .f32) (x2 : Vec Ideal S64x64 .f32) (x3 : Vec Ideal S1x64x64 .f32) (x4 : Vec Ideal S1x64x64 .f32) (xo5 : Vec Ideal S4096x64 .f32) (xs0 : Vec Ideal S64x4096 .f32) (xs1 : Vec Ideal S4096x128 .bf16) (xs2 : Vec Ideal S72x4096 .bf16) (xs3 : Vec Ideal S72x4096 .f32) (j : Fin 72) (q : Fin 4096) :
    v.read (Elt Ideal) (v.writes (Elt Ideal) f (kernelRun0_B (F := Ideal) c i arg2 harg2 arg3 harg3 arg4 harg4 arg5 harg5 arg6 harg6 arg7 harg7 arg8 harg8 arg9 harg9 arg10 harg10 arg11 harg11 hc0 hc1 hc2 x0 x1 x2 x3 x4 xo5 xs0 xs1 xs2 xs3).2.1) (ix2 j q)
      = xs3 (ix2 j q) + ∑ k : Fin 1024, xs2 (ix2 j ⟨1024 * (i 1).val + k.val, by have := ib_lt i; omega⟩) * x1 (ix3 0 k q) := by
  unfold kernelRun0_B; dsimp only
  delta_sl kernelRun0_B.sl
  rw [read_writes_cons_whole2, Pay.pay1_apply, Pay.pay12_apply, readAt_whole_unread harg11 xs3 z2,
    readAt_whole_unread harg3 x1 z3]
  refine congrArg (_ + ·) (Finset.sum_congr rfl fun k _ => ?_)
  rw [harg10.readAt_unread, unit2_idx (k0_off2_eq i) S72x1024.size (k0_off2_inb i) (ix2 j k) j
    ⟨1024 * (i 1).val + k.val, by have := ib_lt i; omega⟩ (Nat.zero_add _).symm rfl]

/-- Last row block: the same store. -/
theorem piecesC3 {κ : Kind} {sp : Space} (v : View sig κ sp S72x4096 .f32) (f : v.ty.Contents (Elt Ideal))
    (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : ¬cond0_1 i) (hc2 : cond0_2 i)
    (x0 : Vec Ideal S4096x64 .f32) (x1 : Vec Ideal S1x1024x4096 .f32) (x2 : Vec Ideal S64x64 .f32) (x3 : Vec Ideal S1x64x64 .f32) (x4 : Vec Ideal S1x64x64 .f32) (xo5 : Vec Ideal S4096x64 .f32) (xs0 : Vec Ideal S64x4096 .f32) (xs1 : Vec Ideal S4096x128 .bf16) (xs2 : Vec Ideal S72x4096 .bf16) (xs3 : Vec Ideal S72x4096 .f32) (j : Fin 72) (q : Fin 4096) :
    v.read (Elt Ideal) (v.writes (Elt Ideal) f (kernelRun0_C (F := Ideal) c i arg2 harg2 arg3 harg3 arg4 harg4 arg5 harg5 arg6 harg6 arg7 harg7 arg8 harg8 arg9 harg9 arg10 harg10 arg11 harg11 hc0 hc1 hc2 x0 x1 x2 x3 x4 xo5 xs0 xs1 xs2 xs3).2.1) (ix2 j q)
      = xs3 (ix2 j q) + ∑ k : Fin 1024, xs2 (ix2 j ⟨1024 * (i 1).val + k.val, by have := ib_lt i; omega⟩) * x1 (ix3 0 k q) := by
  unfold kernelRun0_C; dsimp only
  delta_sl kernelRun0_C.sl
  rw [read_writes_cons_whole2, Pay.pay1_apply, Pay.pay12_apply, readAt_whole_unread harg11 xs3 z2,
    readAt_whole_unread harg3 x1 z3]
  refine congrArg (_ + ·) (Finset.sum_congr rfl fun k _ => ?_)
  rw [harg10.readAt_unread, unit2_idx (k0_off2_eq i) S72x1024.size (k0_off2_inb i) (ix2 j k) j
    ⟨1024 * (i 1).val + k.val, by have := ib_lt i; omega⟩ (Nat.zero_add _).symm rfl]

/-! ## The output's staging buffer after a middle or a last row block -/

/-- Middle row block: the output's staging buffer. -/
theorem piecesB5 {κ : Kind} {sp : Space} (v : View sig κ sp S4096x64 .f32) (f : v.ty.Contents (Elt Ideal))
    (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : ¬cond0_1 i) (hc2 : ¬cond0_2 i)
    (x0 : Vec Ideal S4096x64 .f32) (x1 : Vec Ideal S1x1024x4096 .f32) (x2 : Vec Ideal S64x64 .f32) (x3 : Vec Ideal S1x64x64 .f32) (x4 : Vec Ideal S1x64x64 .f32) (xo5 : Vec Ideal S4096x64 .f32) (xs0 : Vec Ideal S64x4096 .f32) (xs1 : Vec Ideal S4096x128 .bf16) (xs2 : Vec Ideal S72x4096 .bf16) (xs3 : Vec Ideal S72x4096 .f32) (a : Fin 4096) (j : Fin 64) :
    v.read (Elt Ideal) (v.writes (Elt Ideal) f (kernelRun0_B (F := Ideal) c i arg2 harg2 arg3 harg3 arg4 harg4 arg5 harg5 arg6 harg6 arg7 harg7 arg8 harg8 arg9 harg9 arg10 harg10 arg11 harg11 hc0 hc1 hc2 x0 x1 x2 x3 x4 xo5 xs0 xs1 xs2 xs3).1) (ix2 a j)
      = if h : 1024 * (i 1).val ≤ a.val ∧ a.val < 1024 * (i 1).val + 1024 then
          xo5 (ix2 a j)
            + (∑ k : Fin 4096, x1 (ix3 0 ⟨a.val - 1024 * (i 1).val, by omega⟩ k) * xs1 (ix2 k ⟨j.val, by omega⟩))
              * Ideal.div one (max (∑ k : Fin 4096, x1 (ix3 0 ⟨a.val - 1024 * (i 1).val, by omega⟩ k) * xs1 (ix2 k ⟨64, by omega⟩)) eps)
        else v.read (Elt Ideal) f (ix2 a j) := by
  unfold kernelRun0_B; dsimp only
  refine (slab_read v f i _ _ _ [] a j).trans ?_
  by_cases h : 1024 * (i 1).val ≤ a.val ∧ a.val < 1024 * (i 1).val + 1024
  · rw [dif_pos h, dif_pos h, slab_load harg7 xo5 i _ j a (by show a.val = 1024 * (i 1).val + (a.val - 1024 * (i 1).val); omega),
      readAt_whole_unread harg3 x1 z3, readAt_whole_unread harg9 xs1 z2]
  · rw [dif_neg h, dif_neg h]; rfl

/-- Last row block: on top of the row block's store, the whole staging buffer gains the transposed accumulator
    (as the row block's store left it) divided by the clamped column degree (its row 64). -/
theorem piecesC5 {κ : Kind} {sp : Space} (v : View sig κ sp S4096x64 .f32) (f : v.ty.Contents (Elt Ideal))
    (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : ¬cond0_1 i) (hc2 : cond0_2 i)
    (x0 : Vec Ideal S4096x64 .f32) (x1 : Vec Ideal S1x1024x4096 .f32) (x2 : Vec Ideal S64x64 .f32) (x3 : Vec Ideal S1x64x64 .f32) (x4 : Vec Ideal S1x64x64 .f32) (xo5 : Vec Ideal S4096x64 .f32) (xs0 : Vec Ideal S64x4096 .f32) (xs1 : Vec Ideal S4096x128 .bf16) (xs2 : Vec Ideal S72x4096 .bf16) (xs3 : Vec Ideal S72x4096 .f32) (a : Fin 4096) (j : Fin 64) :
    v.read (Elt Ideal) (v.writes (Elt Ideal) f (kernelRun0_C (F := Ideal) c i arg2 harg2 arg3 harg3 arg4 harg4 arg5 harg5 arg6 harg6 arg7 harg7 arg8 harg8 arg9 harg9 arg10 harg10 arg11 harg11 hc0 hc1 hc2 x0 x1 x2 x3 x4 xo5 xs0 xs1 xs2 xs3).1) (ix2 a j)
      = slabVal i x1 xs1 xo5 a j
          + accVal i x1 xs2 xs3 ⟨j.val, by omega⟩ a * Ideal.div one (max (accVal i x1 xs2 xs3 ⟨64, by omega⟩ a) eps) := by
  unfold kernelRun0_C; dsimp only
  delta_sl kernelRun0_C.sl
  rw [read_writes_cons_whole2, Pay.pay2_apply, readAt_whole arg7.view _ z2, stage_after_slab harg3 harg7,
    readCov_whole_apply arg11.view z2, readCov_whole_apply arg11.view z2,
    unit2_idx rfl S64x4096.size inb_S72x4096_S64x4096_0_0 (ix2 j a) ⟨j.val, by omega⟩ a (Nat.zero_add _).symm (Nat.zero_add _).symm,
    unit2_idx rfl S1x4096.size inb_S72x4096_S1x4096_64_0 (ix2 0 a) ⟨64, by omega⟩ a rfl (Nat.zero_add _).symm,
    acc_apply harg3 x1 arg10.view, acc_apply harg3 x1 arg10.view, readAt_whole_unread harg11 xs3 z2, harg10.read_unread xs2,
    readAt_whole_unread harg9 xs1 z2]
  rfl

/-! ## The first row block of a relation -/

/-- First row block of a relation: the augmented source-side features. -/
theorem piecesD1 {κ : Kind} {sp : Space} (v : View sig κ sp S4096x128 .bf16) (f : v.ty.Contents (Elt Ideal))
    (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : cond0_1 i) (hc2 : ¬cond0_2 i)
    (x0 : Vec Ideal S4096x64 .f32) (x1 : Vec Ideal S1x1024x4096 .f32) (x2 : Vec Ideal S64x64 .f32) (x3 : Vec Ideal S1x64x64 .f32) (x4 : Vec Ideal S1x64x64 .f32) (xo5 : Vec Ideal S4096x64 .f32) (xs0 : Vec Ideal S64x4096 .f32) (xs1 : Vec Ideal S4096x128 .bf16) (xs2 : Vec Ideal S72x4096 .bf16) (k : Fin 4096) (j : Fin 128) :
    v.read (Elt Ideal) (v.writes (Elt Ideal) f (kernelRun0_D (F := Ideal) c i arg2 harg2 arg3 harg3 arg4 harg4 arg5 harg5 arg6 harg6 arg7 harg7 arg8 harg8 arg9 harg9 arg10 harg10 arg11 harg11 hc0 hc1 hc2 x0 x1 x2 x3 x4 xo5 xs0 xs1 xs2).2.1) (ix2 k j)
      = if h : j.val < 64 then ∑ l : Fin 64, x0 (ix2 k l) * x3 (ix3 0 l ⟨j.val, h⟩) else v.read (Elt Ideal) f (ix2 k j) := by
  unfold kernelRun0_D; dsimp only
  delta_sl kernelRun0_D.sl
  rw [hin_read, readAt_whole_unread harg2 x0 z2, readAt_whole_unread harg5 x3 z3]
  rfl

/-- First row block of a relation: the augmented transposed target-side features. -/
theorem piecesD2 {κ : Kind} {sp : Space} (v : View sig κ sp S72x4096 .bf16) (f : v.ty.Contents (Elt Ideal))
    (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : cond0_1 i) (hc2 : ¬cond0_2 i)
    (x0 : Vec Ideal S4096x64 .f32) (x1 : Vec Ideal S1x1024x4096 .f32) (x2 : Vec Ideal S64x64 .f32) (x3 : Vec Ideal S1x64x64 .f32) (x4 : Vec Ideal S1x64x64 .f32) (xo5 : Vec Ideal S4096x64 .f32) (xs0 : Vec Ideal S64x4096 .f32) (xs1 : Vec Ideal S4096x128 .bf16) (xs2 : Vec Ideal S72x4096 .bf16) (j : Fin 72) (k : Fin 4096) :
    v.read (Elt Ideal) (v.writes (Elt Ideal) f (kernelRun0_D (F := Ideal) c i arg2 harg2 arg3 harg3 arg4 harg4 arg5 harg5 arg6 harg6 arg7 harg7 arg8 harg8 arg9 harg9 arg10 harg10 arg11 harg11 hc0 hc1 hc2 x0 x1 x2 x3 x4 xo5 xs0 xs1 xs2).2.2.1) (ix2 j k)
      = if h : j.val < 64 then ∑ l : Fin 64, x4 (ix3 0 l ⟨j.val, h⟩) * xs0 (ix2 l k) else v.read (Elt Ideal) f (ix2 j k) := by
  unfold kernelRun0_D; dsimp only
  delta_sl kernelRun0_D.sl
  rw [hout_read, readAt_whole_unread harg6 x4 z3, readAt_whole_unread harg8 xs0 z2]
  rfl

/-- First row block of a relation: the accumulator is zeroed and gains the block's product, the transposed
    target-side features read after their set-up store. -/
theorem piecesD3 {κ : Kind} {sp : Space} (v : View sig κ sp S72x4096 .f32) (f : v.ty.Contents (Elt Ideal))
    (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : cond0_1 i) (hc2 : ¬cond0_2 i)
    (x0 : Vec Ideal S4096x64 .f32) (x1 : Vec Ideal S1x1024x4096 .f32) (x2 : Vec Ideal S64x64 .f32) (x3 : Vec Ideal S1x64x64 .f32) (x4 : Vec Ideal S1x64x64 .f32) (xo5 : Vec Ideal S4096x64 .f32) (xs0 : Vec Ideal S64x4096 .f32) (xs1 : Vec Ideal S4096x128 .bf16) (xs2 : Vec Ideal S72x4096 .bf16) (j : Fin 72) (q : Fin 4096) :
    v.read (Elt Ideal) (v.writes (Elt Ideal) f (kernelRun0_D (F := Ideal) c i arg2 harg2 arg3 harg3 arg4 harg4 arg5 harg5 arg6 harg6 arg7 harg7 arg8 harg8 arg9 harg9 arg10 harg10 arg11 harg11 hc0 hc1 hc2 x0 x1 x2 x3 x4 xo5 xs0 xs1 xs2).2.2.2.1) (ix2 j q)
      = zero + ∑ k : Fin 1024, houtVal x4 xs0 xs2 j ⟨1024 * (i 1).val + k.val, by have := ib_lt i; omega⟩ * x1 (ix3 0 k q) := by
  unfold kernelRun0_D; dsimp only
  delta_sl kernelRun0_D.sl
  rw [read_writes_cons_whole2, acc_apply harg3 x1 arg10.view, readCov_whole_apply arg11.view z2, Pay.pay9_apply,
    hout_after harg6 harg8 harg10]

/-- First row block of a relation: the output's staging buffer, the source-side features read after their set-up
    store. -/
theorem piecesD5 {κ : Kind} {sp : Space} (v : View sig κ sp S4096x64 .f32) (f : v.ty.Contents (Elt Ideal))
    (c : Dev nD) (i : grid0.Coords) (arg2 : Memref sig .tc .vmem S4096x64 .f32) (harg2 : arg2.IsWhole) (arg3 : Memref sig .tc .vmem S1x1024x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (hc0 : ¬cond0_0 i) (hc1 : cond0_1 i) (hc2 : ¬cond0_2 i)
    (x0 : Vec Ideal S4096x64 .f32) (x1 : Vec Ideal S1x1024x4096 .f32) (x2 : Vec Ideal S64x64 .f32) (x3 : Vec Ideal S1x64x64 .f32) (x4 : Vec Ideal S1x64x64 .f32) (xo5 : Vec Ideal S4096x64 .f32) (xs0 : Vec Ideal S64x4096 .f32) (xs1 : Vec Ideal S4096x128 .bf16) (xs2 : Vec Ideal S72x4096 .bf16) (a : Fin 4096) (j : Fin 64) :
    v.read (Elt Ideal) (v.writes (Elt Ideal) f (kernelRun0_D (F := Ideal) c i arg2 harg2 arg3 harg3 arg4 harg4 arg5 harg5 arg6 harg6 arg7 harg7 arg8 harg8 arg9 harg9 arg10 harg10 arg11 harg11 hc0 hc1 hc2 x0 x1 x2 x3 x4 xo5 xs0 xs1 xs2).1) (ix2 a j)
      = if h : 1024 * (i 1).val ≤ a.val ∧ a.val < 1024 * (i 1).val + 1024 then
          xo5 (ix2 a j)
            + (∑ k : Fin 4096, x1 (ix3 0 ⟨a.val - 1024 * (i 1).val, by omega⟩ k) * hinVal x0 x3 xs1 k ⟨j.val, by omega⟩)
              * Ideal.div one (max (∑ k : Fin 4096, x1 (ix3 0 ⟨a.val - 1024 * (i 1).val, by omega⟩ k) * hinVal x0 x3 xs1 k ⟨64, by omega⟩) eps)
        else v.read (Elt Ideal) f (ix2 a j) := by
  unfold kernelRun0_D; dsimp only
  delta_sl kernelRun0_D.sl
  refine (slab_read v f i _ _ _ [] a j).trans ?_
  by_cases h : 1024 * (i 1).val ≤ a.val ∧ a.val < 1024 * (i 1).val + 1024
  · rw [dif_pos h, dif_pos h, slab_load harg7 xo5 i _ j a (by show a.val = 1024 * (i 1).val + (a.val - 1024 * (i 1).val); omega),
      readAt_whole_unread harg3 x1 z3, readAt_whole arg9.view _ z2, hin_after harg2 harg5 harg9]
  · rw [dif_neg h, dif_neg h]; rfl

end Cert.KernelIdeal.Body

end
-- ==== Proof.KI.InvB.lean ====
/-
  A middle row block (blocks 1 and 2 of a relation) carries the invariant: the transposed features and both
  augmented feature buffers are untouched, the accumulator gains this block's contribution, and the rows of this
  block gain the relation's row-direction message.
-/
import proofs.«112522_g50646254354673_cont_8to1_c_444_16_alg».proof.Proof.KI.InvDef
import proofs.«112522_g50646254354673_cont_8to1_c_444_16_alg».proof.Proof.KI.PiecesBCD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Rgcn

variable (m : (ℓ : Loc nD τ sig) → Buf (Elt Ideal) ℓ)

set_option maxHeartbeats 1600000 in
theorem inv_B (c : Dev nD) (t : Fin cfg0.N) (h1 : ¬t.val % 4 = 0) (h2 : ¬t.val % 4 = 3) (ih : Inv m c (prevT t)) : Inv m c t := by
  have hN := tlt t
  have h0 : ¬t.val % 16 = 0 := by omega
  obtain ⟨ih0, ih1, ih2, ih3, ih5⟩ := ih
  have hr : rOf (prevT t) = rOf t := Fin.ext (by show (t.val - 1) / 4 = t.val / 4; omega)
  have hib : (ibOf (prevT t)).val + 1 = (ibOf t).val := by show (t.val - 1) % 4 + 1 = t.val % 4; omega
  have hne : (ibOf t).val ≠ 3 := h2
  have hcoord : (grid0.coords t 1).val = (ibOf t).val := (idx_facts t).2.2.2.2.2.2.2.2.2.2.2.2.2.2.2.2
  rw [hr] at ih1 ih2 ih3 ih5
  have hS0 : (outsAt0 (F := Ideal) m c t.val t.isLt).2.1 = (outsAt0 m c (t.val - 1) (Nat.lt_of_le_of_lt (Nat.sub_le _ _) t.isLt)).2.1 := by rw [outsAt0_B m c t h0 h1 h2]
  have hS1 : (outsAt0 (F := Ideal) m c t.val t.isLt).2.2.1 = (outsAt0 m c (t.val - 1) (Nat.lt_of_le_of_lt (Nat.sub_le _ _) t.isLt)).2.2.1 := by rw [outsAt0_B m c t h0 h1 h2]
  have hS2 : (outsAt0 (F := Ideal) m c t.val t.isLt).2.2.2.1 = (outsAt0 m c (t.val - 1) (Nat.lt_of_le_of_lt (Nat.sub_le _ _) t.isLt)).2.2.2.1 := by rw [outsAt0_B m c t h0 h1 h2]
  have hS3 : (outsAt0 (F := Ideal) m c t.val t.isLt).2.2.2.2 = sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 := by rw [outsAt0_B m c t h0 h1 h2]
  have hS5 : (outsAt0 (F := Ideal) m c t.val t.isLt).1 = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 := by rw [outsAt0_B m c t h0 h1 h2]
  refine ⟨fun l k => by rw [hS0]; exact ih0 l k, fun k j => by rw [hS1]; exact ih1 k j, fun j k => by rw [hS2]; exact ih2 j k, ?_, ?_⟩
  · intro j q
    rw [hS3]
    unfold sout0_B_3
    refine (piecesB3 VS0_3 VS0_3.junk c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 j q).trans ?_
    rw [accY_succ _ _ _ (rOf t) (ibOf (prevT t)) (ibOf t) hib j q]
    refine congrArg₂ (· + ·) (ih3 j q) ?_
    unfold blkU
    refine Finset.sum_congr rfl fun k _ => ?_
    have hk : (⟨1024 * (grid0.coords t 1).val + k.val, by have := ib_lt (grid0.coords t); omega⟩ : Fin 4096) = blockRow (ibOf t) k :=
      Fin.ext (by show 1024 * (grid0.coords t 1).val + k.val = 1024 * (ibOf t).val + k.val; rw [hcoord])
    rw [hk, blk1_apply m c t k q]
    refine congrArg₂ (· * ·) (ih2 j _) ?_
    show V m c main_arg1 _ = V m c main_arg1 _
    congr 1
  · intro a j
    rw [hS5]
    unfold out0_B_5
    refine (piecesB5 (ms0_5 t).view ((hs0_5 t).unread (outsAt0 m c (t.val - 1) (Nat.lt_of_le_of_lt (Nat.sub_le _ _) t.isLt)).1) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 a j).trans ?_
    rw [(hs0_5 t).read_unread]
    split
    · next hslab =>
      have hslab' : 1024 * (ibOf t).val ≤ a.val ∧ a.val < 1024 * (ibOf t).val + 1024 := by rw [← hcoord]; exact hslab
      rw [outAcc_mid_in _ _ _ _ _ (rOf t) (ibOf (prevT t)) (ibOf t) hib hne a j hslab', ← srcK_of_Hspec (aX m c) (aA m c) (aWin m c) (rOf t) a j]
      refine congrArg₂ (· + ·) (ih5 a j) ?_
      have hrow : ∀ k : Fin 4096, iblk m c 1 t (ix3 0 ⟨a.val - 1024 * (grid0.coords t 1).val, by omega⟩ k) = aA m c (ix3 (rOf t) a k) := fun k => by
        rw [blk1_apply m c t _ k]
        show V m c main_arg1 _ = V m c main_arg1 _
        congr 1
        funext d
        match d with
        | ⟨0, _⟩ => rfl
        | ⟨1, _⟩ => exact Fin.ext (by show 1024 * (t.val % 4) + (a.val - 1024 * (grid0.coords t 1).val) = a.val; have : (grid0.coords t 1).val = t.val % 4 := hcoord; omega)
        | ⟨2, _⟩ => rfl
      simp only [hrow, ih1]
    · next hslab =>
      have hslab' : ¬(1024 * (ibOf t).val ≤ a.val ∧ a.val < 1024 * (ibOf t).val + 1024) := by rw [← hcoord]; exact hslab
      rw [outAcc_mid_out _ _ _ _ _ (rOf t) (ibOf (prevT t)) (ibOf t) hib hne a j hslab']
      exact ih5 a j

end Cert.KernelIdeal.Body

end
-- ==== Proof.KI.InvC.lean ====
/-
  The last row block of a relation carries the invariant: the transposed features and both augmented feature
  buffers are untouched, the accumulator gains this block's contribution and is then complete, the rows of this
  block gain the relation's row-direction message, and every row gains the relation's column-direction message:
  the complete accumulator's rows 0..63 divided by its row 64, the column degrees, clamped.
-/
import proofs.«112522_g50646254354673_cont_8to1_c_444_16_alg».proof.Proof.KI.InvDef
import proofs.«112522_g50646254354673_cont_8to1_c_444_16_alg».proof.Proof.KI.PiecesBCD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Rgcn

variable (m : (ℓ : Loc nD τ sig) → Buf (Elt Ideal) ℓ)

set_option maxHeartbeats 1600000 in
theorem inv_C (c : Dev nD) (t : Fin cfg0.N) (h1 : ¬t.val % 4 = 0) (h2 : t.val % 4 = 3) (ih : Inv m c (prevT t)) : Inv m c t := by
  have hN := tlt t
  have h0 : ¬t.val % 16 = 0 := by omega
  obtain ⟨ih0, ih1, ih2, ih3, ih5⟩ := ih
  have hr : rOf (prevT t) = rOf t := Fin.ext (by show (t.val - 1) / 4 = t.val / 4; omega)
  have hib : (ibOf (prevT t)).val + 1 = (ibOf t).val := by show (t.val - 1) % 4 + 1 = t.val % 4; omega
  have h3 : (ibOf t).val = 3 := h2
  have e3 : ibOf t = 3 := Fin.ext h2
  have hcoord : (grid0.coords t 1).val = (ibOf t).val := (idx_facts t).2.2.2.2.2.2.2.2.2.2.2.2.2.2.2.2
  rw [hr] at ih1 ih2 ih3 ih5
  have hS0 : (outsAt0 (F := Ideal) m c t.val t.isLt).2.1 = (outsAt0 m c (t.val - 1) (Nat.lt_of_le_of_lt (Nat.sub_le _ _) t.isLt)).2.1 := by rw [outsAt0_C m c t h0 h1 h2]
  have hS1 : (outsAt0 (F := Ideal) m c t.val t.isLt).2.2.1 = (outsAt0 m c (t.val - 1) (Nat.lt_of_le_of_lt (Nat.sub_le _ _) t.isLt)).2.2.1 := by rw [outsAt0_C m c t h0 h1 h2]
  have hS2 : (outsAt0 (F := Ideal) m c t.val t.isLt).2.2.2.1 = (outsAt0 m c (t.val - 1) (Nat.lt_of_le_of_lt (Nat.sub_le _ _) t.isLt)).2.2.2.1 := by rw [outsAt0_C m c t h0 h1 h2]
  have hS3 : (outsAt0 (F := Ideal) m c t.val t.isLt).2.2.2.2 = sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 := by rw [outsAt0_C m c t h0 h1 h2]
  have hS5 : (outsAt0 (F := Ideal) m c t.val t.isLt).1 = out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 := by rw [outsAt0_C m c t h0 h1 h2]
  -- the accumulator after this block's store is the complete accumulator
  have hacc : ∀ (jj : Fin 72) (q : Fin 4096),
      accVal (grid0.coords t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 jj q
        = accY (aX m c) (aA m c) (aWout m c) (rOf t) (ibOf t) jj q := by
    intro jj q
    unfold accVal
    rw [accY_succ _ _ _ (rOf t) (ibOf (prevT t)) (ibOf t) hib jj q]
    refine congrArg₂ (· + ·) (ih3 jj q) ?_
    unfold blkU
    refine Finset.sum_congr rfl fun k _ => ?_
    have hk : (⟨1024 * (grid0.coords t 1).val + k.val, by have := ib_lt (grid0.coords t); omega⟩ : Fin 4096) = blockRow (ibOf t) k :=
      Fin.ext (by show 1024 * (grid0.coords t 1).val + k.val = 1024 * (ibOf t).val + k.val; rw [hcoord])
    rw [hk, blk1_apply m c t k q]
    refine congrArg₂ (· * ·) (ih2 jj _) ?_
    show V m c main_arg1 _ = V m c main_arg1 _
    congr 1
  refine ⟨fun l k => by rw [hS0]; exact ih0 l k, fun k j => by rw [hS1]; exact ih1 k j, fun j k => by rw [hS2]; exact ih2 j k, ?_, ?_⟩
  · intro j q
    rw [hS3]
    unfold sout0_C_3
    exact (piecesC3 VS0_3 VS0_3.junk c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 j q).trans (hacc j q)
  · intro a j
    rw [hS5]
    unfold out0_C_5
    refine (piecesC5 (ms0_5 t).view ((hs0_5 t).unread (outsAt0 m c (t.val - 1) (Nat.lt_of_le_of_lt (Nat.sub_le _ _) t.isLt)).1) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 a j).trans ?_
    rw [hacc ⟨j.val, by omega⟩ a, hacc ⟨64, by omega⟩ a, e3, accY_last_feat, accY_last_deg]
    unfold slabVal
    split
    · next hslab =>
      have hslab' : 1024 * (ibOf t).val ≤ a.val ∧ a.val < 1024 * (ibOf t).val + 1024 := by rw [← hcoord]; exact hslab
      rw [← e3, outAcc_last_in _ _ _ _ _ (rOf t) (ibOf (prevT t)) (ibOf t) hib h3 a j hslab', ← srcK_of_Hspec (aX m c) (aA m c) (aWin m c) (rOf t) a j]
      unfold revK
      refine congrArg₂ (· + ·) (congrArg₂ (· + ·) (ih5 a j) ?_) rfl
      have hrow : ∀ k : Fin 4096, iblk m c 1 t (ix3 0 ⟨a.val - 1024 * (grid0.coords t 1).val, by omega⟩ k) = aA m c (ix3 (rOf t) a k) := fun k => by
        rw [blk1_apply m c t _ k]
        show V m c main_arg1 _ = V m c main_arg1 _
        congr 1
        funext d
        match d with
        | ⟨0, _⟩ => rfl
        | ⟨1, _⟩ => exact Fin.ext (by show 1024 * (t.val % 4) + (a.val - 1024 * (grid0.coords t 1).val) = a.val; have : (grid0.coords t 1).val = t.val % 4 := hcoord; omega)
        | ⟨2, _⟩ => rfl
      simp only [hrow, ih1]
    · next hslab =>
      have hslab' : ¬(1024 * (ibOf t).val ≤ a.val ∧ a.val < 1024 * (ibOf t).val + 1024) := by rw [← hcoord]; exact hslab
      rw [← e3, outAcc_last_out _ _ _ _ _ (rOf t) (ibOf (prevT t)) (ibOf t) hib h3 a j hslab']
      unfold revK
      exact congrArg₂ (· + ·) (ih5 a j) rfl

end Cert.KernelIdeal.Body

end
-- ==== Proof.KI.InvD.lean ====
/-
  The first row block of a later relation carries the invariant: the transposed features are untouched; columns 0..63
  of the augmented source-side features and rows 0..63 of the augmented transposed target-side features are
  recomputed with the new relation's weights while the ones and the zero padding stay; the accumulator restarts from
  zero with this block's contribution; and the rows of this block gain the new relation's row-direction message on top
  of everything the finished relations contributed.
-/
import proofs.«112522_g50646254354673_cont_8to1_c_444_16_alg».proof.Proof.KI.InvDef
import proofs.«112522_g50646254354673_cont_8to1_c_444_16_alg».proof.Proof.KI.PiecesBCD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Rgcn

variable (m : (ℓ : Loc nD τ sig) → Buf (Elt Ideal) ℓ)

set_option maxHeartbeats 1600000 in
theorem inv_D (c : Dev nD) (t : Fin cfg0.N) (h0 : ¬t.val % 16 = 0) (h1 : t.val % 4 = 0) (ih : Inv m c (prevT t)) : Inv m c t := by
  have hN := tlt t
  have h2 : ¬t.val % 4 = 3 := by omega
  obtain ⟨ih0, ih1, ih2, ih3, ih5⟩ := ih
  have hr : (rOf (prevT t)).val + 1 = (rOf t).val := by show (t.val - 1) / 4 + 1 = t.val / 4; omega
  have hib3 : (ibOf (prevT t)).val = 3 := by show (t.val - 1) % 4 = 3; omega
  have hib0 : (ibOf t).val = 0 := h1
  have hcoord : (grid0.coords t 1).val = (ibOf t).val := (idx_facts t).2.2.2.2.2.2.2.2.2.2.2.2.2.2.2.2
  -- the induction hypothesis, stated at the previous position's components
  have ih0' : ∀ (l : Fin 64) (k : Fin 4096), (outsAt0 m c (t.val - 1) (Nat.lt_of_le_of_lt (Nat.sub_le _ _) t.isLt)).2.1 (ix2 l k) = aX m c (ix2 k l) := ih0
  have ih1' : ∀ (k : Fin 4096) (j : Fin 128), (outsAt0 m c (t.val - 1) (Nat.lt_of_le_of_lt (Nat.sub_le _ _) t.isLt)).2.2.1 (ix2 k j) = Hspec (aX m c) (aWin m c) (rOf (prevT t)) k j := ih1
  have ih2' : ∀ (j : Fin 72) (k : Fin 4096), (outsAt0 m c (t.val - 1) (Nat.lt_of_le_of_lt (Nat.sub_le _ _) t.isLt)).2.2.2.1 (ix2 j k) = Uspec (aX m c) (aWout m c) (rOf (prevT t)) j k := ih2
  have ih5' : ∀ (a : Fin 4096) (j : Fin 64), (outsAt0 m c (t.val - 1) (Nat.lt_of_le_of_lt (Nat.sub_le _ _) t.isLt)).1 (ix2 a j) = outAcc (aX m c) (aA m c) (aWl m c) (aWin m c) (aWout m c) (rOf (prevT t)) (ibOf (prevT t)) a j := ih5
  -- the finished relations' total is where the new relation starts
  have hbase : ∀ (a : Fin 4096) (j : Fin 64), (outsAt0 m c (t.val - 1) (Nat.lt_of_le_of_lt (Nat.sub_le _ _) t.isLt)).1 (ix2 a j) = baseK (aX m c) (aA m c) (aWl m c) (aWin m c) (aWout m c) (rOf t) a j := fun a j =>
    (ih5' a j).trans (baseK_of_prev (aX m c) (aA m c) (aWl m c) (aWin m c) (aWout m c) (rOf (prevT t)) (rOf t) hr (ibOf (prevT t)) hib3 a j).symm
  -- the recomputed source-side features: the new relation's product in columns 0..63, the old ones and zeros beyond
  have hH : ∀ (k : Fin 4096) (j : Fin 128), hinVal (iblk m c 0 t) (iblk m c 3 t) (outsAt0 m c (t.val - 1) (Nat.lt_of_le_of_lt (Nat.sub_le _ _) t.isLt)).2.2.1 k j = Hspec (aX m c) (aWin m c) (rOf t) k j := fun k j => by
    unfold hinVal Hspec
    by_cases hj : j.val < 64
    · rw [dif_pos hj, dif_pos hj]
      unfold hIn
      refine Finset.sum_congr rfl fun l _ => ?_
      rw [blk0_apply m c t k l, blk3_apply m c t l ⟨j.val, hj⟩]
      rfl
    · rw [dif_neg hj, dif_neg hj, ih1' k j]
      unfold Hspec
      rw [dif_neg hj]
  -- the recomputed transposed target-side features, likewise
  have hU : ∀ (j : Fin 72) (k : Fin 4096), houtVal (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.1 j k = Uspec (aX m c) (aWout m c) (rOf t) j k := fun j k => by
    unfold houtVal Uspec
    by_cases hj : j.val < 64
    · rw [dif_pos hj, dif_pos hj]
      unfold hOutT
      refine Finset.sum_congr rfl fun l _ => ?_
      rw [blk4_apply m c t l ⟨j.val, hj⟩, ih0' l k]
      rfl
    · rw [dif_neg hj, dif_neg hj, ih2' j k]
      unfold Uspec
      rw [dif_neg hj]
  have hS0 : (outsAt0 (F := Ideal) m c t.val t.isLt).2.1 = (outsAt0 m c (t.val - 1) (Nat.lt_of_le_of_lt (Nat.sub_le _ _) t.isLt)).2.1 := by rw [outsAt0_D m c t h0 h1 h2]
  have hS1 : (outsAt0 (F := Ideal) m c t.val t.isLt).2.2.1 = sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 := by rw [outsAt0_D m c t h0 h1 h2]
  have hS2 : (outsAt0 (F := Ideal) m c t.val t.isLt).2.2.2.1 = sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 := by rw [outsAt0_D m c t h0 h1 h2]
  have hS3 : (outsAt0 (F := Ideal) m c t.val t.isLt).2.2.2.2 = sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 := by rw [outsAt0_D m c t h0 h1 h2]
  have hS5 : (outsAt0 (F := Ideal) m c t.val t.isLt).1 = out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 := by rw [outsAt0_D m c t h0 h1 h2]
  refine ⟨fun l k => by rw [hS0]; exact ih0' l k, ?_, ?_, ?_, ?_⟩
  · intro k j
    rw [hS1]
    unfold sout0_D_1
    refine (piecesD1 scM0_1.view ((Memref.isWhole_whole cc0_scratch1 : scM0_1.IsWhole).unread (outsAt0 m c (t.val - 1) (Nat.lt_of_le_of_lt (Nat.sub_le _ _) t.isLt)).2.2.1) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 k j).trans ?_
    rw [(Memref.isWhole_whole cc0_scratch1 : scM0_1.IsWhole).read_unread]
    exact hH k j
  · intro j k
    rw [hS2]
    unfold sout0_D_2
    refine (piecesD2 scM0_2.view ((Memref.isWhole_whole cc0_scratch2 : scM0_2.IsWhole).unread (outsAt0 m c (t.val - 1) (Nat.lt_of_le_of_lt (Nat.sub_le _ _) t.isLt)).2.2.2.1) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 j k).trans ?_
    rw [(Memref.isWhole_whole cc0_scratch2 : scM0_2.IsWhole).read_unread]
    exact hU j k
  · intro j q
    rw [hS3]
    unfold sout0_D_3
    refine (piecesD3 VS0_3 VS0_3.junk c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 j q).trans ?_
    rw [accY_zero _ _ _ (rOf t) (ibOf t) hib0 j q]
    unfold blkU
    refine congrArg (zero + ·) (Finset.sum_congr rfl fun k _ => ?_)
    have hk : (⟨1024 * (grid0.coords t 1).val + k.val, by have := ib_lt (grid0.coords t); omega⟩ : Fin 4096) = blockRow (ibOf t) k :=
      Fin.ext (by show 1024 * (grid0.coords t 1).val + k.val = 1024 * (ibOf t).val + k.val; rw [hcoord])
    rw [hk, blk1_apply m c t k q]
    refine congrArg₂ (· * ·) (hU j _) ?_
    show V m c main_arg1 _ = V m c main_arg1 _
    congr 1
  · intro a j
    rw [hS5]
    unfold out0_D_5
    refine (piecesD5 (ms0_5 t).view ((hs0_5 t).unread (outsAt0 m c (t.val - 1) (Nat.lt_of_le_of_lt (Nat.sub_le _ _) t.isLt)).1) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 a j).trans ?_
    rw [(hs0_5 t).read_unread]
    split
    · next hslab =>
      have hslab' : 1024 * (ibOf t).val ≤ a.val ∧ a.val < 1024 * (ibOf t).val + 1024 := by rw [← hcoord]; exact hslab
      rw [outAcc_first_in _ _ _ _ _ (rOf t) (ibOf t) hib0 a j hslab', ← srcK_of_Hspec (aX m c) (aA m c) (aWin m c) (rOf t) a j]
      refine congrArg₂ (· + ·) (hbase a j) ?_
      have hrow : ∀ k : Fin 4096, iblk m c 1 t (ix3 0 ⟨a.val - 1024 * (grid0.coords t 1).val, by omega⟩ k) = aA m c (ix3 (rOf t) a k) := fun k => by
        rw [blk1_apply m c t _ k]
        show V m c main_arg1 _ = V m c main_arg1 _
        congr 1
        funext d
        match d with
        | ⟨0, _⟩ => rfl
        | ⟨1, _⟩ => exact Fin.ext (by show 1024 * (t.val % 4) + (a.val - 1024 * (grid0.coords t 1).val) = a.val; have : (grid0.coords t 1).val = t.val % 4 := hcoord; omega)
        | ⟨2, _⟩ => rfl
      simp only [hrow, hH]
    · next hslab =>
      have hslab' : ¬(1024 * (ibOf t).val ≤ a.val ∧ a.val < 1024 * (ibOf t).val + 1024) := by rw [← hcoord]; exact hslab
      rw [outAcc_first_out _ _ _ _ _ (rOf t) (ibOf t) hib0 a j hslab']
      exact hbase a j

end Cert.KernelIdeal.Body

end
-- ==== Proof.KI.Inv.lean ====
/-
  The invariant holds after every grid point: at the first point every buffer is written from the inputs alone; at
  each later point the case of the point (first row block of a later relation, a middle row block, the last row
  block) carries it from the point before.
-/
import proofs.«112522_g50646254354673_cont_8to1_c_444_16_alg».proof.Proof.KI.InvA
import proofs.«112522_g50646254354673_cont_8to1_c_444_16_alg».proof.Proof.KI.InvB
import proofs.«112522_g50646254354673_cont_8to1_c_444_16_alg».proof.Proof.KI.InvC
import proofs.«112522_g50646254354673_cont_8to1_c_444_16_alg».proof.Proof.KI.InvD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Rgcn

variable (m : (ℓ : Loc nD τ sig) → Buf (Elt Ideal) ℓ)

theorem inv_all (c : Dev nD) : ∀ (n : ℕ) (hn : n < cfg0.N), Inv m c ⟨n, hn⟩
  | 0, hn => inv_A m c ⟨0, hn⟩ rfl
  | n + 1, hn => by
    have ih : Inv m c (prevT ⟨n + 1, hn⟩) := inv_all c n (Nat.lt_of_succ_lt hn)
    have hN : n + 1 < 16 := lt_of_lt_of_eq hn (show cfg0.N = 16 from N_0)
    by_cases h1 : (n + 1) % 4 = 0
    · exact inv_D m c ⟨n + 1, hn⟩ (by show ¬(n + 1) % 16 = 0; omega) h1 ih
    · by_cases h2 : (n + 1) % 4 = 3
      · exact inv_C m c ⟨n + 1, hn⟩ h1 h2 ih
      · exact inv_B m c ⟨n + 1, hn⟩ h1 h2 ih

/-- After the last point the output's staging buffer holds the whole layer, in the kernel's arrangement. -/
theorem out_last (c : Dev nD) (a : Fin 4096) (j : Fin 64) :
    (outsAt0 (F := Ideal) m c 15 (by rw [show cfg0.N = 16 from N_0]; omega)).1 (ix2 a j)
      = K (aX m c) (aA m c) (aWl m c) (aWin m c) (aWout m c) a j := by
  have h := (inv_all m c 15 (by rw [show cfg0.N = 16 from N_0]; omega)).2.2.2.2 a j
  rw [h]
  exact outAcc_last _ _ _ _ _ a j

end Cert.KernelIdeal.Body

end
-- ==== Proof.Consts.lean ====
/-
  The two single-precision words whose values the proofs need: the clamp under the normalisers is a positive
  real, and the word the precondition compares magnitudes against is plus infinity.
-/
import proofs.«112522_g50646254354673_cont_8to1_c_444_16_alg».proof.Proof.Spec

noncomputable section

namespace Cert.Rgcn

open Idealize.ShloMosaic

/-- The clamp word is a positive real: sign bit clear, exponent field 87, significand field 834764, so the normal
    number (2^23 + 834764) * 2^(87 - 127 - 23). Only its positivity and finiteness are used. -/
theorem eps_eq : ∃ e : ℝ, 0 < e ∧ eps = (e : EReal) := by
  refine ⟨(9223372 : ℝ) * (2 : ℝ) ^ (-63 : ℤ), by positivity, ?_⟩
  unfold eps
  simp [Ideal.ofBits, Ideal.ieee, -EReal.coe_mul]

/-- The all-ones exponent with a zero significand is plus infinity. -/
theorem inf_word : Ideal.ofBits .f32 0x7F800000#32 = (⊤ : EReal) := by simp [Ideal.ofBits, Ideal.ieee]

end Cert.Rgcn

end
-- ==== Proof.LibBridgeAlg.lean ====
import Idealize.ShloMosaic.Lib.ValueIdx

/-!
# The algebra between the two groupings

Over abstract finite data and no program. Three things.

1. A sum over 128 lanes of a row masked to one slot of sixteen lanes, times a weight that repeats with period
   sixteen, is the sum over that slot's sixteen entries: the masked lanes contribute zero (0 * x = 0 for every
   extended real x), whatever the row holds there.
2. For REAL data, the context term may be contracted in either order:
   Σ_e ((Σ_q cx q * cW q e) + cb e) * w e = (Σ_k cx k * (Σ_e cW k e * w e)) + Σ_e cb e * w e.
   This is distributivity, which fails on the extended reals at infinities: it is proved in the reals and the
   coercion pushed through sums, products and sums of sums.
3. With that, the grouping "(user + item) + (ctx times (ctx_W times W1)) + (b1 + ctx_b times W1)", the second factor
   written w2 + 0, equals the grouping "((user + item) + (ctx times ctx_W + ctx_b) times W1) + b1", the rest being
   associativity and commutativity of addition.
-/

noncomputable section

open scoped BigOperators

namespace Cert.BridgeAlg

/-! ## Coercion of a finite sum -/

/-- The coercion of the reals into the extended reals commutes with finite sums. -/
@[norm_cast]
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- … and with the maximum. -/
theorem coe_max (x y : ℝ) : ((max x y : ℝ) : EReal) = max (x : EReal) (y : EReal) :=
  EReal.coe_strictMono.monotone.map_max

/-! ## A masked row of 128 lanes against a weight of period sixteen -/

/-- Lane l of 128 is (slot l / 16, entry l % 16). A row kept on slot s and zeroed elsewhere, times a weight that
    depends on the entry alone, sums to the slot's sixteen products. No finiteness: a zeroed lane contributes
    0 * w = 0 for every extended real w, and the row's other lanes are never read. -/
theorem lane_sum_collapse (s : Fin 8) (P : Fin 128 → Prop) [DecidablePred P] (hP : ∀ l, P l ↔ l.val / 16 = s.val)
    (row : Fin 128 → EReal) (w : Fin 16 → EReal) :
    (∑ l : Fin 128, (if P l then row l else 0) * w ⟨l.val % 16, Nat.mod_lt _ (by decide)⟩)
      = ∑ e : Fin 16, row ⟨16 * s.val + e.val, by omega⟩ * w e := by
  have hre := (finProdFinEquiv (m := 8) (n := 16)).sum_comp
    (fun l : Fin (8 * 16) => (if P l then row l else 0) * w ⟨l.val % 16, Nat.mod_lt _ (by decide)⟩)
  refine hre.symm.trans ?_
  rw [Fintype.sum_prod_type, Finset.sum_eq_single s]
  · refine Finset.sum_congr rfl fun e _ => ?_
    have hv : (finProdFinEquiv (m := 8) (n := 16) (s, e)).val = e.val + 16 * s.val := rfl
    have hl : finProdFinEquiv (m := 8) (n := 16) (s, e) = (⟨16 * s.val + e.val, by omega⟩ : Fin 128) :=
      Fin.ext (by rw [hv]; show e.val + 16 * s.val = 16 * s.val + e.val; omega)
    have hm : (⟨(finProdFinEquiv (m := 8) (n := 16) (s, e)).val % 16, Nat.mod_lt _ (by decide)⟩ : Fin 16) = e :=
      Fin.ext (by show (finProdFinEquiv (m := 8) (n := 16) (s, e)).val % 16 = e.val; rw [hv]; omega)
    have hp : P (finProdFinEquiv (m := 8) (n := 16) (s, e)) := (hP _).2 (by rw [hv]; omega)
    simp only [if_pos hp, hm]
    rw [hl]
  · intro a _ ha
    refine Finset.sum_eq_zero fun e _ => ?_
    have hv : (finProdFinEquiv (m := 8) (n := 16) (a, e)).val = e.val + 16 * a.val := rfl
    have hp : ¬ P (finProdFinEquiv (m := 8) (n := 16) (a, e)) := fun h => ha (Fin.ext (by
      have := (hP _).1 h; rw [hv] at this; omega))
    rw [if_neg hp, zero_mul]
  · intro h; exact absurd (Finset.mem_univ s) h

/-! ## The context term, contracted in either order -/

/-- In the reals: (ctx times ctx_W + ctx_b) times w, entry by entry, is ctx times (ctx_W times w) plus ctx_b
    times w. -/
theorem ctx_real (cx : Fin 8 → ℝ) (cW : Fin 8 → Fin 16 → ℝ) (cb wc : Fin 16 → ℝ) :
    (∑ e, ((∑ q, cx q * cW q e) + cb e) * wc e) = (∑ k, cx k * (∑ e, cW k e * wc e)) + ∑ e, cb e * wc e := by
  simp only [add_mul, Finset.sum_add_distrib, Finset.sum_mul, Finset.mul_sum, mul_assoc]
  rw [Finset.sum_comm]

/-- The same on the extended reals, for real data. -/
theorem ctx_coe (cx : Fin 8 → ℝ) (cW : Fin 8 → Fin 16 → ℝ) (cb wc : Fin 16 → ℝ) :
    (∑ e, ((∑ q, (cx q : EReal) * (cW q e : EReal)) + (cb e : EReal)) * (wc e : EReal))
      = (∑ k, (cx k : EReal) * (∑ e, (cW k e : EReal) * (wc e : EReal))) + ∑ e, (cb e : EReal) * (wc e : EReal) := by
  exact_mod_cast congrArg (fun r : ℝ => (r : EReal)) (ctx_real cx cW cb wc)

/-! ## The two groupings of the hidden layer's argument -/

/-- For one hidden unit: U and I are the user and item sums (any extended reals), the context data real. The
    grouping (U + I) + ctx times (ctx_W times w) + (b + ctx_b times w) is ((U + I) + (ctx times ctx_W + ctx_b) times w) + b. -/
theorem inner_eq (U I b : EReal) (cx : Fin 8 → ℝ) (cW : Fin 8 → Fin 16 → ℝ) (cb wc : Fin 16 → ℝ) :
    ((U + I) + (∑ k, (cx k : EReal) * (∑ e, (cW k e : EReal) * (wc e : EReal)))) + (b + ∑ e, (cb e : EReal) * (wc e : EReal))
      = ((U + I) + (∑ e, ((∑ q, (cx q : EReal) * (cW q e : EReal)) + (cb e : EReal)) * (wc e : EReal))) + b := by
  rw [ctx_coe]
  -- associativity and commutativity of addition alone
  rw [add_comm b, ← add_assoc, add_assoc (U + I)]

/-- THE BRIDGE, for real weights: the sum over the 32 hidden units of max(first grouping, 0) * (w2 + 0), plus b2, is
    the same with the second grouping and w2. The user and item rows u, i may be any extended reals. -/
theorem bridge (u i : Fin 16 → EReal) (cx : Fin 8 → ℝ) (cW : Fin 8 → Fin 16 → ℝ) (cb : Fin 16 → ℝ)
    (w1 : Fin 48 → Fin 32 → ℝ) (b1 : Fin 32 → EReal) (w2 : Fin 32 → EReal) (b2 : EReal) :
    (∑ h : Fin 32,
        max ((((∑ e : Fin 16, u e * (w1 ⟨e.val, by omega⟩ h : EReal)) + (∑ e : Fin 16, i e * (w1 ⟨16 + e.val, by omega⟩ h : EReal)))
              + (∑ k : Fin 8, (cx k : EReal) * (∑ e : Fin 16, (cW k e : EReal) * (w1 ⟨32 + e.val, by omega⟩ h : EReal))))
            + (b1 h + ∑ e : Fin 16, (cb e : EReal) * (w1 ⟨32 + e.val, by omega⟩ h : EReal))) 0
          * (w2 h + 0)) + b2
      = (∑ h : Fin 32,
          max ((((∑ e : Fin 16, u e * (w1 ⟨e.val, by omega⟩ h : EReal)) + (∑ e : Fin 16, i e * (w1 ⟨16 + e.val, by omega⟩ h : EReal)))
                + (∑ e : Fin 16, ((∑ q : Fin 8, (cx q : EReal) * (cW q e : EReal)) + (cb e : EReal)) * (w1 ⟨32 + e.val, by omega⟩ h : EReal)))
              + b1 h) 0
            * w2 h) + b2 := by
  refine congrArg (· + b2) (Finset.sum_congr rfl fun h _ => ?_)
  rw [add_zero, inner_eq _ _ (b1 h) cx cW cb fun e => w1 ⟨32 + e.val, by omega⟩ h]

end Cert.BridgeAlg

end
-- ==== Proof.Algebra.lean ====
/-
  The algebraic law that joins the two arrangements of the relational graph-convolution layer.

  For real data every quantity in both arrangements is a real number, so the sums, products and the
  one division can be carried out in the reals, where multiplication distributes over finite sums.
  Three facts are used.

  * The three literals: the zero and one words are the extended reals 0 and 1, and the clamp word is a
    positive real. So the clamped degree max d eps is a positive real and dividing by it is the real quotient.
  * The reciprocal law: (sum_k a_k h_k) * (1 / D) = sum_k (a_k / D) * h_k for real a, h and a positive real D,
    where D = max (sum_k a_k) eps on both sides (a_k * 1 = a_k and 0 + s = s).
  * Four consecutive blocks of 1024 rows exhaust the 4096 rows: row 1024 * i + k runs over every row once as
    (i, k) runs over Fin 4 x Fin 1024. So the block-wise column sums, added from zero, are the whole column sums.
-/
import proofs.«112522_g50646254354673_cont_8to1_c_444_16_alg».proof.Proof.Spec
import proofs.«112522_g50646254354673_cont_8to1_c_444_16_alg».proof.Proof.Consts
import proofs.«112522_g50646254354673_cont_8to1_c_444_16_alg».proof.Proof.LibBridgeAlg
import Idealize.ShloMosaic.Lib.IdealHost

noncomputable section

open scoped BigOperators

namespace Cert.Rgcn

open Idealize.ShloMosaic Idealize.ShloMosaic.ValueIdx Cert.BridgeAlg

/-! ## The literals -/

/-- The zero word is the extended real zero. -/
theorem zero_eq : zero = 0 := Ideal.ofBits_zero_f32

/-- The one word is the extended real one. -/
theorem one_eq : one = 1 := Ideal.ofBits_one_f32

/-! ## The reciprocal law, in the reals and on the extended reals -/

/-- The division of a real by a real that is not zero is the real quotient. -/
theorem div_coe_coe (x y : ℝ) (hy : y ≠ 0) : Ideal.div (x : EReal) (y : EReal) = ((x / y : ℝ) : EReal) := by
  rw [Ideal.div_coe hy, ← EReal.coe_mul, mul_one_div]

/-- For real a, h and a positive real e, with D = max (sum_k a_k) e > 0:
    (sum_k a_k * h_k) * (1 / D) = sum_k (a_k / D) * h_k, the degree written as a sum of products with one on the left
    and as zero plus the sum on the right. -/
theorem recip_law (a h : Fin 4096 → ℝ) (e : ℝ) (he : 0 < e) :
    (∑ k, (a k : EReal) * (h k : EReal)) * Ideal.div 1 (max (∑ k, (a k : EReal) * 1) (e : EReal))
      = ∑ k, Ideal.div (a k : EReal) (max (0 + ∑ k, (a k : EReal)) (e : EReal)) * (h k : EReal) := by
  have hd : 0 < max (∑ k, a k) e := lt_max_of_lt_right he
  have hS1 : (∑ k, (a k : EReal) * 1) = ((∑ k, a k : ℝ) : EReal) := by
    rw [coe_sum]; exact Finset.sum_congr rfl fun k _ => mul_one _
  have hS2 : (0 + ∑ k, (a k : EReal)) = ((∑ k, a k : ℝ) : EReal) := by
    rw [zero_add, coe_sum]
  rw [hS1, hS2, ← coe_max, ← EReal.coe_one, div_coe_coe _ _ hd.ne']
  simp only [div_coe_coe _ _ hd.ne', ← EReal.coe_mul]
  rw [← coe_sum, ← coe_sum, ← EReal.coe_mul]
  refine congrArg (fun t : ℝ => (t : EReal)) ?_
  rw [Finset.sum_mul]
  exact Finset.sum_congr rfl fun k _ => by ring

/-! ## Four blocks of 1024 rows are the 4096 rows -/

/-- Row 1024 * i + k runs over every one of the 4096 rows once as (i, k) runs over Fin 4 x Fin 1024. -/
theorem sum_blocks (f : Fin 4096 → EReal) :
    (∑ i : Fin 4, ∑ k : Fin 1024, f (blockRow i k)) = ∑ c : Fin 4096, f c := by
  have hre := (finProdFinEquiv (m := 4) (n := 1024)).sum_comp (fun c : Fin (4 * 1024) => f c)
  refine Eq.trans ?_ hre
  rw [Fintype.sum_prod_type]
  refine Finset.sum_congr rfl fun i _ => Finset.sum_congr rfl fun k _ => ?_
  have hv : (finProdFinEquiv (m := 4) (n := 1024) (i, k)).val = k.val + 1024 * i.val := rfl
  exact congrArg f (Fin.ext (by rw [hv]; show 1024 * i.val + k.val = k.val + 1024 * i.val; omega))

/-- So a sum gathered from zero in four blocks is the whole sum. -/
theorem four_blocks (f : Fin 4096 → EReal) :
    zero + (∑ k : Fin 1024, f (blockRow 0 k)) + (∑ k : Fin 1024, f (blockRow 1 k)) + (∑ k : Fin 1024, f (blockRow 2 k))
        + (∑ k : Fin 1024, f (blockRow 3 k)) = ∑ c : Fin 4096, f c := by
  rw [zero_eq, zero_add, ← sum_blocks f]
  exact (Fin.sum_univ_four fun i : Fin 4 => ∑ k : Fin 1024, f (blockRow i k)).symm

/-! ## The two arrangements, relation by relation -/

section
variable (X : SX.Idx → EReal) (A : SA.Idx → EReal) (Wl : SW.Idx → EReal) (Win Wout : SR.Idx → EReal)

/-- A product of the feature row with a real weight column is real. -/
theorem hIn_real (hX : ∀ i, ∃ x : ℝ, X i = (x : EReal)) (hW : ∀ i, ∃ x : ℝ, Win i = (x : EReal))
    (r : Fin 4) (k : Fin 4096) (j : Fin 64) : ∃ y : ℝ, hIn X Win r k j = (y : EReal) := by
  choose x hx using hX
  choose w hw using hW
  refine ⟨∑ l : Fin 64, x (ix2 k l) * w (ix3 r l j), ?_⟩
  unfold hIn
  rw [coe_sum]
  exact Finset.sum_congr rfl fun l _ => by rw [hx, hw, EReal.coe_mul]

/-- The transposed product is the same number: the factors commute inside the sum. -/
theorem hOutT_eq (r : Fin 4) (j : Fin 64) (k : Fin 4096) : hOutT X Wout r j k = hOut X Wout r k j := by
  unfold hOutT hOut
  exact Finset.sum_congr rfl fun l _ => mul_comm _ _

/-- The row direction: summing first and multiplying by the reciprocal of the clamped degree is normalising each
    entry first. -/
theorem srcK_eq_msgIn (hX : ∀ i, ∃ x : ℝ, X i = (x : EReal)) (hA : ∀ i, ∃ x : ℝ, A i = (x : EReal))
    (hWin : ∀ i, ∃ x : ℝ, Win i = (x : EReal)) (r : Fin 4) (a : Fin 4096) (j : Fin 64) :
    srcK X A Win r a j = msgIn X A Win r a j := by
  obtain ⟨e, he, hE⟩ := eps_eq
  choose av hav using hA
  choose hv hhv using fun k => hIn_real X Win hX hWin r k j
  unfold srcK msgIn pK degK rowDeg
  simp only [hav, hhv, hE, one_eq, zero_eq]
  exact recip_law (fun k => av (ix3 r a k)) hv e he

/-- The column sums gathered in four blocks are the whole column sums, in the untransposed order of factors. -/
theorem yK_eq (r : Fin 4) (j : Fin 64) (c : Fin 4096) :
    yK X A Wout r j c = ∑ k : Fin 4096, A (ix3 r k c) * hOut X Wout r k j := by
  have hb : ∀ i, blkY X A Wout r i j c
      = ∑ k : Fin 1024, (fun k : Fin 4096 => A (ix3 r k c) * hOut X Wout r k j) (blockRow i k) := fun i => by
    unfold blkY
    exact Finset.sum_congr rfl fun k _ => by rw [hOutT_eq, mul_comm]
  unfold yK
  rw [hb 0, hb 1, hb 2, hb 3]
  exact four_blocks fun k : Fin 4096 => A (ix3 r k c) * hOut X Wout r k j

/-- The column degree gathered in four blocks is the whole column sum of products with one. -/
theorem cdegK_eq (r : Fin 4) (c : Fin 4096) : cdegK A r c = ∑ k : Fin 4096, A (ix3 r k c) * one := by
  have hb : ∀ i, blkD A r i c = ∑ k : Fin 1024, (fun k : Fin 4096 => A (ix3 r k c) * one) (blockRow i k) := fun i => by
    unfold blkD
    exact Finset.sum_congr rfl fun k _ => mul_comm _ _
  unfold cdegK
  rw [hb 0, hb 1, hb 2, hb 3]
  exact four_blocks fun k : Fin 4096 => A (ix3 r k c) * one

/-- The column direction likewise. -/
theorem revK_eq_msgOut (hX : ∀ i, ∃ x : ℝ, X i = (x : EReal)) (hA : ∀ i, ∃ x : ℝ, A i = (x : EReal))
    (hWout : ∀ i, ∃ x : ℝ, Wout i = (x : EReal)) (r : Fin 4) (a : Fin 4096) (j : Fin 64) :
    revK X A Wout r a j = msgOut X A Wout r a j := by
  obtain ⟨e, he, hE⟩ := eps_eq
  choose av hav using hA
  choose hv hhv using fun k => hIn_real X Wout hX hWout r k j
  have hhv' : ∀ k, hOut X Wout r k j = (hv k : EReal) := hhv
  unfold revK msgOut colDeg
  rw [yK_eq, cdegK_eq]
  simp only [hav, hhv', hE, one_eq, zero_eq]
  exact recip_law (fun k => av (ix3 r k a)) hv e he

end

/-- THE LAW: for real inputs the two arrangements are the same extended real at every node and feature. -/
theorem K_eq_G (X : SX.Idx → EReal) (A : SA.Idx → EReal) (Wl : SW.Idx → EReal) (Win Wout : SR.Idx → EReal)
    (hX : ∀ i, ∃ x : ℝ, X i = (x : EReal)) (hA : ∀ i, ∃ x : ℝ, A i = (x : EReal)) (hWl : ∀ i, ∃ x : ℝ, Wl i = (x : EReal))
    (hWin : ∀ i, ∃ x : ℝ, Win i = (x : EReal)) (hWout : ∀ i, ∃ x : ℝ, Wout i = (x : EReal)) (a : Fin 4096) (j : Fin 64) :
    K X A Wl Win Wout a j = G X A Wl Win Wout a j := by
  unfold K G
  simp only [srcK_eq_msgIn X A Win hX hA hWin, revK_eq_msgOut X A Wout hX hA hWout]

end Cert.Rgcn

end
-- ==== Proof.RefValue.lean ====
/-
  The reference program's result, read index by index, is the layer in the arrangement that normalises each
  adjacency entry first and sums afterwards (`Cert.Rgcn.G`).

  The program is a straight line: the features times the self-loop weight, and then for each of the four relations
  two messages, each added to the running result. A message takes one slice of the adjacency stack (as it is, or
  transposed), sums each of its rows from zero, clamps the sum below by the threshold, divides every entry of the
  row by the clamped sum, and multiplies the normalised matrix by the features times that relation's weight. Each
  stage below is read at an index built from coordinates: a slice and its flattening to a matrix name the stack's
  entry (r, a, k); a transposition swaps the two coordinates; a product is the sum over the contracted coordinate;
  a row sum is the initial value plus the sum along the row. The eight messages are the same text with the stage
  numbers changed; the last theorem adds them up in the program's order, which is the order of `G`.
-/
import proofs.«112522_g50646254354673_cont_8to1_c_444_16_alg».proof.Proof.Gen.ReferenceIdeal.Read
import proofs.«112522_g50646254354673_cont_8to1_c_444_16_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx Cert.Rgcn

variable (x0 : (⟨S4096x64, .f32⟩ : BufTy).Contents (Elt Ideal)) (x1 : (⟨S4x4096x4096, .f32⟩ : BufTy).Contents (Elt Ideal))
  (x2 : (⟨S64x64, .f32⟩ : BufTy).Contents (Elt Ideal)) (x3 x4 : (⟨S4x64x64, .f32⟩ : BufTy).Contents (Elt Ideal))

/-! ### The self-loop term -/

/-- The features times the self-loop weight, at (a, j). -/
theorem loop (a : Fin 4096) (j : Fin 64) : val_main_v0 (F := Ideal) x0 x2 (ix2 a j) = loopT x0 x2 a j := by
  rw [val_main_v0_apply]
  unfold loopT
  refine Finset.sum_congr rfl fun l _ => ?_
  rw [show lidx_main_v0 (ix2 a j) l = ix2 a l from funext fun d => Fin.ext (by match d with | ⟨0, _⟩ => rfl | ⟨1, _⟩ => rfl),
    show ridx_main_v0 (ix2 a j) l = ix2 l j from funext fun d => Fin.ext (by match d with | ⟨0, _⟩ => rfl | ⟨1, _⟩ => rfl)]

/-! ### Relation 0: the first adjacency slice, along its rows -/

/-- The first slice of the adjacency stack, flattened to a matrix, at (a, k) is the stack at (0, a, k): the
    flattening's row-major position `a * 4096 + k` splits back into `a` and `k`. -/
theorem adj0 (a k : Fin 4096) : val_main_v2 (F := Ideal) x1 (ix2 a k) = x1 (ix3 0 a k) := by
  rw [val_main_v2_apply, val_main_v1_apply]
  refine congrArg x1 (funext fun d => Fin.ext ?_)
  have ha := a.isLt
  have hk := k.isLt
  match d with
  | ⟨0, _⟩ => rfl
  | ⟨1, _⟩ => show (a.val * 4096 + k.val) / 4096 % 4096 = a.val; omega
  | ⟨2, _⟩ => show (a.val * 4096 + k.val) % 4096 = k.val; omega

/-- The same for the first slice of the row-direction weights. -/
theorem win0 (l j : Fin 64) : val_main_v4 (F := Ideal) x3 (ix2 l j) = x3 (ix3 0 l j) := by
  rw [val_main_v4_apply, val_main_v3_apply]
  refine congrArg x3 (funext fun d => Fin.ext ?_)
  have hl := l.isLt
  have hj := j.isLt
  match d with
  | ⟨0, _⟩ => rfl
  | ⟨1, _⟩ => show (l.val * 64 + j.val) / 64 % 64 = l.val; omega
  | ⟨2, _⟩ => show (l.val * 64 + j.val) % 64 = j.val; omega

/-- The features times the first row-direction weight, at (k, j), is `hIn 0 k j`. -/
theorem hin0 (k : Fin 4096) (j : Fin 64) : val_main_v5 (F := Ideal) x0 x3 (ix2 k j) = hIn x0 x3 0 k j := by
  rw [val_main_v5_apply]
  unfold hIn
  refine Finset.sum_congr rfl fun l _ => ?_
  rw [show lidx_main_v5 (ix2 k j) l = ix2 k l from funext fun d => Fin.ext (by match d with | ⟨0, _⟩ => rfl | ⟨1, _⟩ => rfl),
    show ridx_main_v5 (ix2 k j) l = ix2 l j from funext fun d => Fin.ext (by match d with | ⟨0, _⟩ => rfl | ⟨1, _⟩ => rfl), win0]

/-- The row sum of the slice, from zero, is the row degree. -/
theorem rdeg0 (a : Fin 4096) : val_main_v6 (F := Ideal) x1 (ix1 a) = rowDeg x1 0 a := by
  rw [val_main_v6_apply, val_main_cst_apply]
  unfold rowDeg zero
  refine congrArg (_ + ·) (Finset.sum_congr rfl fun k _ => ?_)
  rw [show idx_main_v6 (ix1 a) k = ix2 a k from funext fun d => Fin.ext (by match d with | ⟨0, _⟩ => rfl | ⟨1, _⟩ => rfl), adj0]

/-- The clamped row degree, kept as a column and spread along the row: the same number at every (a, k). -/
theorem rmax0 (a k : Fin 4096) : val_main_v10 (F := Ideal) x1 (ix2 a k) = max (rowDeg x1 0 a) eps := by
  rw [val_main_v10_apply, val_main_v9_apply, val_main_v7_apply, val_main_v8_apply, val_main_cst_0_apply,
    show idx_main_v7 (idx_main_v10 (ix2 a k)) = ix1 a from funext fun d => Fin.ext (by match d with | ⟨0, _⟩ => rfl), rdeg0]
  rfl

/-- The normalised adjacency entry. -/
theorem rnorm0 (a k : Fin 4096) :
    val_main_v11 (F := Ideal) x1 (ix2 a k) = Ideal.div (x1 (ix3 0 a k)) (max (rowDeg x1 0 a) eps) := by
  rw [val_main_v11_apply, adj0, rmax0]
  rfl

/-- The row-direction message of relation 0: the normalised slice times `hIn 0`. -/
theorem min0 (a : Fin 4096) (j : Fin 64) : val_main_v12 (F := Ideal) x0 x1 x3 (ix2 a j) = msgIn x0 x1 x3 0 a j := by
  rw [val_main_v12_apply]
  unfold msgIn
  refine Finset.sum_congr rfl fun k _ => ?_
  rw [show lidx_main_v12 (ix2 a j) k = ix2 a k from funext fun d => Fin.ext (by match d with | ⟨0, _⟩ => rfl | ⟨1, _⟩ => rfl),
    show ridx_main_v12 (ix2 a j) k = ix2 k j from funext fun d => Fin.ext (by match d with | ⟨0, _⟩ => rfl | ⟨1, _⟩ => rfl), rnorm0, hin0]

/-! ### Relation 0: the same slice transposed, so along its columns -/

/-- The transposed slice at (a, k) is the stack at (0, k, a). -/
theorem adjT0 (a k : Fin 4096) : val_main_v14 (F := Ideal) x1 (ix2 a k) = x1 (ix3 0 k a) := by
  rw [val_main_v14_apply, show idx_main_v14 (ix2 a k) = ix2 k a from funext fun d => Fin.ext (by match d with | ⟨0, _⟩ => rfl | ⟨1, _⟩ => rfl), adj0]

/-- The first slice of the column-direction weights. -/
theorem wout0 (l j : Fin 64) : val_main_v16 (F := Ideal) x4 (ix2 l j) = x4 (ix3 0 l j) := by
  rw [val_main_v16_apply, val_main_v15_apply]
  refine congrArg x4 (funext fun d => Fin.ext ?_)
  have hl := l.isLt
  have hj := j.isLt
  match d with
  | ⟨0, _⟩ => rfl
  | ⟨1, _⟩ => show (l.val * 64 + j.val) / 64 % 64 = l.val; omega
  | ⟨2, _⟩ => show (l.val * 64 + j.val) % 64 = j.val; omega

/-- The features times the first column-direction weight, at (k, j), is `hOut 0 k j`. -/
theorem hout0 (k : Fin 4096) (j : Fin 64) : val_main_v17 (F := Ideal) x0 x4 (ix2 k j) = hOut x0 x4 0 k j := by
  rw [val_main_v17_apply]
  unfold hOut
  refine Finset.sum_congr rfl fun l _ => ?_
  rw [show lidx_main_v17 (ix2 k j) l = ix2 k l from funext fun d => Fin.ext (by match d with | ⟨0, _⟩ => rfl | ⟨1, _⟩ => rfl),
    show ridx_main_v17 (ix2 k j) l = ix2 l j from funext fun d => Fin.ext (by match d with | ⟨0, _⟩ => rfl | ⟨1, _⟩ => rfl), wout0]

/-- The row sum of the transposed slice, from zero, is the column degree. -/
theorem cdeg0 (a : Fin 4096) : val_main_v18 (F := Ideal) x1 (ix1 a) = colDeg x1 0 a := by
  rw [val_main_v18_apply, val_main_cst_1_apply]
  unfold colDeg zero
  refine congrArg (_ + ·) (Finset.sum_congr rfl fun k _ => ?_)
  rw [show idx_main_v18 (ix1 a) k = ix2 a k from funext fun d => Fin.ext (by match d with | ⟨0, _⟩ => rfl | ⟨1, _⟩ => rfl), adjT0]

/-- The clamped column degree at every (a, k). -/
theorem cmax0 (a k : Fin 4096) : val_main_v22 (F := Ideal) x1 (ix2 a k) = max (colDeg x1 0 a) eps := by
  rw [val_main_v22_apply, val_main_v21_apply, val_main_v19_apply, val_main_v20_apply, val_main_cst_2_apply,
    show idx_main_v19 (idx_main_v22 (ix2 a k)) = ix1 a from funext fun d => Fin.ext (by match d with | ⟨0, _⟩ => rfl), cdeg0]
  rfl

/-- The normalised entry of the transposed slice. -/
theorem cnorm0 (a k : Fin 4096) :
    val_main_v23 (F := Ideal) x1 (ix2 a k) = Ideal.div (x1 (ix3 0 k a)) (max (colDeg x1 0 a) eps) := by
  rw [val_main_v23_apply, adjT0, cmax0]
  rfl

/-- The column-direction message of relation 0: the normalised transposed slice times `hOut 0`. -/
theorem mout0 (a : Fin 4096) (j : Fin 64) : val_main_v24 (F := Ideal) x0 x1 x4 (ix2 a j) = msgOut x0 x1 x4 0 a j := by
  rw [val_main_v24_apply]
  unfold msgOut
  refine Finset.sum_congr rfl fun k _ => ?_
  rw [show lidx_main_v24 (ix2 a j) k = ix2 a k from funext fun d => Fin.ext (by match d with | ⟨0, _⟩ => rfl | ⟨1, _⟩ => rfl),
    show ridx_main_v24 (ix2 a j) k = ix2 k j from funext fun d => Fin.ext (by match d with | ⟨0, _⟩ => rfl | ⟨1, _⟩ => rfl), cnorm0, hout0]

/-! ### Relation 1: the second adjacency slice, along its rows -/

/-- The second slice of the adjacency stack, flattened to a matrix, at (a, k) is the stack at (1, a, k): the
    flattening's row-major position `a * 4096 + k` splits back into `a` and `k`. -/
theorem adj1 (a k : Fin 4096) : val_main_v27 (F := Ideal) x1 (ix2 a k) = x1 (ix3 1 a k) := by
  rw [val_main_v27_apply, val_main_v26_apply]
  refine congrArg x1 (funext fun d => Fin.ext ?_)
  have ha := a.isLt
  have hk := k.isLt
  match d with
  | ⟨0, _⟩ => rfl
  | ⟨1, _⟩ => show (a.val * 4096 + k.val) / 4096 % 4096 = a.val; omega
  | ⟨2, _⟩ => show (a.val * 4096 + k.val) % 4096 = k.val; omega

/-- The same for the second slice of the row-direction weights. -/
theorem win1 (l j : Fin 64) : val_main_v29 (F := Ideal) x3 (ix2 l j) = x3 (ix3 1 l j) := by
  rw [val_main_v29_apply, val_main_v28_apply]
  refine congrArg x3 (funext fun d => Fin.ext ?_)
  have hl := l.isLt
  have hj := j.isLt
  match d with
  | ⟨0, _⟩ => rfl
  | ⟨1, _⟩ => show (l.val * 64 + j.val) / 64 % 64 = l.val; omega
  | ⟨2, _⟩ => show (l.val * 64 + j.val) % 64 = j.val; omega

/-- The features times the second row-direction weight, at (k, j), is `hIn 1 k j`. -/
theorem hin1 (k : Fin 4096) (j : Fin 64) : val_main_v30 (F := Ideal) x0 x3 (ix2 k j) = hIn x0 x3 1 k j := by
  rw [val_main_v30_apply]
  unfold hIn
  refine Finset.sum_congr rfl fun l _ => ?_
  rw [show lidx_main_v30 (ix2 k j) l = ix2 k l from funext fun d => Fin.ext (by match d with | ⟨0, _⟩ => rfl | ⟨1, _⟩ => rfl),
    show ridx_main_v30 (ix2 k j) l = ix2 l j from funext fun d => Fin.ext (by match d with | ⟨0, _⟩ => rfl | ⟨1, _⟩ => rfl), win1]

/-- The row sum of the slice, from zero, is the row degree. -/
theorem rdeg1 (a : Fin 4096) : val_main_v31 (F := Ideal) x1 (ix1 a) = rowDeg x1 1 a := by
  rw [val_main_v31_apply, val_main_cst_3_apply]
  unfold rowDeg zero
  refine congrArg (_ + ·) (Finset.sum_congr rfl fun k _ => ?_)
  rw [show idx_main_v31 (ix1 a) k = ix2 a k from funext fun d => Fin.ext (by match d with | ⟨0, _⟩ => rfl | ⟨1, _⟩ => rfl), adj1]

/-- The clamped row degree, kept as a column and spread along the row: the same number at every (a, k). -/
theorem rmax1 (a k : Fin 4096) : val_main_v35 (F := Ideal) x1 (ix2 a k) = max (rowDeg x1 1 a) eps := by
  rw [val_main_v35_apply, val_main_v34_apply, val_main_v32_apply, val_main_v33_apply, val_main_cst_4_apply,
    show idx_main_v32 (idx_main_v35 (ix2 a k)) = ix1 a from funext fun d => Fin.ext (by match d with | ⟨0, _⟩ => rfl), rdeg1]
  rfl

/-- The normalised adjacency entry. -/
theorem rnorm1 (a k : Fin 4096) :
    val_main_v36 (F := Ideal) x1 (ix2 a k) = Ideal.div (x1 (ix3 1 a k)) (max (rowDeg x1 1 a) eps) := by
  rw [val_main_v36_apply, adj1, rmax1]
  rfl

/-- The row-direction message of relation 1: the normalised slice times `hIn 1`. -/
theorem min1 (a : Fin 4096) (j : Fin 64) : val_main_v37 (F := Ideal) x0 x1 x3 (ix2 a j) = msgIn x0 x1 x3 1 a j := by
  rw [val_main_v37_apply]
  unfold msgIn
  refine Finset.sum_congr rfl fun k _ => ?_
  rw [show lidx_main_v37 (ix2 a j) k = ix2 a k from funext fun d => Fin.ext (by match d with | ⟨0, _⟩ => rfl | ⟨1, _⟩ => rfl),
    show ridx_main_v37 (ix2 a j) k = ix2 k j from funext fun d => Fin.ext (by match d with | ⟨0, _⟩ => rfl | ⟨1, _⟩ => rfl), rnorm1, hin1]

/-! ### Relation 1: the same slice transposed, so along its columns -/

/-- The transposed slice at (a, k) is the stack at (1, k, a). -/
theorem adjT1 (a k : Fin 4096) : val_main_v39 (F := Ideal) x1 (ix2 a k) = x1 (ix3 1 k a) := by
  rw [val_main_v39_apply, show idx_main_v39 (ix2 a k) = ix2 k a from funext fun d => Fin.ext (by match d with | ⟨0, _⟩ => rfl | ⟨1, _⟩ => rfl), adj1]

/-- The second slice of the column-direction weights. -/
theorem wout1 (l j : Fin 64) : val_main_v41 (F := Ideal) x4 (ix2 l j) = x4 (ix3 1 l j) := by
  rw [val_main_v41_apply, val_main_v40_apply]
  refine congrArg x4 (funext fun d => Fin.ext ?_)
  have hl := l.isLt
  have hj := j.isLt
  match d with
  | ⟨0, _⟩ => rfl
  | ⟨1, _⟩ => show (l.val * 64 + j.val) / 64 % 64 = l.val; omega
  | ⟨2, _⟩ => show (l.val * 64 + j.val) % 64 = j.val; omega

/-- The features times the second column-direction weight, at (k, j), is `hOut 1 k j`. -/
theorem hout1 (k : Fin 4096) (j : Fin 64) : val_main_v42 (F := Ideal) x0 x4 (ix2 k j) = hOut x0 x4 1 k j := by
  rw [val_main_v42_apply]
  unfold hOut
  refine Finset.sum_congr rfl fun l _ => ?_
  rw [show lidx_main_v42 (ix2 k j) l = ix2 k l from funext fun d => Fin.ext (by match d with | ⟨0, _⟩ => rfl | ⟨1, _⟩ => rfl),
    show ridx_main_v42 (ix2 k j) l = ix2 l j from funext fun d => Fin.ext (by match d with | ⟨0, _⟩ => rfl | ⟨1, _⟩ => rfl), wout1]

/-- The row sum of the transposed slice, from zero, is the column degree. -/
theorem cdeg1 (a : Fin 4096) : val_main_v43 (F := Ideal) x1 (ix1 a) = colDeg x1 1 a := by
  rw [val_main_v43_apply, val_main_cst_5_apply]
  unfold colDeg zero
  refine congrArg (_ + ·) (Finset.sum_congr rfl fun k _ => ?_)
  rw [show idx_main_v43 (ix1 a) k = ix2 a k from funext fun d => Fin.ext (by match d with | ⟨0, _⟩ => rfl | ⟨1, _⟩ => rfl), adjT1]

/-- The clamped column degree at every (a, k). -/
theorem cmax1 (a k : Fin 4096) : val_main_v47 (F := Ideal) x1 (ix2 a k) = max (colDeg x1 1 a) eps := by
  rw [val_main_v47_apply, val_main_v46_apply, val_main_v44_apply, val_main_v45_apply, val_main_cst_6_apply,
    show idx_main_v44 (idx_main_v47 (ix2 a k)) = ix1 a from funext fun d => Fin.ext (by match d with | ⟨0, _⟩ => rfl), cdeg1]
  rfl

/-- The normalised entry of the transposed slice. -/
theorem cnorm1 (a k : Fin 4096) :
    val_main_v48 (F := Ideal) x1 (ix2 a k) = Ideal.div (x1 (ix3 1 k a)) (max (colDeg x1 1 a) eps) := by
  rw [val_main_v48_apply, adjT1, cmax1]
  rfl

/-- The column-direction message of relation 1: the normalised transposed slice times `hOut 1`. -/
theorem mout1 (a : Fin 4096) (j : Fin 64) : val_main_v49 (F := Ideal) x0 x1 x4 (ix2 a j) = msgOut x0 x1 x4 1 a j := by
  rw [val_main_v49_apply]
  unfold msgOut
  refine Finset.sum_congr rfl fun k _ => ?_
  rw [show lidx_main_v49 (ix2 a j) k = ix2 a k from funext fun d => Fin.ext (by match d with | ⟨0, _⟩ => rfl | ⟨1, _⟩ => rfl),
    show ridx_main_v49 (ix2 a j) k = ix2 k j from funext fun d => Fin.ext (by match d with | ⟨0, _⟩ => rfl | ⟨1, _⟩ => rfl), cnorm1, hout1]

/-! ### Relation 2: the third adjacency slice, along its rows -/

/-- The third slice of the adjacency stack, flattened to a matrix, at (a, k) is the stack at (2, a, k): the
    flattening's row-major position `a * 4096 + k` splits back into `a` and `k`. -/
theorem adj2 (a k : Fin 4096) : val_main_v52 (F := Ideal) x1 (ix2 a k) = x1 (ix3 2 a k) := by
  rw [val_main_v52_apply, val_main_v51_apply]
  refine congrArg x1 (funext fun d => Fin.ext ?_)
  have ha := a.isLt
  have hk := k.isLt
  match d with
  | ⟨0, _⟩ => rfl
  | ⟨1, _⟩ => show (a.val * 4096 + k.val) / 4096 % 4096 = a.val; omega
  | ⟨2, _⟩ => show (a.val * 4096 + k.val) % 4096 = k.val; omega

/-- The same for the third slice of the row-direction weights. -/
theorem win2 (l j : Fin 64) : val_main_v54 (F := Ideal) x3 (ix2 l j) = x3 (ix3 2 l j) := by
  rw [val_main_v54_apply, val_main_v53_apply]
  refine congrArg x3 (funext fun d => Fin.ext ?_)
  have hl := l.isLt
  have hj := j.isLt
  match d with
  | ⟨0, _⟩ => rfl
  | ⟨1, _⟩ => show (l.val * 64 + j.val) / 64 % 64 = l.val; omega
  | ⟨2, _⟩ => show (l.val * 64 + j.val) % 64 = j.val; omega

/-- The features times the third row-direction weight, at (k, j), is `hIn 2 k j`. -/
theorem hin2 (k : Fin 4096) (j : Fin 64) : val_main_v55 (F := Ideal) x0 x3 (ix2 k j) = hIn x0 x3 2 k j := by
  rw [val_main_v55_apply]
  unfold hIn
  refine Finset.sum_congr rfl fun l _ => ?_
  rw [show lidx_main_v55 (ix2 k j) l = ix2 k l from funext fun d => Fin.ext (by match d with | ⟨0, _⟩ => rfl | ⟨1, _⟩ => rfl),
    show ridx_main_v55 (ix2 k j) l = ix2 l j from funext fun d => Fin.ext (by match d with | ⟨0, _⟩ => rfl | ⟨1, _⟩ => rfl), win2]

/-- The row sum of the slice, from zero, is the row degree. -/
theorem rdeg2 (a : Fin 4096) : val_main_v56 (F := Ideal) x1 (ix1 a) = rowDeg x1 2 a := by
  rw [val_main_v56_apply, val_main_cst_7_apply]
  unfold rowDeg zero
  refine congrArg (_ + ·) (Finset.sum_congr rfl fun k _ => ?_)
  rw [show idx_main_v56 (ix1 a) k = ix2 a k from funext fun d => Fin.ext (by match d with | ⟨0, _⟩ => rfl | ⟨1, _⟩ => rfl), adj2]

/-- The clamped row degree, kept as a column and spread along the row: the same number at every (a, k). -/
theorem rmax2 (a k : Fin 4096) : val_main_v60 (F := Ideal) x1 (ix2 a k) = max (rowDeg x1 2 a) eps := by
  rw [val_main_v60_apply, val_main_v59_apply, val_main_v57_apply, val_main_v58_apply, val_main_cst_8_apply,
    show idx_main_v57 (idx_main_v60 (ix2 a k)) = ix1 a from funext fun d => Fin.ext (by match d with | ⟨0, _⟩ => rfl), rdeg2]
  rfl

/-- The normalised adjacency entry. -/
theorem rnorm2 (a k : Fin 4096) :
    val_main_v61 (F := Ideal) x1 (ix2 a k) = Ideal.div (x1 (ix3 2 a k)) (max (rowDeg x1 2 a) eps) := by
  rw [val_main_v61_apply, adj2, rmax2]
  rfl

/-- The row-direction message of relation 2: the normalised slice times `hIn 2`. -/
theorem min2 (a : Fin 4096) (j : Fin 64) : val_main_v62 (F := Ideal) x0 x1 x3 (ix2 a j) = msgIn x0 x1 x3 2 a j := by
  rw [val_main_v62_apply]
  unfold msgIn
  refine Finset.sum_congr rfl fun k _ => ?_
  rw [show lidx_main_v62 (ix2 a j) k = ix2 a k from funext fun d => Fin.ext (by match d with | ⟨0, _⟩ => rfl | ⟨1, _⟩ => rfl),
    show ridx_main_v62 (ix2 a j) k = ix2 k j from funext fun d => Fin.ext (by match d with | ⟨0, _⟩ => rfl | ⟨1, _⟩ => rfl), rnorm2, hin2]

/-! ### Relation 2: the same slice transposed, so along its columns -/

/-- The transposed slice at (a, k) is the stack at (2, k, a). -/
theorem adjT2 (a k : Fin 4096) : val_main_v64 (F := Ideal) x1 (ix2 a k) = x1 (ix3 2 k a) := by
  rw [val_main_v64_apply, show idx_main_v64 (ix2 a k) = ix2 k a from funext fun d => Fin.ext (by match d with | ⟨0, _⟩ => rfl | ⟨1, _⟩ => rfl), adj2]

/-- The third slice of the column-direction weights. -/
theorem wout2 (l j : Fin 64) : val_main_v66 (F := Ideal) x4 (ix2 l j) = x4 (ix3 2 l j) := by
  rw [val_main_v66_apply, val_main_v65_apply]
  refine congrArg x4 (funext fun d => Fin.ext ?_)
  have hl := l.isLt
  have hj := j.isLt
  match d with
  | ⟨0, _⟩ => rfl
  | ⟨1, _⟩ => show (l.val * 64 + j.val) / 64 % 64 = l.val; omega
  | ⟨2, _⟩ => show (l.val * 64 + j.val) % 64 = j.val; omega

/-- The features times the third column-direction weight, at (k, j), is `hOut 2 k j`. -/
theorem hout2 (k : Fin 4096) (j : Fin 64) : val_main_v67 (F := Ideal) x0 x4 (ix2 k j) = hOut x0 x4 2 k j := by
  rw [val_main_v67_apply]
  unfold hOut
  refine Finset.sum_congr rfl fun l _ => ?_
  rw [show lidx_main_v67 (ix2 k j) l = ix2 k l from funext fun d => Fin.ext (by match d with | ⟨0, _⟩ => rfl | ⟨1, _⟩ => rfl),
    show ridx_main_v67 (ix2 k j) l = ix2 l j from funext fun d => Fin.ext (by match d with | ⟨0, _⟩ => rfl | ⟨1, _⟩ => rfl), wout2]

/-- The row sum of the transposed slice, from zero, is the column degree. -/
theorem cdeg2 (a : Fin 4096) : val_main_v68 (F := Ideal) x1 (ix1 a) = colDeg x1 2 a := by
  rw [val_main_v68_apply, val_main_cst_9_apply]
  unfold colDeg zero
  refine congrArg (_ + ·) (Finset.sum_congr rfl fun k _ => ?_)
  rw [show idx_main_v68 (ix1 a) k = ix2 a k from funext fun d => Fin.ext (by match d with | ⟨0, _⟩ => rfl | ⟨1, _⟩ => rfl), adjT2]

/-- The clamped column degree at every (a, k). -/
theorem cmax2 (a k : Fin 4096) : val_main_v72 (F := Ideal) x1 (ix2 a k) = max (colDeg x1 2 a) eps := by
  rw [val_main_v72_apply, val_main_v71_apply, val_main_v69_apply, val_main_v70_apply, val_main_cst_10_apply,
    show idx_main_v69 (idx_main_v72 (ix2 a k)) = ix1 a from funext fun d => Fin.ext (by match d with | ⟨0, _⟩ => rfl), cdeg2]
  rfl

/-- The normalised entry of the transposed slice. -/
theorem cnorm2 (a k : Fin 4096) :
    val_main_v73 (F := Ideal) x1 (ix2 a k) = Ideal.div (x1 (ix3 2 k a)) (max (colDeg x1 2 a) eps) := by
  rw [val_main_v73_apply, adjT2, cmax2]
  rfl

/-- The column-direction message of relation 2: the normalised transposed slice times `hOut 2`. -/
theorem mout2 (a : Fin 4096) (j : Fin 64) : val_main_v74 (F := Ideal) x0 x1 x4 (ix2 a j) = msgOut x0 x1 x4 2 a j := by
  rw [val_main_v74_apply]
  unfold msgOut
  refine Finset.sum_congr rfl fun k _ => ?_
  rw [show lidx_main_v74 (ix2 a j) k = ix2 a k from funext fun d => Fin.ext (by match d with | ⟨0, _⟩ => rfl | ⟨1, _⟩ => rfl),
    show ridx_main_v74 (ix2 a j) k = ix2 k j from funext fun d => Fin.ext (by match d with | ⟨0, _⟩ => rfl | ⟨1, _⟩ => rfl), cnorm2, hout2]

/-! ### Relation 3: the fourth adjacency slice, along its rows -/

/-- The fourth slice of the adjacency stack, flattened to a matrix, at (a, k) is the stack at (3, a, k): the
    flattening's row-major position `a * 4096 + k` splits back into `a` and `k`. -/
theorem adj3 (a k : Fin 4096) : val_main_v77 (F := Ideal) x1 (ix2 a k) = x1 (ix3 3 a k) := by
  rw [val_main_v77_apply, val_main_v76_apply]
  refine congrArg x1 (funext fun d => Fin.ext ?_)
  have ha := a.isLt
  have hk := k.isLt
  match d with
  | ⟨0, _⟩ => rfl
  | ⟨1, _⟩ => show (a.val * 4096 + k.val) / 4096 % 4096 = a.val; omega
  | ⟨2, _⟩ => show (a.val * 4096 + k.val) % 4096 = k.val; omega

/-- The same for the fourth slice of the row-direction weights. -/
theorem win3 (l j : Fin 64) : val_main_v79 (F := Ideal) x3 (ix2 l j) = x3 (ix3 3 l j) := by
  rw [val_main_v79_apply, val_main_v78_apply]
  refine congrArg x3 (funext fun d => Fin.ext ?_)
  have hl := l.isLt
  have hj := j.isLt
  match d with
  | ⟨0, _⟩ => rfl
  | ⟨1, _⟩ => show (l.val * 64 + j.val) / 64 % 64 = l.val; omega
  | ⟨2, _⟩ => show (l.val * 64 + j.val) % 64 = j.val; omega

/-- The features times the fourth row-direction weight, at (k, j), is `hIn 3 k j`. -/
theorem hin3 (k : Fin 4096) (j : Fin 64) : val_main_v80 (F := Ideal) x0 x3 (ix2 k j) = hIn x0 x3 3 k j := by
  rw [val_main_v80_apply]
  unfold hIn
  refine Finset.sum_congr rfl fun l _ => ?_
  rw [show lidx_main_v80 (ix2 k j) l = ix2 k l from funext fun d => Fin.ext (by match d with | ⟨0, _⟩ => rfl | ⟨1, _⟩ => rfl),
    show ridx_main_v80 (ix2 k j) l = ix2 l j from funext fun d => Fin.ext (by match d with | ⟨0, _⟩ => rfl | ⟨1, _⟩ => rfl), win3]

/-- The row sum of the slice, from zero, is the row degree. -/
theorem rdeg3 (a : Fin 4096) : val_main_v81 (F := Ideal) x1 (ix1 a) = rowDeg x1 3 a := by
  rw [val_main_v81_apply, val_main_cst_11_apply]
  unfold rowDeg zero
  refine congrArg (_ + ·) (Finset.sum_congr rfl fun k _ => ?_)
  rw [show idx_main_v81 (ix1 a) k = ix2 a k from funext fun d => Fin.ext (by match d with | ⟨0, _⟩ => rfl | ⟨1, _⟩ => rfl), adj3]

/-- The clamped row degree, kept as a column and spread along the row: the same number at every (a, k). -/
theorem rmax3 (a k : Fin 4096) : val_main_v85 (F := Ideal) x1 (ix2 a k) = max (rowDeg x1 3 a) eps := by
  rw [val_main_v85_apply, val_main_v84_apply, val_main_v82_apply, val_main_v83_apply, val_main_cst_12_apply,
    show idx_main_v82 (idx_main_v85 (ix2 a k)) = ix1 a from funext fun d => Fin.ext (by match d with | ⟨0, _⟩ => rfl), rdeg3]
  rfl

/-- The normalised adjacency entry. -/
theorem rnorm3 (a k : Fin 4096) :
    val_main_v86 (F := Ideal) x1 (ix2 a k) = Ideal.div (x1 (ix3 3 a k)) (max (rowDeg x1 3 a) eps) := by
  rw [val_main_v86_apply, adj3, rmax3]
  rfl

/-- The row-direction message of relation 3: the normalised slice times `hIn 3`. -/
theorem min3 (a : Fin 4096) (j : Fin 64) : val_main_v87 (F := Ideal) x0 x1 x3 (ix2 a j) = msgIn x0 x1 x3 3 a j := by
  rw [val_main_v87_apply]
  unfold msgIn
  refine Finset.sum_congr rfl fun k _ => ?_
  rw [show lidx_main_v87 (ix2 a j) k = ix2 a k from funext fun d => Fin.ext (by match d with | ⟨0, _⟩ => rfl | ⟨1, _⟩ => rfl),
    show ridx_main_v87 (ix2 a j) k = ix2 k j from funext fun d => Fin.ext (by match d with | ⟨0, _⟩ => rfl | ⟨1, _⟩ => rfl), rnorm3, hin3]

/-! ### Relation 3: the same slice transposed, so along its columns -/

/-- The transposed slice at (a, k) is the stack at (3, k, a). -/
theorem adjT3 (a k : Fin 4096) : val_main_v89 (F := Ideal) x1 (ix2 a k) = x1 (ix3 3 k a) := by
  rw [val_main_v89_apply, show idx_main_v89 (ix2 a k) = ix2 k a from funext fun d => Fin.ext (by match d with | ⟨0, _⟩ => rfl | ⟨1, _⟩ => rfl), adj3]

/-- The fourth slice of the column-direction weights. -/
theorem wout3 (l j : Fin 64) : val_main_v91 (F := Ideal) x4 (ix2 l j) = x4 (ix3 3 l j) := by
  rw [val_main_v91_apply, val_main_v90_apply]
  refine congrArg x4 (funext fun d => Fin.ext ?_)
  have hl := l.isLt
  have hj := j.isLt
  match d with
  | ⟨0, _⟩ => rfl
  | ⟨1, _⟩ => show (l.val * 64 + j.val) / 64 % 64 = l.val; omega
  | ⟨2, _⟩ => show (l.val * 64 + j.val) % 64 = j.val; omega

/-- The features times the fourth column-direction weight, at (k, j), is `hOut 3 k j`. -/
theorem hout3 (k : Fin 4096) (j : Fin 64) : val_main_v92 (F := Ideal) x0 x4 (ix2 k j) = hOut x0 x4 3 k j := by
  rw [val_main_v92_apply]
  unfold hOut
  refine Finset.sum_congr rfl fun l _ => ?_
  rw [show lidx_main_v92 (ix2 k j) l = ix2 k l from funext fun d => Fin.ext (by match d with | ⟨0, _⟩ => rfl | ⟨1, _⟩ => rfl),
    show ridx_main_v92 (ix2 k j) l = ix2 l j from funext fun d => Fin.ext (by match d with | ⟨0, _⟩ => rfl | ⟨1, _⟩ => rfl), wout3]

/-- The row sum of the transposed slice, from zero, is the column degree. -/
theorem cdeg3 (a : Fin 4096) : val_main_v93 (F := Ideal) x1 (ix1 a) = colDeg x1 3 a := by
  rw [val_main_v93_apply, val_main_cst_13_apply]
  unfold colDeg zero
  refine congrArg (_ + ·) (Finset.sum_congr rfl fun k _ => ?_)
  rw [show idx_main_v93 (ix1 a) k = ix2 a k from funext fun d => Fin.ext (by match d with | ⟨0, _⟩ => rfl | ⟨1, _⟩ => rfl), adjT3]

/-- The clamped column degree at every (a, k). -/
theorem cmax3 (a k : Fin 4096) : val_main_v97 (F := Ideal) x1 (ix2 a k) = max (colDeg x1 3 a) eps := by
  rw [val_main_v97_apply, val_main_v96_apply, val_main_v94_apply, val_main_v95_apply, val_main_cst_14_apply,
    show idx_main_v94 (idx_main_v97 (ix2 a k)) = ix1 a from funext fun d => Fin.ext (by match d with | ⟨0, _⟩ => rfl), cdeg3]
  rfl

/-- The normalised entry of the transposed slice. -/
theorem cnorm3 (a k : Fin 4096) :
    val_main_v98 (F := Ideal) x1 (ix2 a k) = Ideal.div (x1 (ix3 3 k a)) (max (colDeg x1 3 a) eps) := by
  rw [val_main_v98_apply, adjT3, cmax3]
  rfl

/-- The column-direction message of relation 3: the normalised transposed slice times `hOut 3`. -/
theorem mout3 (a : Fin 4096) (j : Fin 64) : val_main_v99 (F := Ideal) x0 x1 x4 (ix2 a j) = msgOut x0 x1 x4 3 a j := by
  rw [val_main_v99_apply]
  unfold msgOut
  refine Finset.sum_congr rfl fun k _ => ?_
  rw [show lidx_main_v99 (ix2 a j) k = ix2 a k from funext fun d => Fin.ext (by match d with | ⟨0, _⟩ => rfl | ⟨1, _⟩ => rfl),
    show ridx_main_v99 (ix2 a j) k = ix2 k j from funext fun d => Fin.ext (by match d with | ⟨0, _⟩ => rfl | ⟨1, _⟩ => rfl), cnorm3, hout3]

/-! ### The sum of the nine terms -/

/-- The reference's result at an index is `G` at its two coordinates. -/
theorem ref_eq (i : S4096x64.Idx) :
    Cert.ReferenceIdeal.Read.val_main_v100 (F := Ideal) x0 x1 x2 x3 x4 i = Cert.Rgcn.G x0 x1 x2 x3 x4 (i 0) (i 1) := by
  obtain ⟨a, j, rfl⟩ : ∃ a j, i = ix2 a j := ⟨i 0, i 1, eq_ix2 i⟩
  show _ = G x0 x1 x2 x3 x4 a j
  rw [val_main_v100_apply, val_main_v88_apply, val_main_v75_apply, val_main_v63_apply, val_main_v50_apply,
    val_main_v38_apply, val_main_v25_apply, val_main_v13_apply,
    loop, min0, mout0, min1, mout1, min2, mout2, min3, mout3]
  rfl

end Cert.ReferenceIdeal.RefValue

end
-- ==== Proof.Finite.lean ====
/-
  Finiteness of the inputs, read back from the certificate's precondition. The precondition tests, for each of the five
  input arrays, that the absolute value of every entry is strictly below the word 0x7F800000 (which denotes +∞), takes
  the conjunction of the tests over all indices, and then the conjunction of the five results. Over the extended reals the
  absolute value of x is max x (-x), which is +∞ exactly when x is one of the two infinities: so the precondition says
  that every entry of every input is a real number.
-/
import proofs.«112522_g50646254354673_cont_8to1_c_444_16_alg».proof.Pre_finite_inputs
import proofs.«112522_g50646254354673_cont_8to1_c_444_16_alg».proof.Proof.Gen.Pre_finite_inputs
import Idealize.ShloMosaic.Lib.ReduceAll
import Idealize.ShloMosaic.Lib.ValueIdx
import Idealize.ShloMosaic.PureOps.Ideal
import proofs.«112522_g50646254354673_cont_8to1_c_444_16_alg».proof.Proof.Consts

noncomputable section

namespace Cert.Rgcn.Finite

open Idealize.ShloMosaic
open Cert.Pre_finite_inputs

/-- The shape of a scalar has exactly one index. -/
local instance scalarIdxSubsingleton : Subsingleton S_.Idx := ⟨fun a b => funext fun d => d.elim0⟩

/-- An extended real whose absolute value max x (-x) is strictly below +∞ is a real number:
    at x = +∞ the maximum is +∞, at x = -∞ it is -(-∞) = +∞. -/
theorem real_of_abs_lt_top (x : EReal) (h : max x (-x) < ⊤) : ∃ r : ℝ, x = (r : EReal) := by
  induction x using EReal.rec with
  | bot => simp at h
  | coe r => exact ⟨r, rfl⟩
  | top => simp at h

/-- One entry's test: |x| < (the word 0x7F800000) comes out 1 only at a real x. -/
theorem real_of_test (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  apply real_of_abs_lt_top
  have h' : Ideal.cmp .olt (max x (-x)) (Ideal.ofBits .f32 0x7F800000#32) = 1#1 := h
  rw [Cert.Rgcn.inf_word] at h'
  unfold Ideal.cmp at h'
  by_contra hn
  simp [hn] at h'

/-- One array's test: the conjunction over all indices of the entries' tests is 1 only when every entry is real. -/
theorem all_real {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : ∃ r : ℝ, x i = (r : EReal) :=
  real_of_test (x i) (Host.reduce_andi_all _ _ hr hu j e i)

theorem finite_of_pre [Cert.Pre_finite_inputs.Facts] (x0 : FVec Ideal S4096x64 .f32) (x1 : FVec Ideal S4x4096x4096 .f32) (x2 : FVec Ideal S64x64 .f32) (x3 x4 : FVec Ideal S4x64x64 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) ∧ (∀ i, ∃ r : ℝ, x4 i = (r : EReal)) := by
  have e := congrFun h ValueIdx.ix0
  dsimp only [fn, fn_part1] at e
  simp only [andi, IntOp.andi_eq_one] at e
  obtain ⟨⟨⟨⟨e0, e1⟩, e2⟩, e3⟩, e4⟩ := e
  exact ⟨all_real x0 _ _ _ _ e0, all_real x1 _ _ _ _ e1, all_real x2 _ _ _ _ e2, all_real x3 _ _ _ _ e3, all_real x4 _ _ _ _ e4⟩

end Cert.Rgcn.Finite

end
-- ==== Proof.lean ====
/- The proof of `Cert.Claim`: frame_Kernel ∧ frame_KernelIdeal ∧ frame_ReferenceIdeal ∧ preserves_Kernel_KernelIdeal ∧
   algebraic_KernelIdeal_ReferenceIdeal.

   The program computes one relational graph-convolution layer: the features times a self-loop weight, plus, for each of
   four relations, a message along the rows of that relation's adjacency slice and a message along its columns, each
   normalised by the row or column sum clamped below by a small positive threshold.

   * The two kernel frames (the program as printed, and its reading over the extended reals): the kernel runs on a grid of
     sixteen points, four relations by four blocks of 1024 rows, and keeps four scratch buffers and the output's staging
     buffer from point to point. Proof/KB/Frame.lean and Proof/KI/Frame.lean name what every kept buffer holds after each
     point, prove the body's obligation at a generic point from the four whole-body runs (first point, first row block of a
     later relation, middle row block, last row block), and run the program: it terminates and the five argument arrays,
     which only input windows stage, end as launched.
   * The reference's frame: Proof/Gen/ReferenceIdeal/Run.lean runs the reference, a straight line of host operations,
     to its composed term; its arguments end as launched.
   * The ideal pass rewrote no operation, so there is nothing to restate between the printed kernel and its ideal reading.
   * The algebraic claim, at the ideal instance. Proof/KI/Inv.lean carries an invariant through the sixteen points: after
     the point of relation r and row block b the transposed features, the two augmented feature buffers, the accumulator of
     the column direction and the output's staging buffer hold the partial sums of Proof/Steps.lean; at the last point the
     staging buffer holds the whole layer in the arrangement that sums first and multiplies by the reciprocal of the
     clamped degree afterwards (`Cert.Rgcn.K`, Proof/Spec.lean). Proof/KI/Final.lean reads the result array off it: the
     output's block is the whole array and is written back at the last point only, so the array ends at `K` of the
     arguments. Proof/RefValue.lean reads the reference's composed term index by index: it is the layer in the arrangement
     that normalises each adjacency entry first and sums afterwards (`Cert.Rgcn.G`). Proof/Finite.lean reads the
     precondition: every entry of every input is a real number. Proof/Algebra.lean joins the two arrangements: for real
     inputs `K = G` at every node and feature, because in the reals multiplication distributes over the finite sums, the
     clamped degree is a positive real so the division is the real quotient, and the four blocks of 1024 rows exhaust the
     4096 rows. -/
import proofs.«112522_g50646254354673_cont_8to1_c_444_16_alg».proof.Defs
import proofs.«112522_g50646254354673_cont_8to1_c_444_16_alg».proof.Proof.Gen.Kernel
import proofs.«112522_g50646254354673_cont_8to1_c_444_16_alg».proof.Proof.Gen.KernelIdeal
import proofs.«112522_g50646254354673_cont_8to1_c_444_16_alg».proof.Proof.Gen.ReferenceIdeal
import proofs.«112522_g50646254354673_cont_8to1_c_444_16_alg».proof.Proof.Gen.ReferenceIdeal.Run
import proofs.«112522_g50646254354673_cont_8to1_c_444_16_alg».proof.Proof.Gen.ReferenceIdeal.Read
import proofs.«112522_g50646254354673_cont_8to1_c_444_16_alg».proof.Proof.Gen.Pre_finite_inputs
import proofs.«112522_g50646254354673_cont_8to1_c_444_16_alg».proof.Proof.KB.Frame
import proofs.«112522_g50646254354673_cont_8to1_c_444_16_alg».proof.Proof.KI.Final
import proofs.«112522_g50646254354673_cont_8to1_c_444_16_alg».proof.Proof.KI.Inv
import proofs.«112522_g50646254354673_cont_8to1_c_444_16_alg».proof.Proof.Algebra
import proofs.«112522_g50646254354673_cont_8to1_c_444_16_alg».proof.Proof.RefValue
import proofs.«112522_g50646254354673_cont_8to1_c_444_16_alg».proof.Proof.Finite
import Idealize.ShloMosaic.Adequacy
import Idealize.ShloMosaic.Init

noncomputable section

namespace Cert.Proof

open Idealize.ShloMosaic Idealize.SL.Sem

/-- What the invariant of the sixteen grid points gives at the last one: on every core, whatever the launch memory, the
    output's staging buffer then holds the layer in the arrangement that sums first, at every node and feature. -/
def LastPoint : Prop :=
  ∀ (m : (ℓ : Loc Cert.KernelIdeal.nD Cert.KernelIdeal.τ Cert.KernelIdeal.sig) → Buf (Elt Ideal) ℓ)
    (c : Dev Cert.KernelIdeal.nD) (h15 : 15 < Cert.KernelIdeal.cfg0.N) (a : Fin 4096) (j : Fin 64),
    (Cert.KernelIdeal.Body.outsAt0 (F := Ideal) m c 15 h15).1 (ValueIdx.ix2 a j)
      = Cert.Rgcn.K (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) a j

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to restate. -/
theorem preserves : Cert.preserves_Kernel_KernelIdeal := trivial

/-- At the ideal instance the kernel's result array ends at `K` of its arguments and the reference's at `G` of its own,
    which agree with the kernel's; the inputs are real by the precondition, and for real inputs `K = G`. -/
theorem algebraic (hlast : LastPoint) : Cert.algebraic_KernelIdeal_ReferenceIdeal := by
  intro m ρ m' ρ' hpre hagree
  refine ⟨fun c => Cert.KernelIdeal.Body.KX m c, Cert.KernelIdeal.Body.run m ρ (hlast m), ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3, f4⟩ := Cert.Rgcn.Finite.finite_of_pre _ _ _ _ _ (hpre c)
  funext i
  rw [Cert.ReferenceIdeal.Read.val_main_v100_eq, Cert.ReferenceIdeal.RefValue.ref_eq,
    (hagree c).1, (hagree c).2.1, (hagree c).2.2.1, (hagree c).2.2.2.1, (hagree c).2.2.2.2]
  exact (Cert.Rgcn.K_eq_G _ _ _ _ _ f0 f1 f2 f3 f4 (i 0) (i 1)).symm

/-- The five claims, given the last point's contents. -/
theorem claim_of (hlast : LastPoint) : Cert.Claim :=
  ⟨Cert.Kernel.Gen.facts, Cert.KernelIdeal.Gen.facts, Cert.ReferenceIdeal.Gen.facts, Cert.Pre_finite_inputs.Gen.facts,
    frame_k, frame_ki, frame_ri, preserves, algebraic hlast⟩

/-- The five claims: the last point's contents are the invariant's last clause (the two bounds on the point's number are
    the same fact, so the statements agree without unfolding the buffers' contents). -/
theorem claim : Cert.Claim :=
  claim_of fun m c _ a j => by with_reducible exact Cert.KernelIdeal.Body.out_last m c a j

end Cert.Proof

end
